-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x1024 : Shape := ⟨3, ![4, 2048, 1024]⟩
abbrev S1024x1024 : Shape := ⟨2, ![1024, 1024]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_

variable [Facts]

def fn_part1 {F : FTy → Type} [FloatOps F] (main_arg4 : FVec F S1024x1024 .f32) (main_arg5 : FVec F S1024x1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  main_v28

def fn {F : FTy → Type} [FloatOps F] (main_arg0 : FVec F S4x2048x1024 .f32) (main_arg1 : FVec F S4x2048x1024 .f32) (main_arg2 : FVec F S4x2048x1024 .f32) (main_arg3 : FVec F S1024x1024 .f32) (main_arg4 : FVec F S1024x1024 .f32) (main_arg5 : FVec F S1024x1024 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S4x2048x1024 .f32 := Host.absf main_arg1
  let main_cst_0 : FVec F S_ .f32 := constant S_ .f32 0x7F800000#32
  let main_v5 : FVec F S4x2048x1024 .f32 := broadcastInDim S4x2048x1024 ![] bcast_S_S4x2048x1024 main_cst_0
  let main_v6 : IVec S4x2048x1024 1 := cmpf .olt main_v4 main_v5
  let main_c_1 : IVec S_ 1 := constantI S_ 1 1#1
  let main_v7 : IVec S_ 1 := (fun x v => Host.reduce IntOp.andi x v reducesTo_S4x2048x1024_S_d0_1_2 h_S_) main_v6 main_c_1
  let main_v8 : IVec S_ 1 := andi main_v3 main_v7
  let main_v9 : FVec F S4x2048x1024 .f32 := Host.absf main_arg2
  let main_cst_2 : FVec F S_ .f32 := constant S_ .f32 0x7F800000#32
  let main_v10 : FVec F S4x2048x1024 .f32 := broadcastInDim S4x2048x1024 ![] bcast_S_S4x2048x1024 main_cst_2
  let main_v11 : IVec S4x2048x1024 1 := cmpf .olt main_v9 main_v10
  let main_c_3 : IVec S_ 1 := constantI S_ 1 1#1
  let main_v12 : IVec S_ 1 := (fun x v => Host.reduce IntOp.andi x v reducesTo_S4x2048x1024_S_d0_1_2 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_v13 main_v16
-- ==== Kernel.lean ====
abbrev S4x2048x1024 : Shape := ⟨3, ![4, 2048, 1024]⟩
abbrev S1024x1024 : Shape := ⟨2, ![1024, 1024]⟩
abbrev S8192x1024 : Shape := ⟨2, ![8192, 1024]⟩
abbrev S512x1024 : Shape := ⟨2, ![512, 1024]⟩
abbrev S1x1024x1024 : Shape := ⟨3, ![1, 1024, 1024]⟩
abbrev S1x512x1024 : Shape := ⟨3, ![1, 512, 1024]⟩
abbrev S1024x1 : Shape := ⟨2, ![1024, 1]⟩
abbrev S1024x512 : Shape := ⟨2, ![1024, 512]⟩
abbrev S1024 : Shape := ⟨1, ![1024]⟩

abbrev nBuf : Space → Nat
  | .hbm => 22
  | .vmem => 26
  | .smem => 0
  | _ => 0

abbrev bufTy : (tb : Table) → Fin (tcTables nBuf tb) → BufTy
  | .hbm, ⟨0, _⟩ => ⟨S4x2048x1024, .f32⟩
  | .hbm, ⟨1, _⟩ => ⟨S4x2048x1024, .f32⟩
  | .hbm, ⟨2, _⟩ => ⟨S4x2048x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S1024x1024, .f32⟩
  | .hbm, ⟨10, _⟩ => ⟨S1024x1024, .bf16⟩
  | .hbm, ⟨11, _⟩ => ⟨S1024x1024, .f32⟩
  | .hbm, ⟨12, _⟩ => ⟨S1024x1024, .bf16⟩
  | .hbm, ⟨13, _⟩ => ⟨S1024x1024, .f32⟩
  | .hbm, ⟨14, _⟩ => ⟨S1024x1024, .bf16⟩
  | .hbm, ⟨15, _⟩ => ⟨S8192x1024, .bf16⟩
  | .hbm, ⟨16, _⟩ => ⟨S8192x1024, .bf16⟩
  | .hbm, ⟨17, _⟩ => ⟨S8192x1024, .bf16⟩
  | .hbm, ⟨18, _⟩ => ⟨S4x2048x1024, .bf16⟩
  | .hbm, ⟨19, _⟩ => ⟨S4x2048x1024, .bf16⟩
  | .hbm, ⟨20, _⟩ => ⟨S4x2048x1024, .bf16⟩
  | .hbm, ⟨21, _⟩ => ⟨S4x2048x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S1x1024x1024, .bf16⟩
  | .local _ .vmem, ⟨16, _⟩ => ⟨S1x1024x1024, .bf16⟩
  | .local _ .vmem, ⟨17, _⟩ => ⟨S1x512x1024, .bf16⟩
  | .local _ .vmem, ⟨18, _⟩ => ⟨S1x512x1024, .bf16⟩
  | .local _ .vmem, ⟨19, _⟩ => ⟨S1x512x1024, .bf16⟩
  | .local _ .vmem, ⟨20, _⟩ => ⟨S1x512x1024, .bf16⟩
  | .local _ .vmem, ⟨21, _⟩ => ⟨S1x1024x1024, .f32⟩
  | .local _ .vmem, ⟨22, _⟩ => ⟨S1x1024x1024, .f32⟩
  | .local _ .vmem, ⟨23, _⟩ => ⟨S1024x1, .f32⟩
  | .local _ .vmem, ⟨24, _⟩ => ⟨S1024x1, .f32⟩
  | .local _ .vmem, ⟨25, _⟩ => ⟨S1024x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9_0 : Ref sig .tc := ⟨.hbm, 15, rfl⟩
abbrev main_v9_1 : Ref sig .tc := ⟨.hbm, 16, rfl⟩
abbrev main_v9_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc1_stg0_0 : Ref sig .tc := ⟨.vmem, 15, rfl⟩
abbrev cc1_stg0_1 : Ref sig .tc := ⟨.vmem, 16, rfl⟩
abbrev cc1_stg1_0 : Ref sig .tc := ⟨.vmem, 17, rfl⟩
abbrev cc1_stg1_1 : Ref sig .tc := ⟨.vmem, 18, rfl⟩
abbrev cc1_stg2_0 : Ref sig .tc := ⟨.vmem, 19, rfl⟩
abbrev cc1_stg2_1 : Ref sig .tc := ⟨.vmem, 20, rfl⟩
abbrev cc1_stg3_0 : Ref sig .tc := ⟨.vmem, 21, rfl⟩
abbrev cc1_stg3_1 : Ref sig .tc := ⟨.vmem, 22, rfl⟩
abbrev cc1_scratch0 : Ref sig .tc := ⟨.vmem, 23, rfl⟩
abbrev cc1_scratch1 : Ref sig .tc := ⟨.vmem, 24, rfl⟩
abbrev cc1_scratch2 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc1_sem0_0 : DmaSem sig := 15
abbrev cc1_sem0_1 : DmaSem sig := 16
abbrev cc1_sem1_0 : DmaSem sig := 17
abbrev cc1_sem1_1 : DmaSem sig := 18
abbrev cc1_sem2_0 : DmaSem sig := 19
abbrev cc1_sem2_1 : DmaSem sig := 20
abbrev cc1_sem3_0 : DmaSem sig := 21
abbrev cc1_sem3_1 : DmaSem sig := 22

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨3, ![4, 2, 4], ![false, false, false]⟩

def k1_cond2 (i : grid1.Coords) : BitVec 1 :=
  let arg2 : BitVec 32 := BitVec.ofNat 32 (i 2).val
  let c3_i32 : BitVec 32 := 3#32
  let v52 : BitVec 1 := Scalar.cmpi .eq arg2 c3_i32
  let v53 : BitVec 32 := Scalar.extui v52
  let c0_i32_26 : BitVec 32 := 0#32
  let v54 : BitVec 1 := Scalar.cmpi .ne v53 c0_i32_26
  v54

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc1_transform_3 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage1_0 : Fin 2 → Memref sig .tc .vmem S1x1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, false]

abbrev stage1_1 : Fin 2 → Memref sig .tc .vmem S1x512x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false, true]

abbrev stage1_2 : Fin 2 → Memref sig .tc .vmem S1x512x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false, true]

abbrev stage1_3 : Fin 2 → Memref sig .tc .vmem S1x1024x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

class Facts₀ : Prop where
  shapeCasts_S4x2048x1024_S8192x1024 : S4x2048x1024.ShapeCasts S8192x1024
  transposes_S1024x1024_S1024x1024_1_0 : S1024x1024.Transposes [1, 0] S1024x1024
  bitsLt_bf16_f32 : FTy.bits .bf16 < FTy.bits .f32
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  packedbf16_S512x1024_S512x1024_0_0 : (Rect.unit (s := S512x1024) ![0, 0] S512x1024.size inb_S512x1024_S512x1024_0_0).PackedRows (EltTy.packing .bf16)
  shapeCasts_S8192x1024_S4x2048x1024 : S8192x1024.ShapeCasts S4x2048x1024
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  iota_S1024x512_d0_w32 : S1024x512.Iotas .tc 32 [0]
  iota_S1024x512_d1_w32 : S1024x512.Iotas .tc 32 [1]
  reduces_S1024x512_S1024 : S1024x512.Reduces [1] S1024
  shapeCasts_S1024_S1024x1 : S1024.ShapeCasts S1024x1
  broadcasts_S1024x1_S1024x512 : S1024x1.Broadcasts S1024x512
  broadcasts_S1024x1_S1024x1024 : S1024x1.Broadcasts S1024x1024
  shapeCasts_S1024x1024_S1x1024x1024 : S1024x1024.ShapeCasts S1x1024x1024
  dot_S512x1024_S1024x1024_S512x1024_1_0_0_1_n_n_wf : DotDims.WF S512x1024 S1024x1024 S512x1024 [1] [0] [0] [1] [] []
  dot_S1024x1024_S512x1024_S1024x512_1_1_0_0_n_n_wf : DotDims.WF S1024x1024 S512x1024 S1024x512 [1] [1] [0] [0] [] []
  dot_S1024x512_S512x1024_S1024x1024_1_0_0_1_n_n_wf : DotDims.WF S1024x512 S512x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S8192x1024.size a
  hwx0_0 : ∀ i : grid0.Coords, EltTy.bits .f32 = 32 ∨ (Rect.block (s := S8192x1024) S512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S8192x1024.size a
  hwx0_1 : ∀ i : grid0.Coords, EltTy.bits .f32 = 32 ∨ (Rect.block (s := S8192x1024) S512x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S8192x1024.size a
  hwx0_2 : ∀ i : grid0.Coords, EltTy.bits .f32 = 32 ∨ (Rect.block (s := S8192x1024) S512x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S1024x1024.size a
  hwx0_4 : ∀ i : grid0.Coords, EltTy.bits .bf16 = 32 ∨ (Rect.block (s := S1024x1024) S1024x1024.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x1024.size a ≤ S1024x1024.size a
  hwx0_5 : ∀ i : grid0.Coords, EltTy.bits .bf16 = 32 ∨ (Rect.block (s := S1024x1024) S1024x1024.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x1024.size a ≤ S8192x1024.size a
  hwx0_6 : ∀ i : grid0.Coords, EltTy.bits .bf16 = 32 ∨ (Rect.block (s := S8192x1024) S512x1024.size (cc0_transform_6 i) (hinb0_6 i)).WholeWords (EltTy.packing .bf16)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S512x1024.size a ≤ S8192x1024.size a
  hwx0_7 : ∀ i : grid0.Coords, EltTy.bits .bf16 = 32 ∨ (Rect.block (s := S8192x1024) S512x1024.size (cc0_transform_7 i) (hinb0_7 i)).WholeWords (EltTy.packing .bf16)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S512x1024.size a ≤ S8192x1024.size a
  hwx0_8 : ∀ i : grid0.Coords, EltTy.bits .bf16 = 32 ∨ (Rect.block (s := S8192x1024) S512x1024.size (cc0_transform_8 i) (hinb0_8 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1024x1024.size a ≤ S4x2048x1024.size a
  hwx1_0 : ∀ i : grid1.Coords, EltTy.bits .bf16 = 32 ∨ (Rect.block (s := S4x2048x1024) S1x1024x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x512x1024.size a ≤ S4x2048x1024.size a
  hwx1_1 : ∀ i : grid1.Coords, EltTy.bits .bf16 = 32 ∨ (Rect.block (s := S4x2048x1024) S1x512x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x512x1024.size a ≤ S4x2048x1024.size a
  hwx1_2 : ∀ i : grid1.Coords, EltTy.bits .bf16 = 32 ∨ (Rect.block (s := S4x2048x1024) S1x512x1024.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1024x1024.size a ≤ S4x2048x1024.size a
  hwx1_3 : ∀ i : grid1.Coords, EltTy.bits .f32 = 32 ∨ (Rect.block (s := S4x2048x1024) S1x1024x1024.size (cc1_transform_3 i) (hinb1_3 i)).WholeWords (EltTy.packing .f32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf
def dot_S1024x1024_S512x1024_S1024x512_1_1_0_0_n_n : DotDims S1024x1024 S512x1024 S1024x512 where
  lhsContracting := [1]
  rhsContracting := [1]
  lhsNonContracting := [0]
  rhsNonContracting := [0]
  lhsBatch := []
  rhsBatch := []
  wf := dot_S1024x1024_S512x1024_S1024x512_1_1_0_0_n_n_wf
def dot_S1024x512_S512x1024_S1024x1024_1_0_0_1_n_n : DotDims S1024x512 S512x1024 S1024x1024 where
  lhsContracting := [1]
  rhsContracting := [0]
  lhsNonContracting := [0]
  rhsNonContracting := [1]
  lhsBatch := []
  rhsBatch := []
  wf := dot_S1024x512_S512x1024_S1024x1024_1_0_0_1_n_n_wf

abbrev win0_0 : Pipeline.Window sig grid0 :=
  Pipeline.Window.ofSpec (Memref.whole main_v0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S512x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6) S1024x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v8) S1024x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v9_0) S512x1024.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v9_1) S512x1024.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v9_2) S512x1024.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpec (Memref.whole main_v10) S1x1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v11) S1x512x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v12) S1x512x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v13) S1x1024x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== ReferenceIdeal.lean ====
abbrev S4x2048x1024 : Shape := ⟨3, ![4, 2048, 1024]⟩
abbrev S1024x1024 : Shape := ⟨2, ![1024, 1024]⟩
abbrev S4x2048x2048 : Shape := ⟨3, ![4, 2048, 2048]⟩
abbrev S_ : Shape := ⟨0, ![]⟩
abbrev S2048x2048 : Shape := ⟨2, ![2048, 2048]⟩
abbrev S4x2048 : Shape := ⟨2, ![4, 2048]⟩
abbrev S4x2048x1 : Shape := ⟨3, ![4, 2048, 1]⟩

abbrev nBuf : Space → Nat
  | .hbm => 44
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S4x2048x1024, .f32⟩
  | .hbm, ⟨2, _⟩ => ⟨S4x2048x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S4x2048x1024, .f32⟩
  | .hbm, ⟨7, _⟩ => ⟨S4x2048x1024, .f32⟩
  | .hbm, ⟨8, _⟩ => ⟨S4x2048x1024, .f32⟩
  | .hbm, ⟨9, _⟩ => ⟨S4x2048x2048, .f32⟩
  | .hbm, ⟨10, _⟩ => ⟨S_, .i1⟩
  | .hbm, ⟨11, _⟩ => ⟨S2048x2048, .i1⟩
  | .hbm, ⟨12, _⟩ => ⟨S2048x2048, .i32⟩
  | .hbm, ⟨13, _⟩ => ⟨S_, .i32⟩
  | .hbm, ⟨14, _⟩ => ⟨S2048x2048, .i32⟩
  | .hbm, ⟨15, _⟩ => ⟨S2048x2048, .i32⟩
  | .hbm, ⟨16, _⟩ => ⟨S2048x2048, .i32⟩
  | .hbm, ⟨17, _⟩ => ⟨S2048x2048, .i1⟩
  | .hbm, ⟨18, _⟩ => ⟨S_, .i1⟩
  | .hbm, ⟨19, _⟩ => ⟨S2048x2048, .i1⟩
  | .hbm, ⟨20, _⟩ => ⟨S2048x2048, .i1⟩
  | .hbm, ⟨21, _⟩ => ⟨S_, .f32⟩
  | .hbm, ⟨22, _⟩ => ⟨S_, .f32⟩
  | .hbm, ⟨23, _⟩ => ⟨S4x2048x2048, .i1⟩
  | .hbm, ⟨24, _⟩ => ⟨S4x2048x2048, .f32⟩
  | .hbm, ⟨25, _⟩ => ⟨S4x2048x2048, .f32⟩
  | .hbm, ⟨26, _⟩ => ⟨S_, .f32⟩
  | .hbm, ⟨27, _⟩ => ⟨S4x2048x2048, .f32⟩
  | .hbm, ⟨28, _⟩ => ⟨S4x2048x2048, .f32⟩
  | .hbm, ⟨29, _⟩ => ⟨S_, .f32⟩
  | .hbm, ⟨30, _⟩ => ⟨S4x2048, .f32⟩
  | .hbm, ⟨31, _⟩ => ⟨S_, .f32⟩
  | .hbm, ⟨32, _⟩ => ⟨S4x2048, .f32⟩
  | .hbm, ⟨33, _⟩ => ⟨S4x2048, .f32⟩
  | .hbm, ⟨34, _⟩ => ⟨S4x2048x1, .f32⟩
  | .hbm, ⟨35, _⟩ => ⟨S4x2048x2048, .f32⟩
  | .hbm, ⟨36, _⟩ => ⟨S4x2048x2048, .f32⟩
  | .hbm, ⟨37, _⟩ => ⟨S4x2048x2048, .f32⟩
  | .hbm, ⟨38, _⟩ => ⟨S_, .f32⟩
  | .hbm, ⟨39, _⟩ => ⟨S4x2048, .f32⟩
  | .hbm, ⟨40, _⟩ => ⟨S4x2048x1, .f32⟩
  | .hbm, ⟨41, _⟩ => ⟨S4x2048x2048, .f32⟩
  | .hbm, ⟨42, _⟩ => ⟨S4x2048x2048, .f32⟩
  | .hbm, ⟨43, _⟩ => ⟨S4x2048x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_call0_v0 : Ref sig .tc := ⟨.hbm, 12, rfl⟩
abbrev main_call0_c : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_c_0 : Ref sig .tc := ⟨.hbm, 18, rfl⟩
abbrev main_call0_v5 : Ref sig .tc := ⟨.hbm, 19, rfl⟩
abbrev main_v5 : Ref sig .tc := ⟨.hbm, 20, rfl⟩
abbrev main_cst : Ref sig .tc := ⟨.hbm, 21, rfl⟩
abbrev main_call1_v0 : Ref sig .tc := ⟨.hbm, 22, rfl⟩
abbrev main_call1_v1 : Ref sig .tc := ⟨.hbm, 23, rfl⟩
abbrev main_call1_v2 : Ref sig .tc := ⟨.hbm, 24, rfl⟩
abbrev main_v6 : Ref sig .tc := ⟨.hbm, 25, rfl⟩
abbrev main_cst_0 : Ref sig .tc := ⟨.hbm, 26, rfl⟩
abbrev main_v7 : Ref sig .tc := ⟨.hbm, 27, rfl⟩
abbrev main_v8 : Ref sig .tc := ⟨.hbm, 28, rfl⟩
abbrev main_cst_1 : Ref sig .tc := ⟨.hbm, 29, rfl⟩
abbrev main_v9 : Ref sig .tc := ⟨.hbm, 30, rfl⟩
abbrev main_cst_2 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_cst_3 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩

abbrev nD : Nat := 1
abbrev τ : Topo := Topo.v7x

variable {F : FTy → Type} [FloatOps F]

class Facts₀ : Prop where
  bcast_S_S2048x2048 : S_.BroadcastsInDim S2048x2048 (![] : Fin 0 → Fin S2048x2048.rank)
  bcast_S2048x2048_S4x2048x2048_1_2 : S2048x2048.BroadcastsInDim S4x2048x2048 (![1, 2] : Fin 2 → Fin S4x2048x2048.rank)
  bcast_S_S4x2048x2048 : S_.BroadcastsInDim S4x2048x2048 (![] : Fin 0 → Fin S4x2048x2048.rank)
  reducesTo_S4x2048x2048_S4x2048_d2 : S4x2048x2048.ReducesTo [2] S4x2048
  h_S_ : 0 < S_.numel
  bcast_S_S4x2048 : S_.BroadcastsInDim S4x2048 (![] : Fin 0 → Fin S4x2048.rank)
  bcast_S4x2048_S4x2048x1_0_1 : S4x2048.BroadcastsInDim S4x2048x1 (![0, 1] : Fin 2 → Fin S4x2048x1.rank)
  bcast_S4x2048x1_S4x2048x2048_0_1_2 : S4x2048x1.BroadcastsInDim S4x2048x2048 (![0, 1, 2] : Fin 3 → Fin S4x2048x2048.rank)
  dot_S4x2048x1024_S1024x1024_S4x2048x1024_2_1_01_0_n_n_wf : DotDims.WF S4x2048x1024 S1024x1024 S4x2048x1024 [2] [1] [0, 1] [0] [] []
  dot_S4x2048x1024_S4x2048x1024_S4x2048x2048_2_2_1_1_0_0_wf : DotDims.WF S4x2048x1024 S4x2048x1024 S4x2048x2048 [2] [2] [1] [1] [0] [0]
  dot_S4x2048x2048_S4x2048x1024_S4x2048x1024_2_1_1_2_0_0_wf : DotDims.WF S4x2048x2048 S4x2048x1024 S4x2048x1024 [2] [1] [1] [2] [0] [0]

variable [Facts₀]

def dot_S4x2048x1024_S1024x1024_S4x2048x1024_2_1_01_0_n_n : DotDims S4x2048x1024 S1024x1024 S4x2048x1024 where
  lhsContracting := [2]
  rhsContracting := [1]
  lhsNonContracting := [0, 1]
  rhsNonContracting := [0]
  lhsBatch := []
  rhsBatch := []
  wf := dot_S4x2048x1024_S1024x1024_S4x2048x1024_2_1_01_0_n_n_wf
def dot_S4x2048x1024_S4x2048x1024_S4x2048x2048_2_2_1_1_0_0 : DotDims S4x2048x1024 S4x2048x1024 S4x2048x2048 where
  lhsContracting := [2]
  rhsContracting := [2]
  lhsNonContracting := [1]
  rhsNonContracting := [1]
  lhsBatch := [0]
  rhsBatch := [0]
  wf := dot_S4x2048x1024_S4x2048x1024_S4x2048x2048_2_2_1_1_0_0_wf
def dot_S4x2048x2048_S4x2048x1024_S4x2048x1024_2_1_1_2_0_0 : DotDims S4x2048x2048 S4x2048x1024 S4x2048x1024 where
  lhsContracting := [2]
  rhsContracting := [1]
  lhsNonContracting := [1]
  rhsNonContracting := [2]
  lhsBatch := [0]
  rhsBatch := [0]
  wf := dot_S4x2048x2048_S4x2048x1024_S4x2048x1024_2_1_1_2_0_0_wf

class Facts : Prop extends Facts₀ where

variable [Facts]
-- ==== Proof.ProjBodyB.lean ====
/-
  The projection kernel's body at one grid point. The point reads a 512-row tile of each of the three
  reshaped inputs and the three whole transposed weight matrices, and overwrites the current staging buffer of each
  of the three results with ONE whole store: tile times weight matrix. Stated for any float instance.
-/
import proofs.«174840_j29523605193128_2_alg».proof.Proof.Gen.Kernel.Launch
import proofs.«174840_j29523605193128_2_alg».proof.Proof.Gen.Kernel.Skeleton
import proofs.«174840_j29523605193128_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The whole rectangle of a 512×1024 staging buffer, and of a 1024×1024 one. -/
abbrev rTile : Rect S512x1024 := Rect.unit (s := S512x1024) ![0, 0] S512x1024.size inb_S512x1024_S512x1024_0_0
abbrev rMat : Rect S1024x1024 := Rect.unit (s := S1024x1024) ![0, 0] S1024x1024.size inb_S1024x1024_S1024x1024_0_0

/-- What the body leaves in each result's staging buffer: its one store, of the row tile times the weight matrix. -/
def projOutQ (x : Vec F S512x1024 .f32) (w : Vec F S1024x1024 .bf16) : Vec F S512x1024 .bf16 :=
  View.canon [⟨rTile, k0_pay1 (View.ld x rTile) (View.ld w rMat)⟩]
def projOutK (x : Vec F S512x1024 .f32) (w : Vec F S1024x1024 .bf16) : Vec F S512x1024 .bf16 :=
  View.canon [⟨rTile, k0_pay2 (View.ld x rTile) (View.ld w rMat)⟩]
def projOutV (x : Vec F S512x1024 .f32) (w : Vec F S1024x1024 .bf16) : Vec F S512x1024 .bf16 :=
  View.canon [⟨rTile, k0_pay3 (View.ld x rTile) (View.ld w rMat)⟩]

/-- One whole store covers the buffer. -/
theorem tileCover (p0 : Vec F S512x1024 .bf16) (y : S512x1024.Idx) :
    ∃ pc ∈ ([⟨rTile, p0⟩] : List (View.Piece (Elt F) S512x1024 .bf16)), y ∈ pc.1.set :=
  View.cover_of_tiled [⟨rTile, p0⟩] S512x1024.size (by rfl) y

set_option maxHeartbeats 4000000 in
/-- The body on whole staging memrefs: the six inputs held at their contents come back unchanged, each result's
    buffer (at anything before) ends at its tile product. -/
theorem projBody_sound (c : Dev nD) (E : Set ℕ) (i : grid0.Coords)
    (arg1 : Memref sig .tc .vmem S512x1024 .f32) (harg1 : arg1.IsWhole) (arg2 : Memref sig .tc .vmem S512x1024 .f32) (harg2 : arg2.IsWhole)
    (arg3 : Memref sig .tc .vmem S512x1024 .f32) (harg3 : arg3.IsWhole) (arg4 : Memref sig .tc .vmem S1024x1024 .bf16) (harg4 : arg4.IsWhole)
    (arg5 : Memref sig .tc .vmem S1024x1024 .bf16) (harg5 : arg5.IsWhole) (arg6 : Memref sig .tc .vmem S1024x1024 .bf16) (harg6 : arg6.IsWhole)
    (arg7 : Memref sig .tc .vmem S512x1024 .bf16) (harg7 : arg7.IsWhole) (arg8 : Memref sig .tc .vmem S512x1024 .bf16) (harg8 : arg8.IsWhole)
    (arg9 : Memref sig .tc .vmem S512x1024 .bf16) (harg9 : arg9.IsWhole)
    (x0 x1 x2 : Vec F S512x1024 .f32) (w0 w1 w2 : Vec F S1024x1024 .bf16) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare w0 ∗ owns (c : Thread nD τ) arg5 fullShare w1 ∗ owns (c : Thread nD τ) arg6 fullShare w2
        ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2
            ∗ owns (c : Thread nD τ) arg4 fullShare w0 ∗ owns (c : Thread nD τ) arg5 fullShare w1 ∗ owns (c : Thread nD τ) arg6 fullShare w2
            ∗ owns (c : Thread nD τ) arg7 fullShare (projOutQ x0 w0) ∗ owns (c : Thread nD τ) arg8 fullShare (projOutK x1 w1)
            ∗ owns (c : Thread nD τ) arg9 fullShare (projOutV x2 w2)) -∗ K ⟨⟩))
      ⊢ wp frame (wpE (defs₀ (F := F)) Variants.none c none) E
          (cc0__proj_kernel i arg1 harg1 arg2 harg2 arg3 harg3 arg4 harg4 arg5 harg5 arg6 harg6 arg7 harg7 arg8 harg8 arg9 harg9) K := by
  simp only [cc0__proj_kernel_eq_skeleton]; unfold cc0__proj_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩,
    ⟨%d7, %f7, -, H7⟩, ⟨%d8, %f8, -, H8⟩, ⟨%d9, %f9, -, H9⟩, Hk⟩
  subst hf1; subst hf2; subst hf3; subst hf4; subst hf5; subst hf6
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    exact View.read_writes_eq_canon _ _ _ (tileCover _)
  isplitl [H8]
  · iexists _; isplitr
    swap; · iexact H8
    ipureintro
    exact View.read_writes_eq_canon _ _ _ (tileCover _)
  iexists _; isplitr
  swap; · iexact H9
  ipureintro
  exact View.read_writes_eq_canon _ _ _ (tileCover _)

end Cert.Kernel.Hand

end
-- ==== Proof.ProjRegionB.lean ====
/-
  The projection region as the pipeline sees it, at any contents V of the core's buffers when the region is entered:
  window w's block at a point is read off V; an input's staging buffer holds its block at every point (fetched there
  or kept from the point before); each result's buffer ends at the tile product; the region invariant is the class's
  (the scoped rest and the generator register pass through untouched).
-/
import proofs.«174840_j29523605193128_2_alg».proof.Proof.ProjBodyB

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window w's block at point t, read off its array as the region finds it. -/
def projBlk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem projBefore0_of {c : Dev nD} (dat : Dat τ (Elt F) Unit ℕ (UR sig nD τ) ℕ cfg0 c) (hA : dat.A 0 = V c (Pipeline.arrRef spec0 0))
    (hafter : ∀ t, dat.after 0 t = projBlk V c 0 t) (t : Fin cfg0.N) (d) : dat.before 0 t d = projBlk V c 0 t :=
  (dat.before_in_eq_fetched 0 rfl (fun _ => rfl) (fun _ _ _ => rfl) (fun t => by rw [hafter]; unfold Dat.blockOf projBlk; rw [hA]; try rfl) t d).trans
    (by unfold Dat.fetched Dat.blockOf projBlk; rw [hA]; try rfl)
theorem projBefore1_of {c : Dev nD} (dat : Dat τ (Elt F) Unit ℕ (UR sig nD τ) ℕ cfg0 c) (hA : dat.A 1 = V c (Pipeline.arrRef spec0 1))
    (hafter : ∀ t, dat.after 1 t = projBlk V c 1 t) (t : Fin cfg0.N) (d) : dat.before 1 t d = projBlk V c 1 t :=
  (dat.before_in_eq_fetched 1 rfl (fun _ => rfl) (fun _ _ _ => rfl) (fun t => by rw [hafter]; unfold Dat.blockOf projBlk; rw [hA]; try rfl) t d).trans
    (by unfold Dat.fetched Dat.blockOf projBlk; rw [hA]; try rfl)
theorem projBefore2_of {c : Dev nD} (dat : Dat τ (Elt F) Unit ℕ (UR sig nD τ) ℕ cfg0 c) (hA : dat.A 2 = V c (Pipeline.arrRef spec0 2))
    (hafter : ∀ t, dat.after 2 t = projBlk V c 2 t) (t : Fin cfg0.N) (d) : dat.before 2 t d = projBlk V c 2 t :=
  (dat.before_in_eq_fetched 2 rfl (fun _ => rfl) (fun _ _ _ => rfl) (fun t => by rw [hafter]; unfold Dat.blockOf projBlk; rw [hA]; try rfl) t d).trans
    (by unfold Dat.fetched Dat.blockOf projBlk; rw [hA]; try rfl)
theorem projBefore3_of {c : Dev nD} (dat : Dat τ (Elt F) Unit ℕ (UR sig nD τ) ℕ cfg0 c) (hA : dat.A 3 = V c (Pipeline.arrRef spec0 3))
    (hafter : ∀ t, dat.after 3 t = projBlk V c 3 t) (t : Fin cfg0.N) (d) : dat.before 3 t d = projBlk V c 3 t :=
  (dat.before_in_eq_fetched 3 rfl (fun _ => rfl) (fun _ _ _ => rfl) (fun t => by rw [hafter]; unfold Dat.blockOf projBlk; rw [hA]; try rfl) t d).trans
    (by unfold Dat.fetched Dat.blockOf projBlk; rw [hA]; try rfl)
theorem projBefore4_of {c : Dev nD} (dat : Dat τ (Elt F) Unit ℕ (UR sig nD τ) ℕ cfg0 c) (hA : dat.A 4 = V c (Pipeline.arrRef spec0 4))
    (hafter : ∀ t, dat.after 4 t = projBlk V c 4 t) (t : Fin cfg0.N) (d) : dat.before 4 t d = projBlk V c 4 t :=
  (dat.before_in_eq_fetched 4 rfl (fun _ => rfl) (fun _ _ _ => rfl) (fun t => by rw [hafter]; unfold Dat.blockOf projBlk; rw [hA]; try rfl) t d).trans
    (by unfold Dat.fetched Dat.blockOf projBlk; rw [hA]; try rfl)
theorem projBefore5_of {c : Dev nD} (dat : Dat τ (Elt F) Unit ℕ (UR sig nD τ) ℕ cfg0 c) (hA : dat.A 5 = V c (Pipeline.arrRef spec0 5))
    (hafter : ∀ t, dat.after 5 t = projBlk V c 5 t) (t : Fin cfg0.N) (d) : dat.before 5 t d = projBlk V c 5 t :=
  (dat.before_in_eq_fetched 5 rfl (fun _ => rfl) (fun _ _ _ => rfl) (fun t => by rw [hafter]; unfold Dat.blockOf projBlk; rw [hA]; try rfl) t d).trans
    (by unfold Dat.fetched Dat.blockOf projBlk; rw [hA]; try rfl)

/-- The proof data of the projection pipeline on core c. -/
def projDat (c : Dev nD) : Dat τ (Elt F) Unit ℕ (UR sig nD τ) ℕ cfg0 c where
  A w := V c (Pipeline.arrRef spec0 w)
  after w t := match w with
    | ⟨0, _⟩ => projBlk V c 0 t
    | ⟨1, _⟩ => projBlk V c 1 t
    | ⟨2, _⟩ => projBlk V c 2 t
    | ⟨3, _⟩ => projBlk V c 3 t
    | ⟨4, _⟩ => projBlk V c 4 t
    | ⟨5, _⟩ => projBlk V c 5 t
    | ⟨6, _⟩ => projOutQ (projBlk V c 0 t) (projBlk V c 3 t)
    | ⟨7, _⟩ => projOutK (projBlk V c 1 t) (projBlk V c 4 t)
    | ⟨8, _⟩ => projOutV (projBlk V c 2 t) (projBlk V c 5 t)
  Φ _ := Pipeline.ΦA spec0 c
  q _ := fullShare
  owed _ := 0

theorem projA_eq (c : Dev nD) (w : Fin cfg0.W) : (projDat V c).A w = V c (Pipeline.arrRef spec0 w) := by
  dsimp only [projDat]

theorem projAfter0 (c : Dev nD) (t : Fin cfg0.N) : (projDat V c).after 0 t = projBlk V c 0 t := by dsimp only [projDat]
theorem projAfter1 (c : Dev nD) (t : Fin cfg0.N) : (projDat V c).after 1 t = projBlk V c 1 t := by dsimp only [projDat]
theorem projAfter2 (c : Dev nD) (t : Fin cfg0.N) : (projDat V c).after 2 t = projBlk V c 2 t := by dsimp only [projDat]
theorem projAfter3 (c : Dev nD) (t : Fin cfg0.N) : (projDat V c).after 3 t = projBlk V c 3 t := by dsimp only [projDat]
theorem projAfter4 (c : Dev nD) (t : Fin cfg0.N) : (projDat V c).after 4 t = projBlk V c 4 t := by dsimp only [projDat]
theorem projAfter5 (c : Dev nD) (t : Fin cfg0.N) : (projDat V c).after 5 t = projBlk V c 5 t := by dsimp only [projDat]
theorem projAfter6 (c : Dev nD) (t : Fin cfg0.N) : (projDat V c).after 6 t = projOutQ (projBlk V c 0 t) (projBlk V c 3 t) := by dsimp only [projDat]
theorem projAfter7 (c : Dev nD) (t : Fin cfg0.N) : (projDat V c).after 7 t = projOutK (projBlk V c 1 t) (projBlk V c 4 t) := by dsimp only [projDat]
theorem projAfter8 (c : Dev nD) (t : Fin cfg0.N) : (projDat V c).after 8 t = projOutV (projBlk V c 2 t) (projBlk V c 5 t) := by dsimp only [projDat]

theorem projBefore0 (c : Dev nD) (t : Fin cfg0.N) (d) : (projDat V c).before 0 t d = projBlk V c 0 t :=
  projBefore0_of V (projDat V c) (projA_eq V c 0) (projAfter0 V c) t d
theorem projBefore1 (c : Dev nD) (t : Fin cfg0.N) (d) : (projDat V c).before 1 t d = projBlk V c 1 t :=
  projBefore1_of V (projDat V c) (projA_eq V c 1) (projAfter1 V c) t d
theorem projBefore2 (c : Dev nD) (t : Fin cfg0.N) (d) : (projDat V c).before 2 t d = projBlk V c 2 t :=
  projBefore2_of V (projDat V c) (projA_eq V c 2) (projAfter2 V c) t d
theorem projBefore3 (c : Dev nD) (t : Fin cfg0.N) (d) : (projDat V c).before 3 t d = projBlk V c 3 t :=
  projBefore3_of V (projDat V c) (projA_eq V c 3) (projAfter3 V c) t d
theorem projBefore4 (c : Dev nD) (t : Fin cfg0.N) (d) : (projDat V c).before 4 t d = projBlk V c 4 t :=
  projBefore4_of V (projDat V c) (projA_eq V c 4) (projAfter4 V c) t d
theorem projBefore5 (c : Dev nD) (t : Fin cfg0.N) (d) : (projDat V c).before 5 t d = projBlk V c 5 t :=
  projBefore5_of V (projDat V c) (projA_eq V c 5) (projAfter5 V c) t d

/-- What the body is called with at point t, the windows one by one, -/
def projPre (c : Dev nD) (t : Fin cfg0.N) : sProp 𝕄 :=
  iprop((projDat V c).Φ t.castSucc ∗ (projDat V c).owesAt () t.castSucc
    ∗ (∃ d, owns (c : Thread nD τ) (st0_0 t) fullShare ((projDat V c).before 0 t d))
    ∗ (∃ d, owns (c : Thread nD τ) (st0_1 t) fullShare ((projDat V c).before 1 t d))
    ∗ (∃ d, owns (c : Thread nD τ) (st0_2 t) fullShare ((projDat V c).before 2 t d))
    ∗ (∃ d, owns (c : Thread nD τ) (st0_3 t) fullShare ((projDat V c).before 3 t d))
    ∗ (∃ d, owns (c : Thread nD τ) (st0_4 t) fullShare ((projDat V c).before 4 t d))
    ∗ (∃ d, owns (c : Thread nD τ) (st0_5 t) fullShare ((projDat V c).before 5 t d))
    ∗ (∃ d, owns (c : Thread nD τ) (st0_6 t) fullShare ((projDat V c).before 6 t d))
    ∗ (∃ d, owns (c : Thread nD τ) (st0_7 t) fullShare ((projDat V c).before 7 t d))
    ∗ (∃ d, owns (c : Thread nD τ) (st0_8 t) fullShare ((projDat V c).before 8 t d)))

/-- and what it returns. -/
def projPost (c : Dev nD) (t : Fin cfg0.N) : sProp 𝕄 :=
  iprop((projDat V c).Φ t.succ ∗ (projDat V c).owesAt () t.succ
    ∗ owns (c : Thread nD τ) (st0_0 t) fullShare ((projDat V c).after 0 t)
    ∗ owns (c : Thread nD τ) (st0_1 t) fullShare ((projDat V c).after 1 t)
    ∗ owns (c : Thread nD τ) (st0_2 t) fullShare ((projDat V c).after 2 t)
    ∗ owns (c : Thread nD τ) (st0_3 t) fullShare ((projDat V c).after 3 t)
    ∗ owns (c : Thread nD τ) (st0_4 t) fullShare ((projDat V c).after 4 t)
    ∗ owns (c : Thread nD τ) (st0_5 t) fullShare ((projDat V c).after 5 t)
    ∗ owns (c : Thread nD τ) (st0_6 t) fullShare ((projDat V c).after 6 t)
    ∗ owns (c : Thread nD τ) (st0_7 t) fullShare ((projDat V c).after 7 t)
    ∗ owns (c : Thread nD τ) (st0_8 t) fullShare ((projDat V c).after 8 t))

set_option maxHeartbeats 2000000 in
/-- The body at any point: the inputs' memrefs hold their blocks, so the body's triple applies; the invariant and the
    core's dues pass through unread. -/
theorem projBody_at (c : Dev nD) (t : Fin cfg0.N) :
    projPre V c t ⊢ wp frame (wpE (defs₀ (F := F)) Variants.none c none) Set.univ (bodyAt0 t) (fun _ => projPost V c t) := by
  unfold projPre projPost bodyAt0
  simp only [projBefore0, projBefore1, projBefore2, projBefore3, projBefore4, projBefore5]
  rw [show (projDat V c).Φ t.succ = (projDat V c).Φ t.castSucc from rfl,
    show (projDat V c).owesAt () t.succ = (projDat V c).owesAt () t.castSucc from rfl,
    projAfter0, projAfter1, projAfter2, projAfter3, projAfter4, projAfter5, projAfter6, projAfter7, projAfter8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (projBody_sound c Set.univ _ _ _ _ _ _ _ _ _ _ _ _ _ _ _ _ _ _ _ (projBlk V c 0 t) (projBlk V c 1 t) (projBlk V c 2 t)
    (projBlk V c 3 t) (projBlk V c 4 t) (projBlk V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The library's body obligation, at every point. -/
theorem projObligation (c : Dev nD) : BodyObligation (projDat (F := F) V c) (defs₀ (F := F)) Variants.none () Set.univ := fun t => by
  rw [bigSep_W0, bigSep_W0]
  exact projBody_at V c t

end

end Cert.Kernel.Hand

end
-- ==== Proof.AttnRunB.lean ====
/-
  The attention kernel's body at one grid point (batch b, query tile qi, key tile ki). It reads the query tile and one
  key tile and one value tile, and the three scratch buffers that carry the running row maximum, the running row sum
  and the running weighted sum across the key tiles of one (b, qi); at the first key tile it first resets them, at
  the last it stores the quotient into the output tile. Three cases of the two conditions meet the grid: first tile,
  a middle tile, last tile. Each case's run hands back every buffer it stored into with its stores applied, the list
  of stores being the run's own witness. Stated for any float instance.
-/
import proofs.«174840_j29523605193128_2_alg».proof.Proof.Gen.Kernel.Launch
import proofs.«174840_j29523605193128_2_alg».proof.Proof.Gen.Kernel.Skeleton
import proofs.«174840_j29523605193128_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The body resets the scratch exactly when the key-tile coordinate is 0, -/
abbrev condFirst (i : grid1.Coords) : Prop := (Scalar.cmpi .ne (Scalar.extui (Scalar.cmpi .eq (BitVec.ofNat 32 (i 2).val) 0#32)) 0#32) = 1#1
/-- and stores the output tile exactly when it is the last one. -/
abbrev condLast (i : grid1.Coords) : Prop := k1_cond2 i = 1#1

/-- The key tile is the position modulo 4: the grid is (4, 2, 4), the key-tile axis innermost. -/
theorem condFirst_iff : ∀ t : Fin cfg1.N, condFirst (grid1.coords t) ↔ t.val % 4 = 0 :=
  (by decide +kernel : ∀ t : Fin grid1.N, condFirst (grid1.coords t) ↔ t.val % 4 = 0)
theorem condLast_iff : ∀ t : Fin cfg1.N, condLast (grid1.coords t) ↔ t.val % 4 = 3 :=
  (by decide +kernel : ∀ t : Fin grid1.N, condLast (grid1.coords t) ↔ t.val % 4 = 3)

/-- The inputs are never idle; the output window is idle, and not written back, away from the last key tile. -/
theorem attnLive0 : ∀ t : Fin cfg1.N, cfg1.idle 0 (grid1.coords t) = false := by decide +kernel
theorem attnLive1 : ∀ t : Fin cfg1.N, cfg1.idle 1 (grid1.coords t) = false := by decide +kernel
theorem attnLive2 : ∀ t : Fin cfg1.N, cfg1.idle 2 (grid1.coords t) = false := by decide +kernel
theorem attnIdle3 : ∀ t : Fin cfg1.N, ¬condLast (grid1.coords t) → cfg1.idle 3 (grid1.coords t) = true := by decide +kernel
theorem attnNoFlush3 : ∀ t : Fin cfg1.N, ¬condLast (grid1.coords t) → (cfg1.win 3).flush t = false := by decide +kernel
theorem attnLive3 : ∀ t : Fin cfg1.N, condLast (grid1.coords t) → cfg1.idle 3 (grid1.coords t) = false := by decide +kernel

set_option maxHeartbeats 4000000 in
/-- FIRST key tile: the scratch buffers are found at anything. -/
noncomputable def attnRunA (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : condFirst i) (hc1 : ¬condLast i) (q : Vec F S1x1024x1024 .bf16) (k v : Vec F S1x512x1024 .bf16) :
    Σ' (L7 : List (View.Piece (Elt F) S1024x1 .f32)) (L8 : List (View.Piece (Elt F) S1024x1 .f32)), { L9 : List (View.Piece (Elt F) S1024x1024 .f32) //
      ∀ (E : Set ℕ) (K : PUnit → sProp 𝕄) (d6 : Vec F S1x1024x1024 .f32),
        iprop(owns (c : Thread nD τ) arg3 fullShare q ∗ owns (c : Thread nD τ) arg4 fullShare k ∗ owns (c : Thread nD τ) arg5 fullShare v ∗ owns (c : Thread nD τ) arg6 fullShare d6 ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg3 fullShare q ∗ owns (c : Thread nD τ) arg4 fullShare k ∗ owns (c : Thread nD τ) arg5 fullShare v ∗ owns (c : Thread nD τ) arg6 fullShare d6 ∗ (∃ f, arg7.view.loc (c : Thread nD τ) ↦[arg7.view.set]{fullShare} arg7.view.writes (Elt F) f L7) ∗ (∃ f, arg8.view.loc (c : Thread nD τ) ↦[arg8.view.set]{fullShare} arg8.view.writes (Elt F) f L8) ∗ (∃ f, arg9.view.loc (c : Thread nD τ) ↦[arg9.view.set]{fullShare} arg9.view.writes (Elt F) f L9)) -∗ K ⟨⟩))
          ⊢ wp frame (wpE (defs₀ (F := F)) Variants.none c none) E (cc1__attn_kernel i arg3 harg3 arg4 harg4 arg5 harg5 arg6 harg6 arg7 harg7 arg8 harg8 arg9 harg9) K } := by
  refine ⟨?_, ?_, ?_, fun E K d6 => ?run⟩
  case run =>
    simp only [cc1__attn_kernel_eq_skeleton]; unfold cc1__attn_kernel_skel
    simp only [k1_part1_eq_skeleton]; unfold k1_part1_skel
    unfold owns
    iintro ⟨⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, Hk⟩
    obtain rfl := harg3.eq_unread hf3; obtain rfl := harg4.eq_unread hf4; obtain rfl := harg5.eq_unread hf5
    sl_exec (disch := first | exact hc0 | exact hc1)
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists f6; isplitr; · ipureintro; exact hf6
      iexact H6
    isplitl [H7]; · iexists _; iexact H7
    isplitl [H8]; · iexists _; iexact H8
    iexists _; iexact H9

set_option maxHeartbeats 4000000 in
/-- A MIDDLE key tile: the scratch buffers are found at what the tile before left. -/
noncomputable def attnRunB (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬condFirst i) (hc1 : ¬condLast i) (q : Vec F S1x1024x1024 .bf16) (k v : Vec F S1x512x1024 .bf16) (m0 l0 : Vec F S1024x1 .f32) (a0 : Vec F S1024x1024 .f32) :
    Σ' (L7 : List (View.Piece (Elt F) S1024x1 .f32)) (L8 : List (View.Piece (Elt F) S1024x1 .f32)), { L9 : List (View.Piece (Elt F) S1024x1024 .f32) //
      ∀ (E : Set ℕ) (K : PUnit → sProp 𝕄) (d6 : Vec F S1x1024x1024 .f32),
        iprop(owns (c : Thread nD τ) arg3 fullShare q ∗ owns (c : Thread nD τ) arg4 fullShare k ∗ owns (c : Thread nD τ) arg5 fullShare v ∗ owns (c : Thread nD τ) arg6 fullShare d6 ∗ owns (c : Thread nD τ) arg7 fullShare m0 ∗ owns (c : Thread nD τ) arg8 fullShare l0 ∗ owns (c : Thread nD τ) arg9 fullShare a0
            ∗ (iprop(owns (c : Thread nD τ) arg3 fullShare q ∗ owns (c : Thread nD τ) arg4 fullShare k ∗ owns (c : Thread nD τ) arg5 fullShare v ∗ owns (c : Thread nD τ) arg6 fullShare d6 ∗ (∃ f, arg7.view.loc (c : Thread nD τ) ↦[arg7.view.set]{fullShare} arg7.view.writes (Elt F) f L7) ∗ (∃ f, arg8.view.loc (c : Thread nD τ) ↦[arg8.view.set]{fullShare} arg8.view.writes (Elt F) f L8) ∗ (∃ f, arg9.view.loc (c : Thread nD τ) ↦[arg9.view.set]{fullShare} arg9.view.writes (Elt F) f L9)) -∗ K ⟨⟩))
          ⊢ wp frame (wpE (defs₀ (F := F)) Variants.none c none) E (cc1__attn_kernel i arg3 harg3 arg4 harg4 arg5 harg5 arg6 harg6 arg7 harg7 arg8 harg8 arg9 harg9) K } := by
  refine ⟨?_, ?_, ?_, fun E K d6 => ?run⟩
  case run =>
    simp only [cc1__attn_kernel_eq_skeleton]; unfold cc1__attn_kernel_skel
    simp only [k1_part1_eq_skeleton]; unfold k1_part1_skel
    unfold owns
    iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
    obtain rfl := harg3.eq_unread hf3; obtain rfl := harg4.eq_unread hf4; obtain rfl := harg5.eq_unread hf5
    obtain rfl := harg7.eq_unread hf7; obtain rfl := harg8.eq_unread hf8; obtain rfl := harg9.eq_unread hf9
    sl_exec (disch := first | exact hc0 | exact hc1)
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists f6; isplitr; · ipureintro; exact hf6
      iexact H6
    isplitl [H7]; · iexists _; iexact H7
    isplitl [H8]; · iexists _; iexact H8
    iexists _; iexact H9

set_option maxHeartbeats 4000000 in
/-- The LAST key tile: as a middle one, and the output tile's buffer is stored into. -/
noncomputable def attnRunC (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬condFirst i) (hc1 : condLast i) (q : Vec F S1x1024x1024 .bf16) (k v : Vec F S1x512x1024 .bf16) (m0 l0 : Vec F S1024x1 .f32) (a0 : Vec F S1024x1024 .f32) :
    Σ' (L6 : List (View.Piece (Elt F) S1x1024x1024 .f32)) (L7 : List (View.Piece (Elt F) S1024x1 .f32)) (L8 : List (View.Piece (Elt F) S1024x1 .f32)), { L9 : List (View.Piece (Elt F) S1024x1024 .f32) //
      ∀ (E : Set ℕ) (K : PUnit → sProp 𝕄),
        iprop(owns (c : Thread nD τ) arg3 fullShare q ∗ owns (c : Thread nD τ) arg4 fullShare k ∗ owns (c : Thread nD τ) arg5 fullShare v ∗ (∃ d, owns (c : Thread nD τ) arg6 fullShare d) ∗ owns (c : Thread nD τ) arg7 fullShare m0 ∗ owns (c : Thread nD τ) arg8 fullShare l0 ∗ owns (c : Thread nD τ) arg9 fullShare a0
            ∗ (iprop(owns (c : Thread nD τ) arg3 fullShare q ∗ owns (c : Thread nD τ) arg4 fullShare k ∗ owns (c : Thread nD τ) arg5 fullShare v ∗ (∃ f, arg6.view.loc (c : Thread nD τ) ↦[arg6.view.set]{fullShare} arg6.view.writes (Elt F) f L6) ∗ (∃ f, arg7.view.loc (c : Thread nD τ) ↦[arg7.view.set]{fullShare} arg7.view.writes (Elt F) f L7) ∗ (∃ f, arg8.view.loc (c : Thread nD τ) ↦[arg8.view.set]{fullShare} arg8.view.writes (Elt F) f L8) ∗ (∃ f, arg9.view.loc (c : Thread nD τ) ↦[arg9.view.set]{fullShare} arg9.view.writes (Elt F) f L9)) -∗ K ⟨⟩))
          ⊢ wp frame (wpE (defs₀ (F := F)) Variants.none c none) E (cc1__attn_kernel i arg3 harg3 arg4 harg4 arg5 harg5 arg6 harg6 arg7 harg7 arg8 harg8 arg9 harg9) K } := by
  refine ⟨?_, ?_, ?_, ?_, fun E K => ?run⟩
  case run =>
    simp only [cc1__attn_kernel_eq_skeleton]; unfold cc1__attn_kernel_skel
    simp only [k1_part1_eq_skeleton]; unfold k1_part1_skel
    unfold owns
    iintro ⟨⟨%f3, %hf3, H3⟩, ⟨%f4, %hf4, H4⟩, ⟨%f5, %hf5, H5⟩, ⟨%d6, %f6, -, H6⟩, ⟨%f7, %hf7, H7⟩, ⟨%f8, %hf8, H8⟩, ⟨%f9, %hf9, H9⟩, Hk⟩
    obtain rfl := harg3.eq_unread hf3; obtain rfl := harg4.eq_unread hf4; obtain rfl := harg5.eq_unread hf5
    obtain rfl := harg7.eq_unread hf7; obtain rfl := harg8.eq_unread hf8; obtain rfl := harg9.eq_unread hf9
    sl_exec (disch := first | exact hc0 | exact hc1)
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]; · iexists _; iexact H6
    isplitl [H7]; · iexists _; iexact H7
    isplitl [H8]; · iexists _; iexact H8
    iexists _; iexact H9

end Cert.Kernel.Hand

end
-- ==== Proof.AttnRegionB.lean ====
/-
  The attention region as the pipeline sees it, at any contents V of the core's buffers when the region is entered.
  The three scratch buffers are carried from one grid point to the next: what they hold after the point at position n
  is defined by recursion on n (reset at a first key tile, otherwise computed from what position n-1 left), and the
  region invariant before position n+1 holds them at exactly that. The output tile's buffer is stored into at a last key
  tile only; elsewhere the window is idle and handed back untouched.
-/
import proofs.«174840_j29523605193128_2_alg».proof.Proof.AttnRunB

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The scratch operands: whole scoped buffers of the kernel's own, passed beside the windows; and as views. -/
abbrev scM : Memref sig .tc .vmem S1024x1 .f32 := Memref.whole cc1_scratch0
abbrev scL : Memref sig .tc .vmem S1024x1 .f32 := Memref.whole cc1_scratch1
abbrev scA : Memref sig .tc .vmem S1024x1024 .f32 := Memref.whole cc1_scratch2
abbrev VM : View sig .tc .vmem S1024x1 .f32 := scM.view
abbrev VL : View sig .tc .vmem S1024x1 .f32 := scL.view
abbrev VA : View sig .tc .vmem S1024x1024 .f32 := scA.view
/-- One staging buffer of the output window, through which its contents are stated (the choice does not matter). -/
abbrev VO : View sig .tc .vmem S1x1024x1024 .f32 := (Memref.whole cc1_stg3_0 : Memref sig .tc .vmem S1x1024x1024 .f32).view
/-- Each window's current staging memref at point t, as the pipeline passes it, and its wholeness. -/
abbrev ms1_0 (t : Fin cfg1.N) : Memref sig .tc .vmem S1x1024x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x512x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x512x1024 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1024x1024 .f32 := win1_3.stage (cfg1.slots t 3)
abbrev hs1_3 (t : Fin cfg1.N) : (ms1_3 t).IsWhole := hstage1_3 ((cfg1.slots t 3).cast nbuf1_3)

/-- Case A's stores into the running-maximum scratch cover it, and what they leave there. -/
theorem coverA7 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : condFirst i) (hc1 : ¬condLast i) (q : Vec F S1x1024x1024 .bf16) (k v : Vec F S1x512x1024 .bf16) (y : S1024x1.Idx) :
    ∃ pc ∈ (attnRunA c i arg3 harg3 arg4 harg4 arg5 harg5 arg6 harg6 arg7 harg7 arg8 harg8 arg9 harg9 hc0 hc1 q k v).1, y ∈ pc.1.set :=
  View.cover_of_tiledL (attnRunA c i arg3 harg3 arg4 harg4 arg5 harg5 arg6 harg6 arg7 harg7 arg8 harg8 arg9 harg9 hc0 hc1 q k v).1 S1024x1.size (by sl_kernel_rfl) y
def leftA7 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : condFirst i) (hc1 : ¬condLast i) (q : Vec F S1x1024x1024 .bf16) (k v : Vec F S1x512x1024 .bf16) : Vec F S1024x1 .f32 :=
  VM.read (Elt F) (VM.writes (Elt F) VM.junk (attnRunA c i arg3 harg3 arg4 harg4 arg5 harg5 arg6 harg6 arg7 harg7 arg8 harg8 arg9 harg9 hc0 hc1 q k v).1)
/-- Case A's stores into the running-sum scratch cover it, and what they leave there. -/
theorem coverA8 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : condFirst i) (hc1 : ¬condLast i) (q : Vec F S1x1024x1024 .bf16) (k v : Vec F S1x512x1024 .bf16) (y : S1024x1.Idx) :
    ∃ pc ∈ (attnRunA c i arg3 harg3 arg4 harg4 arg5 harg5 arg6 harg6 arg7 harg7 arg8 harg8 arg9 harg9 hc0 hc1 q k v).2.1, y ∈ pc.1.set :=
  View.cover_of_tiledL (attnRunA c i arg3 harg3 arg4 harg4 arg5 harg5 arg6 harg6 arg7 harg7 arg8 harg8 arg9 harg9 hc0 hc1 q k v).2.1 S1024x1.size (by sl_kernel_rfl) y
def leftA8 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : condFirst i) (hc1 : ¬condLast i) (q : Vec F S1x1024x1024 .bf16) (k v : Vec F S1x512x1024 .bf16) : Vec F S1024x1 .f32 :=
  VL.read (Elt F) (VL.writes (Elt F) VL.junk (attnRunA c i arg3 harg3 arg4 harg4 arg5 harg5 arg6 harg6 arg7 harg7 arg8 harg8 arg9 harg9 hc0 hc1 q k v).2.1)
/-- Case A's stores into the accumulator scratch cover it, and what they leave there. -/
theorem coverA9 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : condFirst i) (hc1 : ¬condLast i) (q : Vec F S1x1024x1024 .bf16) (k v : Vec F S1x512x1024 .bf16) (y : S1024x1024.Idx) :
    ∃ pc ∈ (attnRunA c i arg3 harg3 arg4 harg4 arg5 harg5 arg6 harg6 arg7 harg7 arg8 harg8 arg9 harg9 hc0 hc1 q k v).2.2.1, y ∈ pc.1.set :=
  View.cover_of_tiledL (attnRunA c i arg3 harg3 arg4 harg4 arg5 harg5 arg6 harg6 arg7 harg7 arg8 harg8 arg9 harg9 hc0 hc1 q k v).2.2.1 S1024x1024.size (by sl_kernel_rfl) y
def leftA9 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : condFirst i) (hc1 : ¬condLast i) (q : Vec F S1x1024x1024 .bf16) (k v : Vec F S1x512x1024 .bf16) : Vec F S1024x1024 .f32 :=
  VA.read (Elt F) (VA.writes (Elt F) VA.junk (attnRunA c i arg3 harg3 arg4 harg4 arg5 harg5 arg6 harg6 arg7 harg7 arg8 harg8 arg9 harg9 hc0 hc1 q k v).2.2.1)
/-- Case B's stores into the running-maximum scratch cover it, and what they leave there. -/
theorem coverB7 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬condFirst i) (hc1 : ¬condLast i) (q : Vec F S1x1024x1024 .bf16) (k v : Vec F S1x512x1024 .bf16) (m0 l0 : Vec F S1024x1 .f32) (a0 : Vec F S1024x1024 .f32) (y : S1024x1.Idx) :
    ∃ pc ∈ (attnRunB c i arg3 harg3 arg4 harg4 arg5 harg5 arg6 harg6 arg7 harg7 arg8 harg8 arg9 harg9 hc0 hc1 q k v m0 l0 a0).1, y ∈ pc.1.set :=
  View.cover_of_tiledL (attnRunB c i arg3 harg3 arg4 harg4 arg5 harg5 arg6 harg6 arg7 harg7 arg8 harg8 arg9 harg9 hc0 hc1 q k v m0 l0 a0).1 S1024x1.size (by sl_kernel_rfl) y
def leftB7 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬condFirst i) (hc1 : ¬condLast i) (q : Vec F S1x1024x1024 .bf16) (k v : Vec F S1x512x1024 .bf16) (m0 l0 : Vec F S1024x1 .f32) (a0 : Vec F S1024x1024 .f32) : Vec F S1024x1 .f32 :=
  VM.read (Elt F) (VM.writes (Elt F) VM.junk (attnRunB c i arg3 harg3 arg4 harg4 arg5 harg5 arg6 harg6 arg7 harg7 arg8 harg8 arg9 harg9 hc0 hc1 q k v m0 l0 a0).1)
/-- Case B's stores into the running-sum scratch cover it, and what they leave there. -/
theorem coverB8 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬condFirst i) (hc1 : ¬condLast i) (q : Vec F S1x1024x1024 .bf16) (k v : Vec F S1x512x1024 .bf16) (m0 l0 : Vec F S1024x1 .f32) (a0 : Vec F S1024x1024 .f32) (y : S1024x1.Idx) :
    ∃ pc ∈ (attnRunB c i arg3 harg3 arg4 harg4 arg5 harg5 arg6 harg6 arg7 harg7 arg8 harg8 arg9 harg9 hc0 hc1 q k v m0 l0 a0).2.1, y ∈ pc.1.set :=
  View.cover_of_tiledL (attnRunB c i arg3 harg3 arg4 harg4 arg5 harg5 arg6 harg6 arg7 harg7 arg8 harg8 arg9 harg9 hc0 hc1 q k v m0 l0 a0).2.1 S1024x1.size (by sl_kernel_rfl) y
def leftB8 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬condFirst i) (hc1 : ¬condLast i) (q : Vec F S1x1024x1024 .bf16) (k v : Vec F S1x512x1024 .bf16) (m0 l0 : Vec F S1024x1 .f32) (a0 : Vec F S1024x1024 .f32) : Vec F S1024x1 .f32 :=
  VL.read (Elt F) (VL.writes (Elt F) VL.junk (attnRunB c i arg3 harg3 arg4 harg4 arg5 harg5 arg6 harg6 arg7 harg7 arg8 harg8 arg9 harg9 hc0 hc1 q k v m0 l0 a0).2.1)
/-- Case B's stores into the accumulator scratch cover it, and what they leave there. -/
theorem coverB9 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬condFirst i) (hc1 : ¬condLast i) (q : Vec F S1x1024x1024 .bf16) (k v : Vec F S1x512x1024 .bf16) (m0 l0 : Vec F S1024x1 .f32) (a0 : Vec F S1024x1024 .f32) (y : S1024x1024.Idx) :
    ∃ pc ∈ (attnRunB c i arg3 harg3 arg4 harg4 arg5 harg5 arg6 harg6 arg7 harg7 arg8 harg8 arg9 harg9 hc0 hc1 q k v m0 l0 a0).2.2.1, y ∈ pc.1.set :=
  View.cover_of_tiledL (attnRunB c i arg3 harg3 arg4 harg4 arg5 harg5 arg6 harg6 arg7 harg7 arg8 harg8 arg9 harg9 hc0 hc1 q k v m0 l0 a0).2.2.1 S1024x1024.size (by sl_kernel_rfl) y
def leftB9 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬condFirst i) (hc1 : ¬condLast i) (q : Vec F S1x1024x1024 .bf16) (k v : Vec F S1x512x1024 .bf16) (m0 l0 : Vec F S1024x1 .f32) (a0 : Vec F S1024x1024 .f32) : Vec F S1024x1024 .f32 :=
  VA.read (Elt F) (VA.writes (Elt F) VA.junk (attnRunB c i arg3 harg3 arg4 harg4 arg5 harg5 arg6 harg6 arg7 harg7 arg8 harg8 arg9 harg9 hc0 hc1 q k v m0 l0 a0).2.2.1)
/-- Case C's stores into the output tile's buffer cover it, and what they leave there. -/
theorem coverC6 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬condFirst i) (hc1 : condLast i) (q : Vec F S1x1024x1024 .bf16) (k v : Vec F S1x512x1024 .bf16) (m0 l0 : Vec F S1024x1 .f32) (a0 : Vec F S1024x1024 .f32) (y : S1x1024x1024.Idx) :
    ∃ pc ∈ (attnRunC c i arg3 harg3 arg4 harg4 arg5 harg5 arg6 harg6 arg7 harg7 arg8 harg8 arg9 harg9 hc0 hc1 q k v m0 l0 a0).1, y ∈ pc.1.set :=
  View.cover_of_tiledL (attnRunC c i arg3 harg3 arg4 harg4 arg5 harg5 arg6 harg6 arg7 harg7 arg8 harg8 arg9 harg9 hc0 hc1 q k v m0 l0 a0).1 S1x1024x1024.size (by sl_kernel_rfl) y
def leftC6 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬condFirst i) (hc1 : condLast i) (q : Vec F S1x1024x1024 .bf16) (k v : Vec F S1x512x1024 .bf16) (m0 l0 : Vec F S1024x1 .f32) (a0 : Vec F S1024x1024 .f32) : Vec F S1x1024x1024 .f32 :=
  VO.read (Elt F) (VO.writes (Elt F) VO.junk (attnRunC c i arg3 harg3 arg4 harg4 arg5 harg5 arg6 harg6 arg7 harg7 arg8 harg8 arg9 harg9 hc0 hc1 q k v m0 l0 a0).1)
/-- Case C's stores into the running-maximum scratch cover it, and what they leave there. -/
theorem coverC7 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬condFirst i) (hc1 : condLast i) (q : Vec F S1x1024x1024 .bf16) (k v : Vec F S1x512x1024 .bf16) (m0 l0 : Vec F S1024x1 .f32) (a0 : Vec F S1024x1024 .f32) (y : S1024x1.Idx) :
    ∃ pc ∈ (attnRunC c i arg3 harg3 arg4 harg4 arg5 harg5 arg6 harg6 arg7 harg7 arg8 harg8 arg9 harg9 hc0 hc1 q k v m0 l0 a0).2.1, y ∈ pc.1.set :=
  View.cover_of_tiledL (attnRunC c i arg3 harg3 arg4 harg4 arg5 harg5 arg6 harg6 arg7 harg7 arg8 harg8 arg9 harg9 hc0 hc1 q k v m0 l0 a0).2.1 S1024x1.size (by sl_kernel_rfl) y
def leftC7 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬condFirst i) (hc1 : condLast i) (q : Vec F S1x1024x1024 .bf16) (k v : Vec F S1x512x1024 .bf16) (m0 l0 : Vec F S1024x1 .f32) (a0 : Vec F S1024x1024 .f32) : Vec F S1024x1 .f32 :=
  VM.read (Elt F) (VM.writes (Elt F) VM.junk (attnRunC c i arg3 harg3 arg4 harg4 arg5 harg5 arg6 harg6 arg7 harg7 arg8 harg8 arg9 harg9 hc0 hc1 q k v m0 l0 a0).2.1)
/-- Case C's stores into the running-sum scratch cover it, and what they leave there. -/
theorem coverC8 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬condFirst i) (hc1 : condLast i) (q : Vec F S1x1024x1024 .bf16) (k v : Vec F S1x512x1024 .bf16) (m0 l0 : Vec F S1024x1 .f32) (a0 : Vec F S1024x1024 .f32) (y : S1024x1.Idx) :
    ∃ pc ∈ (attnRunC c i arg3 harg3 arg4 harg4 arg5 harg5 arg6 harg6 arg7 harg7 arg8 harg8 arg9 harg9 hc0 hc1 q k v m0 l0 a0).2.2.1, y ∈ pc.1.set :=
  View.cover_of_tiledL (attnRunC c i arg3 harg3 arg4 harg4 arg5 harg5 arg6 harg6 arg7 harg7 arg8 harg8 arg9 harg9 hc0 hc1 q k v m0 l0 a0).2.2.1 S1024x1.size (by sl_kernel_rfl) y
def leftC8 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬condFirst i) (hc1 : condLast i) (q : Vec F S1x1024x1024 .bf16) (k v : Vec F S1x512x1024 .bf16) (m0 l0 : Vec F S1024x1 .f32) (a0 : Vec F S1024x1024 .f32) : Vec F S1024x1 .f32 :=
  VL.read (Elt F) (VL.writes (Elt F) VL.junk (attnRunC c i arg3 harg3 arg4 harg4 arg5 harg5 arg6 harg6 arg7 harg7 arg8 harg8 arg9 harg9 hc0 hc1 q k v m0 l0 a0).2.2.1)
/-- Case C's stores into the accumulator scratch cover it, and what they leave there. -/
theorem coverC9 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬condFirst i) (hc1 : condLast i) (q : Vec F S1x1024x1024 .bf16) (k v : Vec F S1x512x1024 .bf16) (m0 l0 : Vec F S1024x1 .f32) (a0 : Vec F S1024x1024 .f32) (y : S1024x1024.Idx) :
    ∃ pc ∈ (attnRunC c i arg3 harg3 arg4 harg4 arg5 harg5 arg6 harg6 arg7 harg7 arg8 harg8 arg9 harg9 hc0 hc1 q k v m0 l0 a0).2.2.2.1, y ∈ pc.1.set :=
  View.cover_of_tiledL (attnRunC c i arg3 harg3 arg4 harg4 arg5 harg5 arg6 harg6 arg7 harg7 arg8 harg8 arg9 harg9 hc0 hc1 q k v m0 l0 a0).2.2.2.1 S1024x1024.size (by sl_kernel_rfl) y
def leftC9 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬condFirst i) (hc1 : condLast i) (q : Vec F S1x1024x1024 .bf16) (k v : Vec F S1x512x1024 .bf16) (m0 l0 : Vec F S1024x1 .f32) (a0 : Vec F S1024x1024 .f32) : Vec F S1024x1024 .f32 :=
  VA.read (Elt F) (VA.writes (Elt F) VA.junk (attnRunC c i arg3 harg3 arg4 harg4 arg5 harg5 arg6 harg6 arg7 harg7 arg8 harg8 arg9 harg9 hc0 hc1 q k v m0 l0 a0).2.2.2.1)

/-- The projection region's fifteen staging buffers, each at some contents: they ride through the attention region untouched. -/
def otherStaging (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f) ∗ (∃ f : Buf (Elt F) ((c : Thread nD τ).loc cc0_stg8_0), ((c : Thread nD τ).loc cc0_stg8_0) ↦{fullShare} f) ∗ (∃ f : Buf (Elt F) ((c : Thread nD τ).loc cc0_stg8_1), ((c : Thread nD τ).loc cc0_stg8_1) ↦{fullShare} f))

/-- The class's invariant (the scoped rest and the generator register) with the three scratch buffers named. -/
theorem clsInv_open (c : Dev nD) : (Pipeline.ΦA spec1 c : sProp 𝕄)
    ⊢ iprop(otherStaging c ∗ (∃ d, owns (c : Thread nD τ) scM fullShare d) ∗ (∃ d, owns (c : Thread nD τ) scL fullShare d) ∗ (∃ d, owns (c : Thread nD τ) scA fullShare d) ∗ (∃ r, prngReg c r)) := by
  unfold Pipeline.ΦA otherStaging; rw [scopedRest1_eq]; simp only [owns_whole]
  iintro ⟨⟨A1, A2, A3, A4, A5, A6, A7, A8, A9, A10, A11, A12, A13, A14, A15, S0, S1, S2⟩, Hg⟩
  isplitl [A1 A2 A3 A4 A5 A6 A7 A8 A9 A10 A11 A12 A13 A14 A15]
  · isplitl [A1]; · iexact A1
    isplitl [A2]; · iexact A2
    isplitl [A3]; · iexact A3
    isplitl [A4]; · iexact A4
    isplitl [A5]; · iexact A5
    isplitl [A6]; · iexact A6
    isplitl [A7]; · iexact A7
    isplitl [A8]; · iexact A8
    isplitl [A9]; · iexact A9
    isplitl [A10]; · iexact A10
    isplitl [A11]; · iexact A11
    isplitl [A12]; · iexact A12
    isplitl [A13]; · iexact A13
    isplitl [A14]; · iexact A14
    iexact A15
  isplitl [S0]; · iexact S0
  isplitl [S1]; · iexact S1
  isplitl [S2]; · iexact S2
  iexact Hg

theorem clsInv_close (c : Dev nD) : iprop(otherStaging c ∗ (∃ d, owns (c : Thread nD τ) scM fullShare d) ∗ (∃ d, owns (c : Thread nD τ) scL fullShare d) ∗ (∃ d, owns (c : Thread nD τ) scA fullShare d) ∗ (∃ r, prngReg c r))
    ⊢ (Pipeline.ΦA spec1 c : sProp 𝕄) := by
  unfold Pipeline.ΦA otherStaging; rw [scopedRest1_eq]; simp only [owns_whole]
  iintro ⟨⟨A1, A2, A3, A4, A5, A6, A7, A8, A9, A10, A11, A12, A13, A14, A15⟩, S0, S1, S2, Hg⟩
  isplitr [Hg]
  swap; · iexact Hg
  isplitl [A1]; · iexact A1
  isplitl [A2]; · iexact A2
  isplitl [A3]; · iexact A3
  isplitl [A4]; · iexact A4
  isplitl [A5]; · iexact A5
  isplitl [A6]; · iexact A6
  isplitl [A7]; · iexact A7
  isplitl [A8]; · iexact A8
  isplitl [A9]; · iexact A9
  isplitl [A10]; · iexact A10
  isplitl [A11]; · iexact A11
  isplitl [A12]; · iexact A12
  isplitl [A13]; · iexact A13
  isplitl [A14]; · iexact A14
  isplitl [A15]; · iexact A15
  isplitl [S0]; · iexact S0
  isplitl [S1]; · iexact S1
  iexact S2

section
variable (V : (c : Dev nD) → (b : Ref sig .tc) → Buf (Elt F) ((c : Thread nD τ).loc b))

/-- Window w's block at point t, read off its array as the region finds it. -/
def attnBlk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem attnBefore0_of {c : Dev nD} (dat : Dat τ (Elt F) Unit ℕ (UR sig nD τ) ℕ cfg1 c) (hA : dat.A 0 = V c (Pipeline.arrRef spec1 0))
    (hafter : ∀ t, dat.after 0 t = attnBlk V c 0 t) (t : Fin cfg1.N) (d) : dat.before 0 t d = attnBlk V c 0 t :=
  (dat.before_in_eq_fetched 0 rfl (fun _ => rfl) (fun _ _ _ => rfl) (fun t => by rw [hafter]; unfold Dat.blockOf attnBlk; rw [hA]; try rfl) t d).trans
    (by unfold Dat.fetched Dat.blockOf attnBlk; rw [hA]; try rfl)
theorem attnBefore1_of {c : Dev nD} (dat : Dat τ (Elt F) Unit ℕ (UR sig nD τ) ℕ cfg1 c) (hA : dat.A 1 = V c (Pipeline.arrRef spec1 1))
    (hafter : ∀ t, dat.after 1 t = attnBlk V c 1 t) (t : Fin cfg1.N) (d) : dat.before 1 t d = attnBlk V c 1 t :=
  (dat.before_in_eq_fetched 1 rfl (fun _ => rfl) (fun _ _ _ => rfl) (fun t => by rw [hafter]; unfold Dat.blockOf attnBlk; rw [hA]; try rfl) t d).trans
    (by unfold Dat.fetched Dat.blockOf attnBlk; rw [hA]; try rfl)
theorem attnBefore2_of {c : Dev nD} (dat : Dat τ (Elt F) Unit ℕ (UR sig nD τ) ℕ cfg1 c) (hA : dat.A 2 = V c (Pipeline.arrRef spec1 2))
    (hafter : ∀ t, dat.after 2 t = attnBlk V c 2 t) (t : Fin cfg1.N) (d) : dat.before 2 t d = attnBlk V c 2 t :=
  (dat.before_in_eq_fetched 2 rfl (fun _ => rfl) (fun _ _ _ => rfl) (fun t => by rw [hafter]; unfold Dat.blockOf attnBlk; rw [hA]; try rfl) t d).trans
    (by unfold Dat.fetched Dat.blockOf attnBlk; rw [hA]; try rfl)

/-- What a point of each case leaves: the output tile's buffer (a placeholder where the window is idle: nothing consults it),
    then the three scratch buffers. -/
def leftAt_A (c : Dev nD) (t : Fin cfg1.N) (hc0 : condFirst (grid1.coords t)) (hc1 : ¬condLast (grid1.coords t)) : Vec F S1x1024x1024 .f32 × Vec F S1024x1 .f32 × Vec F S1024x1 .f32 × Vec F S1024x1024 .f32 :=
  (VO.read (Elt F) VO.junk,
   leftA7 c (grid1.coords t) (ms1_0 t) (hs1_0 t) (ms1_1 t) (hs1_1 t) (ms1_2 t) (hs1_2 t) (ms1_3 t) (hs1_3 t) scM (Memref.isWhole_whole _) scL (Memref.isWhole_whole _) scA (Memref.isWhole_whole _) hc0 hc1 (attnBlk V c 0 t) (attnBlk V c 1 t) (attnBlk V c 2 t),
   leftA8 c (grid1.coords t) (ms1_0 t) (hs1_0 t) (ms1_1 t) (hs1_1 t) (ms1_2 t) (hs1_2 t) (ms1_3 t) (hs1_3 t) scM (Memref.isWhole_whole _) scL (Memref.isWhole_whole _) scA (Memref.isWhole_whole _) hc0 hc1 (attnBlk V c 0 t) (attnBlk V c 1 t) (attnBlk V c 2 t),
   leftA9 c (grid1.coords t) (ms1_0 t) (hs1_0 t) (ms1_1 t) (hs1_1 t) (ms1_2 t) (hs1_2 t) (ms1_3 t) (hs1_3 t) scM (Memref.isWhole_whole _) scL (Memref.isWhole_whole _) scA (Memref.isWhole_whole _) hc0 hc1 (attnBlk V c 0 t) (attnBlk V c 1 t) (attnBlk V c 2 t))
def leftAt_B (c : Dev nD) (t : Fin cfg1.N) (hc0 : ¬condFirst (grid1.coords t)) (hc1 : ¬condLast (grid1.coords t)) (p : Vec F S1x1024x1024 .f32 × Vec F S1024x1 .f32 × Vec F S1024x1 .f32 × Vec F S1024x1024 .f32) : Vec F S1x1024x1024 .f32 × Vec F S1024x1 .f32 × Vec F S1024x1 .f32 × Vec F S1024x1024 .f32 :=
  (VO.read (Elt F) VO.junk,
   leftB7 c (grid1.coords t) (ms1_0 t) (hs1_0 t) (ms1_1 t) (hs1_1 t) (ms1_2 t) (hs1_2 t) (ms1_3 t) (hs1_3 t) scM (Memref.isWhole_whole _) scL (Memref.isWhole_whole _) scA (Memref.isWhole_whole _) hc0 hc1 (attnBlk V c 0 t) (attnBlk V c 1 t) (attnBlk V c 2 t) p.2.1 p.2.2.1 p.2.2.2,
   leftB8 c (grid1.coords t) (ms1_0 t) (hs1_0 t) (ms1_1 t) (hs1_1 t) (ms1_2 t) (hs1_2 t) (ms1_3 t) (hs1_3 t) scM (Memref.isWhole_whole _) scL (Memref.isWhole_whole _) scA (Memref.isWhole_whole _) hc0 hc1 (attnBlk V c 0 t) (attnBlk V c 1 t) (attnBlk V c 2 t) p.2.1 p.2.2.1 p.2.2.2,
   leftB9 c (grid1.coords t) (ms1_0 t) (hs1_0 t) (ms1_1 t) (hs1_1 t) (ms1_2 t) (hs1_2 t) (ms1_3 t) (hs1_3 t) scM (Memref.isWhole_whole _) scL (Memref.isWhole_whole _) scA (Memref.isWhole_whole _) hc0 hc1 (attnBlk V c 0 t) (attnBlk V c 1 t) (attnBlk V c 2 t) p.2.1 p.2.2.1 p.2.2.2)
def leftAt_C (c : Dev nD) (t : Fin cfg1.N) (hc0 : ¬condFirst (grid1.coords t)) (hc1 : condLast (grid1.coords t)) (p : Vec F S1x1024x1024 .f32 × Vec F S1024x1 .f32 × Vec F S1024x1 .f32 × Vec F S1024x1024 .f32) : Vec F S1x1024x1024 .f32 × Vec F S1024x1 .f32 × Vec F S1024x1 .f32 × Vec F S1024x1024 .f32 :=
  (leftC6 c (grid1.coords t) (ms1_0 t) (hs1_0 t) (ms1_1 t) (hs1_1 t) (ms1_2 t) (hs1_2 t) (ms1_3 t) (hs1_3 t) scM (Memref.isWhole_whole _) scL (Memref.isWhole_whole _) scA (Memref.isWhole_whole _) hc0 hc1 (attnBlk V c 0 t) (attnBlk V c 1 t) (attnBlk V c 2 t) p.2.1 p.2.2.1 p.2.2.2,
   leftC7 c (grid1.coords t) (ms1_0 t) (hs1_0 t) (ms1_1 t) (hs1_1 t) (ms1_2 t) (hs1_2 t) (ms1_3 t) (hs1_3 t) scM (Memref.isWhole_whole _) scL (Memref.isWhole_whole _) scA (Memref.isWhole_whole _) hc0 hc1 (attnBlk V c 0 t) (attnBlk V c 1 t) (attnBlk V c 2 t) p.2.1 p.2.2.1 p.2.2.2,
   leftC8 c (grid1.coords t) (ms1_0 t) (hs1_0 t) (ms1_1 t) (hs1_1 t) (ms1_2 t) (hs1_2 t) (ms1_3 t) (hs1_3 t) scM (Memref.isWhole_whole _) scL (Memref.isWhole_whole _) scA (Memref.isWhole_whole _) hc0 hc1 (attnBlk V c 0 t) (attnBlk V c 1 t) (attnBlk V c 2 t) p.2.1 p.2.2.1 p.2.2.2,
   leftC9 c (grid1.coords t) (ms1_0 t) (hs1_0 t) (ms1_1 t) (hs1_1 t) (ms1_2 t) (hs1_2 t) (ms1_3 t) (hs1_3 t) scM (Memref.isWhole_whole _) scL (Memref.isWhole_whole _) scA (Memref.isWhole_whole _) hc0 hc1 (attnBlk V c 0 t) (attnBlk V c 1 t) (attnBlk V c 2 t) p.2.1 p.2.2.1 p.2.2.2)

/-- THE ACCUMULATION: what the output tile's buffer and the three scratch buffers hold after the body at position n. -/
def carried (c : Dev nD) : (n : ℕ) → n < cfg1.N → Vec F S1x1024x1024 .f32 × Vec F S1024x1 .f32 × Vec F S1024x1 .f32 × Vec F S1024x1024 .f32
  | 0, hn => leftAt_A V c ⟨0, hn⟩ ((condFirst_iff ⟨0, hn⟩).mpr (Nat.zero_mod _)) (fun h => (fun h => by (try dsimp only at h); omega) ((condLast_iff ⟨0, hn⟩).mp h))
  | n + 1, hn =>
    if h0 : (n + 1) % 4 = 0 then
      leftAt_A V c ⟨n + 1, hn⟩ ((condFirst_iff ⟨n + 1, hn⟩).mpr h0) (fun h => (fun h => by (try dsimp only at h); omega) ((condLast_iff ⟨n + 1, hn⟩).mp h))
    else
      if h1 : (n + 1) % 4 = 3 then
        leftAt_C V c ⟨n + 1, hn⟩ (fun h => h0 ((condFirst_iff ⟨n + 1, hn⟩).mp h)) ((condLast_iff ⟨n + 1, hn⟩).mpr h1) (carried c n (Nat.lt_of_succ_lt hn))
      else
        leftAt_B V c ⟨n + 1, hn⟩ (fun h => h0 ((condFirst_iff ⟨n + 1, hn⟩).mp h)) (fun h => h1 ((condLast_iff ⟨n + 1, hn⟩).mp h)) (carried c n (Nat.lt_of_succ_lt hn))

theorem carried_A (c : Dev nD) (t : Fin cfg1.N) (h0 : t.val % 4 = 0) (hc0 : condFirst (grid1.coords t)) (hc1 : ¬condLast (grid1.coords t)) :
    carried V c t.val t.isLt = leftAt_A V c t hc0 hc1 := by
  obtain ⟨n, hn⟩ := t
  cases n with
  | zero => exact rfl
  | succ n => exact (dif_pos h0).trans rfl

theorem carried_B (c : Dev nD) (t : Fin cfg1.N) (h0 : ¬t.val % 4 = 0) (h1 : ¬t.val % 4 = 3) (hc0 : ¬condFirst (grid1.coords t)) (hc1 : ¬condLast (grid1.coords t)) :
    carried V c t.val t.isLt = leftAt_B V c t hc0 hc1 (carried V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans rfl)

theorem carried_C (c : Dev nD) (t : Fin cfg1.N) (h0 : ¬t.val % 4 = 0) (h1 : t.val % 4 = 3) (hc0 : ¬condFirst (grid1.coords t)) (hc1 : condLast (grid1.coords t)) :
    carried V c t.val t.isLt = leftAt_C V c t hc0 hc1 (carried V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

/-- The region invariant before position n: the class's before the first point (every scratch at anything); afterwards the
    other region's staging buffers at anything, each scratch at what the point before left in it, the generator register at some state. -/
def attnInv (c : Dev nD) : (n : ℕ) → n ≤ cfg1.N → sProp 𝕄
  | 0, _ => Pipeline.ΦA spec1 c
  | n + 1, hn => iprop(otherStaging c ∗ owns (c : Thread nD τ) scM fullShare (carried V c n hn).2.1 ∗ owns (c : Thread nD τ) scL fullShare (carried V c n hn).2.2.1
      ∗ owns (c : Thread nD τ) scA fullShare (carried V c n hn).2.2.2 ∗ (∃ r, prngReg c r))

theorem attnInv_zero (c : Dev nD) (n : ℕ) (h : n ≤ cfg1.N) (hz : n = 0) : attnInv V c n h = Pipeline.ΦA spec1 c := by
  subst hz; rfl
theorem attnInv_succ (c : Dev nD) (n : ℕ) (hn : n < cfg1.N) :
    attnInv V c (n + 1) hn = iprop(otherStaging c ∗ owns (c : Thread nD τ) scM fullShare (carried V c n hn).2.1 ∗ owns (c : Thread nD τ) scL fullShare (carried V c n hn).2.2.1
      ∗ owns (c : Thread nD τ) scA fullShare (carried V c n hn).2.2.2 ∗ (∃ r, prngReg c r)) := rfl
theorem attnInv_pos (c : Dev nD) (n : ℕ) (h : n ≤ cfg1.N) (hz : n ≠ 0) :
    attnInv V c n h = iprop(otherStaging c ∗ owns (c : Thread nD τ) scM fullShare (carried V c (n - 1) (by omega)).2.1 ∗ owns (c : Thread nD τ) scL fullShare (carried V c (n - 1) (by omega)).2.2.1
      ∗ owns (c : Thread nD τ) scA fullShare (carried V c (n - 1) (by omega)).2.2.2 ∗ (∃ r, prngReg c r)) := by
  cases n with
  | zero => exact absurd rfl hz
  | succ n => rfl

/-- The proof data of the attention pipeline on core c. -/
def attnDat (c : Dev nD) : Dat τ (Elt F) Unit ℕ (UR sig nD τ) ℕ cfg1 c where
  A w := V c (Pipeline.arrRef spec1 w)
  after w t := match w with
    | ⟨0, _⟩ => attnBlk V c 0 t
    | ⟨1, _⟩ => attnBlk V c 1 t
    | ⟨2, _⟩ => attnBlk V c 2 t
    | ⟨3, _⟩ => (carried V c t.val t.isLt).1
  Φ t := attnInv V c t.val (Nat.le_of_lt_succ t.isLt)
  q _ := fullShare
  owed _ := 0

theorem attnA_eq (c : Dev nD) (w : Fin cfg1.W) : (attnDat V c).A w = V c (Pipeline.arrRef spec1 w) := by
  dsimp only [attnDat]
theorem attnInv_castSucc (c : Dev nD) (t : Fin cfg1.N) :
    (attnDat V c).Φ t.castSucc = attnInv V c t.val (Nat.le_of_lt t.isLt) := by
  dsimp only [attnDat]; simp only [Fin.coe_castSucc]
theorem attnAfter0 (c : Dev nD) (t : Fin cfg1.N) : (attnDat V c).after 0 t = attnBlk V c 0 t := by dsimp only [attnDat]
theorem attnAfter1 (c : Dev nD) (t : Fin cfg1.N) : (attnDat V c).after 1 t = attnBlk V c 1 t := by dsimp only [attnDat]
theorem attnAfter2 (c : Dev nD) (t : Fin cfg1.N) : (attnDat V c).after 2 t = attnBlk V c 2 t := by dsimp only [attnDat]
theorem attnAfter3 (c : Dev nD) (t : Fin cfg1.N) : (attnDat V c).after 3 t = (carried V c t.val t.isLt).1 := by dsimp only [attnDat]
theorem attnBefore0 (c : Dev nD) (t : Fin cfg1.N) (d) : (attnDat V c).before 0 t d = attnBlk V c 0 t :=
  attnBefore0_of V (attnDat V c) (attnA_eq V c 0) (attnAfter0 V c) t d
theorem attnBefore1 (c : Dev nD) (t : Fin cfg1.N) (d) : (attnDat V c).before 1 t d = attnBlk V c 1 t :=
  attnBefore1_of V (attnDat V c) (attnA_eq V c 1) (attnAfter1 V c) t d
theorem attnBefore2 (c : Dev nD) (t : Fin cfg1.N) (d) : (attnDat V c).before 2 t d = attnBlk V c 2 t :=
  attnBefore2_of V (attnDat V c) (attnA_eq V c 2) (attnAfter2 V c) t d

end

end Cert.Kernel.Hand

end
-- ==== Proof.AttnObligB.lean ====
/-
  The attention body at any grid point discharges the pipeline's obligation: the inputs' staging buffers hold their
  blocks; the position modulo 4 says which of the three cases the point is in; the invariant hands the body the scratch
  buffers at what the point before left (at anything at the very first point) and takes them back at this point's.
-/
import proofs.«174840_j29523605193128_2_alg».proof.Proof.AttnRegionB

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- What the body is called with at point t, the windows one by one, -/
def attnPre (c : Dev nD) (t : Fin cfg1.N) : sProp 𝕄 :=
  iprop((attnDat V c).Φ t.castSucc ∗ (attnDat V c).owesAt () t.castSucc
    ∗ (∃ d, owns (c : Thread nD τ) (ms1_0 t) fullShare ((attnDat V c).before 0 t d))
    ∗ (∃ d, owns (c : Thread nD τ) (ms1_1 t) fullShare ((attnDat V c).before 1 t d))
    ∗ (∃ d, owns (c : Thread nD τ) (ms1_2 t) fullShare ((attnDat V c).before 2 t d))
    ∗ (∃ d, owns (c : Thread nD τ) (ms1_3 t) fullShare ((attnDat V c).before 3 t d)))

/-- and what it returns. -/
def attnPost (c : Dev nD) (t : Fin cfg1.N) : sProp 𝕄 :=
  iprop((attnDat V c).Φ t.succ ∗ (attnDat V c).owesAt () t.succ
    ∗ (attnDat V c).leavesExact 0 t
    ∗ (attnDat V c).leavesExact 1 t
    ∗ (attnDat V c).leavesExact 2 t
    ∗ (attnDat V c).leavesExact 3 t)

set_option maxHeartbeats 8000000 in
theorem attnBody_at (c : Dev nD) (t : Fin cfg1.N) :
    attnPre V c t ⊢ wp frame (wpE (defs₀ (F := F)) Variants.none c none) Set.univ (bodyAt1 t) (fun _ => attnPost V c t) := by
  unfold attnPre attnPost bodyAt1
  simp only [attnBefore0, attnBefore1, attnBefore2]
  rw [show (attnDat V c).owesAt () t.succ = (attnDat V c).owesAt () t.castSucc from rfl]
  rw [show (attnDat V c).Φ t.succ = attnInv V c (t.val + 1) t.isLt from rfl, attnInv_succ]
  have hN : t.val < 32 := lt_of_lt_of_eq t.isLt (show cfg1.N = 32 from N_1)
  by_cases h0 : t.val % 4 = 0
  · have hc0 : condFirst (grid1.coords t) := (condFirst_iff t).mpr h0
    have hc1 : ¬condLast (grid1.coords t) := fun h => by have h' := (condLast_iff t).mp h; omega
    rw [show (attnDat V c).leavesExact 0 t = owns (c : Thread nD τ) (ms1_0 t) fullShare ((attnDat V c).after 0 t) from by
      unfold Dat.leavesExact; rw [attnLive0 t], attnAfter0]
    rw [show (attnDat V c).leavesExact 1 t = owns (c : Thread nD τ) (ms1_1 t) fullShare ((attnDat V c).after 1 t) from by
      unfold Dat.leavesExact; rw [attnLive1 t], attnAfter1]
    rw [show (attnDat V c).leavesExact 2 t = owns (c : Thread nD τ) (ms1_2 t) fullShare ((attnDat V c).after 2 t) from by
      unfold Dat.leavesExact; rw [attnLive2 t], attnAfter2]
    rw [Dat.leavesExact_idle (attnDat V c) 3 t (attnIdle3 t hc1) (attnNoFlush3 t hc1)]
    rw [carried_A V c t h0 hc0 hc1]
    unfold leftAt_A leftA7 leftA8 leftA9; (try dsimp only)
    by_cases hz : t.val = 0
    ·
      rw [attnInv_castSucc V c t, attnInv_zero V c _ _ hz]
      iintro ⟨HΦ, Ho, ⟨%d0, H0⟩, ⟨%d1, H1⟩, ⟨%d2, H2⟩, ⟨%d3, H3⟩⟩
      ihave HΦ' := clsInv_open c $$ HΦ
      icases HΦ' with ⟨Hoth, HS0, HS1, HS2, Hg⟩
      iapply ((attnRunA c (grid1.coords t) _ _ _ _ _ _ _ _ _ _ _ _ _ _ hc0 hc1 (attnBlk V c 0 t) (attnBlk V c 1 t) (attnBlk V c 2 t)).2.2.2 Set.univ _ _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      iintro ⟨H0, H1, H2, H3, ⟨%e7, HS0⟩, ⟨%e8, HS1⟩, ⟨%e9, HS2⟩⟩
      isplitl [Hoth HS0 HS1 HS2 Hg]
      · isplitl [Hoth]; · iexact Hoth
        isplitl [HS0]
        · unfold owns; iexists _; isplitr
          swap; · iexact HS0
          ipureintro; exact View.read_writes_of_cover _ _ _ _ _ (coverA7 c _ _ _ _ _ _ _ _ _ _ _ _ _ _ _ _ _ _ _ _)
        isplitl [HS1]
        · unfold owns; iexists _; isplitr
          swap; · iexact HS1
          ipureintro; exact View.read_writes_of_cover _ _ _ _ _ (coverA8 c _ _ _ _ _ _ _ _ _ _ _ _ _ _ _ _ _ _ _ _)
        isplitl [HS2]
        · unfold owns; iexists _; isplitr
          swap; · iexact HS2
          ipureintro; exact View.read_writes_of_cover _ _ _ _ _ (coverA9 c _ _ _ _ _ _ _ _ _ _ _ _ _ _ _ _ _ _ _ _)
        iexact Hg
      isplitl [Ho]; · iexact Ho
      isplitl [H0]; · iexact H0
      isplitl [H1]; · iexact H1
      isplitl [H2]; · iexact H2
      iexists _; iexact H3
    ·
      rw [attnInv_castSucc V c t, attnInv_pos V c _ _ hz]
      iintro ⟨⟨Hoth, HS0, HS1, HS2, Hg⟩, Ho, ⟨%d0, H0⟩, ⟨%d1, H1⟩, ⟨%d2, H2⟩, ⟨%d3, H3⟩⟩
      iapply ((attnRunA c (grid1.coords t) _ _ _ _ _ _ _ _ _ _ _ _ _ _ hc0 hc1 (attnBlk V c 0 t) (attnBlk V c 1 t) (attnBlk V c 2 t)).2.2.2 Set.univ _ _)
      isplitl [H0]; · iexact H0
      isplitl [H1]; · iexact H1
      isplitl [H2]; · iexact H2
      isplitl [H3]; · iexact H3
      isplitl [HS0]; · iexists _; iexact HS0
      isplitl [HS1]; · iexists _; iexact HS1
      isplitl [HS2]; · iexists _; iexact HS2
      iintro ⟨H0, H1, H2, H3, ⟨%e7, HS0⟩, ⟨%e8, HS1⟩, ⟨%e9, HS2⟩⟩
      isplitl [Hoth HS0 HS1 HS2 Hg]
      · isplitl [Hoth]; · iexact Hoth
        isplitl [HS0]
        · unfold owns; iexists _; isplitr
          swap; · iexact HS0
          ipureintro; exact View.read_writes_of_cover _ _ _ _ _ (coverA7 c _ _ _ _ _ _ _ _ _ _ _ _ _ _ _ _ _ _ _ _)
        isplitl [HS1]
        · unfold owns; iexists _; isplitr
          swap; · iexact HS1
          ipureintro; exact View.read_writes_of_cover _ _ _ _ _ (coverA8 c _ _ _ _ _ _ _ _ _ _ _ _ _ _ _ _ _ _ _ _)
        isplitl [HS2]
        · unfold owns; iexists _; isplitr
          swap; · iexact HS2
          ipureintro; exact View.read_writes_of_cover _ _ _ _ _ (coverA9 c _ _ _ _ _ _ _ _ _ _ _ _ _ _ _ _ _ _ _ _)
        iexact Hg
      isplitl [Ho]; · iexact Ho
      isplitl [H0]; · iexact H0
      isplitl [H1]; · iexact H1
      isplitl [H2]; · iexact H2
      iexists _; iexact H3
  · have hc0 : ¬condFirst (grid1.coords t) := fun h => h0 ((condFirst_iff t).mp h)
    have hz : t.val ≠ 0 := fun hz => h0 (by rw [hz])
    by_cases h1 : t.val % 4 = 3
    · have hc1 : condLast (grid1.coords t) := (condLast_iff t).mpr h1
      rw [show (attnDat V c).leavesExact 0 t = owns (c : Thread nD τ) (ms1_0 t) fullShare ((attnDat V c).after 0 t) from by
        unfold Dat.leavesExact; rw [attnLive0 t], attnAfter0]
      rw [show (attnDat V c).leavesExact 1 t = owns (c : Thread nD τ) (ms1_1 t) fullShare ((attnDat V c).after 1 t) from by
        unfold Dat.leavesExact; rw [attnLive1 t], attnAfter1]
      rw [show (attnDat V c).leavesExact 2 t = owns (c : Thread nD τ) (ms1_2 t) fullShare ((attnDat V c).after 2 t) from by
        unfold Dat.leavesExact; rw [attnLive2 t], attnAfter2]
      rw [show (attnDat V c).leavesExact 3 t = owns (c : Thread nD τ) (ms1_3 t) fullShare ((attnDat V c).after 3 t) from by
        unfold Dat.leavesExact; rw [attnLive3 t hc1], attnAfter3]
      rw [carried_C V c t h0 h1 hc0 hc1]
      unfold leftAt_C leftC6 leftC7 leftC8 leftC9; (try dsimp only)
      rw [attnInv_castSucc V c t, attnInv_pos V c _ _ hz]
      iintro ⟨⟨Hoth, HS0, HS1, HS2, Hg⟩, Ho, ⟨%d0, H0⟩, ⟨%d1, H1⟩, ⟨%d2, H2⟩, ⟨%d3, H3⟩⟩
      iapply ((attnRunC c (grid1.coords t) _ _ _ _ _ _ _ _ _ _ _ _ _ _ hc0 hc1 (attnBlk V c 0 t) (attnBlk V c 1 t) (attnBlk V c 2 t) _ _ _).2.2.2.2 Set.univ _)
      isplitl [H0]; · iexact H0
      isplitl [H1]; · iexact H1
      isplitl [H2]; · iexact H2
      isplitl [H3]; · iexists _; iexact H3
      isplitl [HS0]; · iexact HS0
      isplitl [HS1]; · iexact HS1
      isplitl [HS2]; · iexact HS2
      iintro ⟨H0, H1, H2, ⟨%e6, H3⟩, ⟨%e7, HS0⟩, ⟨%e8, HS1⟩, ⟨%e9, HS2⟩⟩
      isplitl [Hoth HS0 HS1 HS2 Hg]
      · isplitl [Hoth]; · iexact Hoth
        isplitl [HS0]
        · unfold owns; iexists _; isplitr
          swap; · iexact HS0
          ipureintro; exact View.read_writes_of_cover _ _ _ _ _ (coverC7 c _ _ _ _ _ _ _ _ _ _ _ _ _ _ _ _ _ _ _ _ _ _ _)
        isplitl [HS1]
        · unfold owns; iexists _; isplitr
          swap; · iexact HS1
          ipureintro; exact View.read_writes_of_cover _ _ _ _ _ (coverC8 c _ _ _ _ _ _ _ _ _ _ _ _ _ _ _ _ _ _ _ _ _ _ _)
        isplitl [HS2]
        · unfold owns; iexists _; isplitr
          swap; · iexact HS2
          ipureintro; exact View.read_writes_of_cover _ _ _ _ _ (coverC9 c _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (coverC6 c _ _ _ _ _ _ _ _ _ _ _ _ _ _ _ _ _ _ _ _ _ _ _)
    · have hc1 : ¬condLast (grid1.coords t) := fun h => h1 ((condLast_iff t).mp h)
      rw [show (attnDat V c).leavesExact 0 t = owns (c : Thread nD τ) (ms1_0 t) fullShare ((attnDat V c).after 0 t) from by
        unfold Dat.leavesExact; rw [attnLive0 t], attnAfter0]
      rw [show (attnDat V c).leavesExact 1 t = owns (c : Thread nD τ) (ms1_1 t) fullShare ((attnDat V c).after 1 t) from by
        unfold Dat.leavesExact; rw [attnLive1 t], attnAfter1]
      rw [show (attnDat V c).leavesExact 2 t = owns (c : Thread nD τ) (ms1_2 t) fullShare ((attnDat V c).after 2 t) from by
        unfold Dat.leavesExact; rw [attnLive2 t], attnAfter2]
      rw [Dat.leavesExact_idle (attnDat V c) 3 t (attnIdle3 t hc1) (attnNoFlush3 t hc1)]
      rw [carried_B V c t h0 h1 hc0 hc1]
      unfold leftAt_B leftB7 leftB8 leftB9; (try dsimp only)
      rw [attnInv_castSucc V c t, attnInv_pos V c _ _ hz]
      iintro ⟨⟨Hoth, HS0, HS1, HS2, Hg⟩, Ho, ⟨%d0, H0⟩, ⟨%d1, H1⟩, ⟨%d2, H2⟩, ⟨%d3, H3⟩⟩
      iapply ((attnRunB c (grid1.coords t) _ _ _ _ _ _ _ _ _ _ _ _ _ _ hc0 hc1 (attnBlk V c 0 t) (attnBlk V c 1 t) (attnBlk V c 2 t) _ _ _).2.2.2 Set.univ _ _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      iintro ⟨H0, H1, H2, H3, ⟨%e7, HS0⟩, ⟨%e8, HS1⟩, ⟨%e9, HS2⟩⟩
      isplitl [Hoth HS0 HS1 HS2 Hg]
      · isplitl [Hoth]; · iexact Hoth
        isplitl [HS0]
        · unfold owns; iexists _; isplitr
          swap; · iexact HS0
          ipureintro; exact View.read_writes_of_cover _ _ _ _ _ (coverB7 c _ _ _ _ _ _ _ _ _ _ _ _ _ _ _ _ _ _ _ _ _ _ _)
        isplitl [HS1]
        · unfold owns; iexists _; isplitr
          swap; · iexact HS1
          ipureintro; exact View.read_writes_of_cover _ _ _ _ _ (coverB8 c _ _ _ _ _ _ _ _ _ _ _ _ _ _ _ _ _ _ _ _ _ _ _)
        isplitl [HS2]
        · unfold owns; iexists _; isplitr
          swap; · iexact HS2
          ipureintro; exact View.read_writes_of_cover _ _ _ _ _ (coverB9 c _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      iexists _; iexact H3

/-- The library's body obligation, at every point. -/
theorem attnObligation (c : Dev nD) : BodyObligation (attnDat (F := F) V c) (defs₀ (F := F)) Variants.none () Set.univ := fun t => by
  rw [bigSep_W1, bigSep_W1]
  exact attnBody_at V c t

/-- What the launch hands the region is the invariant before the first point; after the last point the invariant gives
    it back, the scratch buffers' named contents forgotten. -/
theorem attnInv_in (c : Dev nD) : Pipeline.ΦA spec1 c ⊢ (attnDat V c).Φ 0 := by
  rw [show (attnDat V c).Φ 0 = attnInv V c 0 (Nat.zero_le _) from rfl, attnInv_zero V c 0 _ rfl]
  try exact Idealize.SL.BI.Entails.refl _

theorem attnInv_out (c : Dev nD) : (attnDat V c).Φ (Fin.last cfg1.N) ⊢ Pipeline.ΦA spec1 c := by
  rw [show (attnDat V c).Φ (Fin.last cfg1.N) = attnInv V c (Fin.last cfg1.N).val (Nat.le_of_lt_succ (Fin.last cfg1.N).isLt) from rfl,
    attnInv_pos V c _ _ (by rw [Fin.val_last]; have : cfg1.N = 32 := N_1; omega)]
  iintro ⟨Hoth, HS0, HS1, HS2, Hg⟩
  iapply (clsInv_close c)
  isplitl [Hoth]; · iexact Hoth
  isplitl [HS0]; · iexists _; iexact HS0
  isplitl [HS1]; · iexists _; iexact HS1
  isplitl [HS2]; · iexists _; iexact HS2
  iexact Hg

end

end Cert.Kernel.Hand

end
-- ==== Proof.WholeRunB.lean ====
/-
  The whole run. The core's buffer contents are followed through @main's four segments (host operations, the
  projection region, host operations, the attention region): a host stretch leaves what its operations compute, a
  region leaves each of its windows' arrays at what the pipeline's write-backs leave and every other buffer as entered.
  Every weakly fair execution terminates with every unscoped buffer at the last of these contents; in particular each
  argument ends as launched. Stated for any float instance.
-/
import proofs.«174840_j29523605193128_2_alg».proof.Proof.ProjRegionB
import proofs.«174840_j29523605193128_2_alg».proof.Proof.AttnObligB
import proofs.«174840_j29523605193128_2_alg».proof.Proof.Gen.Kernel.Regions

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core c's buffers at launch, -/
abbrev W0 : Dev nD → Valuation τ sig (Elt F) := fun c b => m (c, b)
/-- after the first host stretch (the projection region's entry), -/
abbrev W1 : Dev nD → Valuation τ sig (Elt F) := fun c => StableHlo.after hostOps0 (W0 m c)
abbrev E1 : (c : Dev nD) → (b : Ref sig .tc) → Buf (Elt F) ((c : Thread nD τ).loc b) := fun c b => W1 m c b
/-- at the projection region's exit, -/
def W2 (c : Dev nD) : Valuation τ sig (Elt F) :=
  Pipeline.withArrays spec0 c (W1 m c) fun w => (projDat (E1 m) c).arrAt w cfg0.N
theorem W2_arr (c : Dev nD) (w : Fin cfg0.W) :
    W2 m c (Proc.devRef .tc (Pipeline.arrRef spec0 w)) = (projDat (E1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev E2 : (c : Dev nD) → (b : Ref sig .tc) → Buf (Elt F) ((c : Thread nD τ).loc b) := fun c b => W2 m c b
theorem projFinal (c : Dev nD) (w : Fin cfg0.W) : (projDat (E1 m) c).arrAt w cfg0.N = E2 m c (Pipeline.arrRef spec0 w) :=
  (W2_arr m c w).symm
theorem projRest (c : Dev nD) : ∀ b, b ∉ Finset.univ.image (Pipeline.arrRef spec0) → E2 m c b = E1 m c b :=
  fun b hb => W2_of_ne m c b fun w e => hb (Finset.mem_image.mpr ⟨w, Finset.mem_univ _, e⟩)
/-- after the second host stretch (the attention region's entry), -/
abbrev W3 : Dev nD → Valuation τ sig (Elt F) := fun c => StableHlo.after hostOps1 (W2 m c)
abbrev E3 : (c : Dev nD) → (b : Ref sig .tc) → Buf (Elt F) ((c : Thread nD τ).loc b) := fun c b => W3 m c b
/-- and at the attention region's exit. -/
def W4 (c : Dev nD) : Valuation τ sig (Elt F) :=
  Pipeline.withArrays spec1 c (W3 m c) fun w => (attnDat (E3 m) c).arrAt w cfg1.N
theorem W4_arr (c : Dev nD) (w : Fin cfg1.W) :
    W4 m c (Proc.devRef .tc (Pipeline.arrRef spec1 w)) = (attnDat (E3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev E4 : (c : Dev nD) → (b : Ref sig .tc) → Buf (Elt F) ((c : Thread nD τ).loc b) := fun c b => W4 m c b
theorem attnFinal (c : Dev nD) (w : Fin cfg1.W) : (attnDat (E3 m) c).arrAt w cfg1.N = E4 m c (Pipeline.arrRef spec1 w) :=
  (W4_arr m c w).symm
theorem attnRest (c : Dev nD) : ∀ b, b ∉ Finset.univ.image (Pipeline.arrRef spec1) → E4 m c b = E3 m c b :=
  fun b hb => W4_of_ne m c b fun w e => hb (Finset.mem_image.mpr ⟨w, Finset.mem_univ _, e⟩)

/-- No host operation and no region writes an argument. -/
theorem W4_main_arg0 (c : Dev nD) : W4 m c (Proc.devRef .tc main_arg0) = m ((c : Thread nD τ).loc main_arg0) :=
  (W4_of_ne m c main_arg0 (by decide)).trans <| (StableHlo.after_of_writes_sub hostOps1 _ hostOps1_writes (show main_arg0 ∉ hostOps1_W by decide)).trans <|
    (W2_of_ne m c main_arg0 (by decide)).trans <| (StableHlo.after_of_writes_sub hostOps0 _ hostOps0_writes (show main_arg0 ∉ hostOps0_W by decide)).trans rfl
theorem W4_main_arg1 (c : Dev nD) : W4 m c (Proc.devRef .tc main_arg1) = m ((c : Thread nD τ).loc main_arg1) :=
  (W4_of_ne m c main_arg1 (by decide)).trans <| (StableHlo.after_of_writes_sub hostOps1 _ hostOps1_writes (show main_arg1 ∉ hostOps1_W by decide)).trans <|
    (W2_of_ne m c main_arg1 (by decide)).trans <| (StableHlo.after_of_writes_sub hostOps0 _ hostOps0_writes (show main_arg1 ∉ hostOps0_W by decide)).trans rfl
theorem W4_main_arg2 (c : Dev nD) : W4 m c (Proc.devRef .tc main_arg2) = m ((c : Thread nD τ).loc main_arg2) :=
  (W4_of_ne m c main_arg2 (by decide)).trans <| (StableHlo.after_of_writes_sub hostOps1 _ hostOps1_writes (show main_arg2 ∉ hostOps1_W by decide)).trans <|
    (W2_of_ne m c main_arg2 (by decide)).trans <| (StableHlo.after_of_writes_sub hostOps0 _ hostOps0_writes (show main_arg2 ∉ hostOps0_W by decide)).trans rfl
theorem W4_main_arg3 (c : Dev nD) : W4 m c (Proc.devRef .tc main_arg3) = m ((c : Thread nD τ).loc main_arg3) :=
  (W4_of_ne m c main_arg3 (by decide)).trans <| (StableHlo.after_of_writes_sub hostOps1 _ hostOps1_writes (show main_arg3 ∉ hostOps1_W by decide)).trans <|
    (W2_of_ne m c main_arg3 (by decide)).trans <| (StableHlo.after_of_writes_sub hostOps0 _ hostOps0_writes (show main_arg3 ∉ hostOps0_W by decide)).trans rfl
theorem W4_main_arg4 (c : Dev nD) : W4 m c (Proc.devRef .tc main_arg4) = m ((c : Thread nD τ).loc main_arg4) :=
  (W4_of_ne m c main_arg4 (by decide)).trans <| (StableHlo.after_of_writes_sub hostOps1 _ hostOps1_writes (show main_arg4 ∉ hostOps1_W by decide)).trans <|
    (W2_of_ne m c main_arg4 (by decide)).trans <| (StableHlo.after_of_writes_sub hostOps0 _ hostOps0_writes (show main_arg4 ∉ hostOps0_W by decide)).trans rfl
theorem W4_main_arg5 (c : Dev nD) : W4 m c (Proc.devRef .tc main_arg5) = m ((c : Thread nD τ).loc main_arg5) :=
  (W4_of_ne m c main_arg5 (by decide)).trans <| (StableHlo.after_of_writes_sub hostOps1 _ hostOps1_writes (show main_arg5 ∉ hostOps1_W by decide)).trans <|
    (W2_of_ne m c main_arg5 (by decide)).trans <| (StableHlo.after_of_writes_sub hostOps0 _ hostOps0_writes (show main_arg5 ∉ hostOps0_W by decide)).trans rfl

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => projDat (E1 m) c
  | ⟨1, _⟩ => fun c => attnDat (E3 m) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m c) ∗ ∃ r, prngReg c r)

set_option backward.isDefEq.respectTransparency.types false in
/-- The projection region over the thread state. -/
def projSeg : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (projObligation (E1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E1 m c) (E2 m c) ((pdats m 0 c).arrAt · cfg0.N) (projFinal m c) (projRest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The attention region over the thread state: the generator register and the scoped rest enter the invariant before
    the first point, and come back after the last one with the scratch buffers' contents forgotten. -/
def attnSeg : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (attnObligation (E3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (E3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (attnInv_out (E3 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E3 m c) (E4 m c) ((pdats m 1 c).arrAt · cfg1.N) (attnFinal m c) (attnRest m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-- @main's four segments in order. -/
abbrev segs : List (Pipeline.Seg (pcfgs (F := F)) adm (pdats m) () defs₀ 𝒱₀ L lv) :=
  [ .host (hseg hostOps0 hostOps0_sub hostOps0_fresh (W0 m)),
    .region (projSeg m),
    .host (hseg hostOps1 hostOps1_sub hostOps1_fresh (W2 m)),
    .region (attnSeg m) ]
theorem main_run (c : Dev nD) : main (F := F) c = Pipeline.Seg.run (segs m) := (main_chain c).trans (by chain_rfl)

set_option backward.isDefEq.respectTransparency.types false in
/-- THE RUN: from any memory with zero counters every weakly fair execution of @main terminates, nothing faulting, and
    every final state has every unscoped buffer at the last boundary's contents. -/
theorem run_all : θ_run defs (onTc (τ := τ) (main (F := F))) ⟨m, fun _ => 0, ρ⟩
    (fun r => ∀ c : Dev nD, ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h => h)

/-- The frame: every argument ends as launched. -/
theorem frame_all : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨(h c _ (mem_uc main_arg0 (by decide))).trans (W4_main_arg0 m c),
     (h c _ (mem_uc main_arg1 (by decide))).trans (W4_main_arg1 m c),
     (h c _ (mem_uc main_arg2 (by decide))).trans (W4_main_arg2 m c),
     (h c _ (mem_uc main_arg3 (by decide))).trans (W4_main_arg3 m c),
     (h c _ (mem_uc main_arg4 (by decide))).trans (W4_main_arg4 m c),
     (h c _ (mem_uc main_arg5 (by decide))).trans (W4_main_arg5 m c)⟩) (run_all m ρ)

/-- The result buffer ends at what the attention pipeline's write-backs leave in its output window's array. -/
theorem result_all : θ_run defs (onTc (τ := τ) (main (F := F))) ⟨m, fun _ => 0, ρ⟩ (fun r => ∀ c : Dev nD,
      r.2.mem ((c.tc : Thread nD τ).loc main_v13) = (attnDat (E3 m) c).arrAt 3 cfg1.N) :=
  (θ_run defs _ _).mono (fun _ h c => (h c _ (mem_uc main_v13 (by decide))).trans (W4_arr m c 3)) (run_all m ρ)

end Cert.Kernel.Hand

end
-- ==== Proof.ProjBodyI.lean ====
/-
  The projection kernel's body at one grid point. The point reads a 512-row tile of each of the three
  reshaped inputs and the three whole transposed weight matrices, and overwrites the current staging buffer of each
  of the three results with ONE whole store: tile times weight matrix. Stated for any float instance.
-/
import proofs.«174840_j29523605193128_2_alg».proof.Proof.Gen.KernelIdeal.Launch
import proofs.«174840_j29523605193128_2_alg».proof.Proof.Gen.KernelIdeal.Skeleton
import proofs.«174840_j29523605193128_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The whole rectangle of a 512×1024 staging buffer, and of a 1024×1024 one. -/
abbrev rTile : Rect S512x1024 := Rect.unit (s := S512x1024) ![0, 0] S512x1024.size inb_S512x1024_S512x1024_0_0
abbrev rMat : Rect S1024x1024 := Rect.unit (s := S1024x1024) ![0, 0] S1024x1024.size inb_S1024x1024_S1024x1024_0_0

/-- What the body leaves in each result's staging buffer: its one store, of the row tile times the weight matrix. -/
def projOutQ (x : Vec F S512x1024 .f32) (w : Vec F S1024x1024 .bf16) : Vec F S512x1024 .bf16 :=
  View.canon [⟨rTile, k0_pay1 (View.ld x rTile) (View.ld w rMat)⟩]
def projOutK (x : Vec F S512x1024 .f32) (w : Vec F S1024x1024 .bf16) : Vec F S512x1024 .bf16 :=
  View.canon [⟨rTile, k0_pay2 (View.ld x rTile) (View.ld w rMat)⟩]
def projOutV (x : Vec F S512x1024 .f32) (w : Vec F S1024x1024 .bf16) : Vec F S512x1024 .bf16 :=
  View.canon [⟨rTile, k0_pay3 (View.ld x rTile) (View.ld w rMat)⟩]

/-- One whole store covers the buffer. -/
theorem tileCover (p0 : Vec F S512x1024 .bf16) (y : S512x1024.Idx) :
    ∃ pc ∈ ([⟨rTile, p0⟩] : List (View.Piece (Elt F) S512x1024 .bf16)), y ∈ pc.1.set :=
  View.cover_of_tiled [⟨rTile, p0⟩] S512x1024.size (by rfl) y

set_option maxHeartbeats 4000000 in
/-- The body on whole staging memrefs: the six inputs held at their contents come back unchanged, each result's
    buffer (at anything before) ends at its tile product. -/
theorem projBody_sound (c : Dev nD) (E : Set ℕ) (i : grid0.Coords)
    (arg1 : Memref sig .tc .vmem S512x1024 .f32) (harg1 : arg1.IsWhole) (arg2 : Memref sig .tc .vmem S512x1024 .f32) (harg2 : arg2.IsWhole)
    (arg3 : Memref sig .tc .vmem S512x1024 .f32) (harg3 : arg3.IsWhole) (arg4 : Memref sig .tc .vmem S1024x1024 .bf16) (harg4 : arg4.IsWhole)
    (arg5 : Memref sig .tc .vmem S1024x1024 .bf16) (harg5 : arg5.IsWhole) (arg6 : Memref sig .tc .vmem S1024x1024 .bf16) (harg6 : arg6.IsWhole)
    (arg7 : Memref sig .tc .vmem S512x1024 .bf16) (harg7 : arg7.IsWhole) (arg8 : Memref sig .tc .vmem S512x1024 .bf16) (harg8 : arg8.IsWhole)
    (arg9 : Memref sig .tc .vmem S512x1024 .bf16) (harg9 : arg9.IsWhole)
    (x0 x1 x2 : Vec F S512x1024 .f32) (w0 w1 w2 : Vec F S1024x1024 .bf16) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare w0 ∗ owns (c : Thread nD τ) arg5 fullShare w1 ∗ owns (c : Thread nD τ) arg6 fullShare w2
        ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2
            ∗ owns (c : Thread nD τ) arg4 fullShare w0 ∗ owns (c : Thread nD τ) arg5 fullShare w1 ∗ owns (c : Thread nD τ) arg6 fullShare w2
            ∗ owns (c : Thread nD τ) arg7 fullShare (projOutQ x0 w0) ∗ owns (c : Thread nD τ) arg8 fullShare (projOutK x1 w1)
            ∗ owns (c : Thread nD τ) arg9 fullShare (projOutV x2 w2)) -∗ K ⟨⟩))
      ⊢ wp frame (wpE (defs₀ (F := F)) Variants.none c none) E
          (cc0__proj_kernel i arg1 harg1 arg2 harg2 arg3 harg3 arg4 harg4 arg5 harg5 arg6 harg6 arg7 harg7 arg8 harg8 arg9 harg9) K := by
  simp only [cc0__proj_kernel_eq_skeleton]; unfold cc0__proj_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩,
    ⟨%d7, %f7, -, H7⟩, ⟨%d8, %f8, -, H8⟩, ⟨%d9, %f9, -, H9⟩, Hk⟩
  subst hf1; subst hf2; subst hf3; subst hf4; subst hf5; subst hf6
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    exact View.read_writes_eq_canon _ _ _ (tileCover _)
  isplitl [H8]
  · iexists _; isplitr
    swap; · iexact H8
    ipureintro
    exact View.read_writes_eq_canon _ _ _ (tileCover _)
  iexists _; isplitr
  swap; · iexact H9
  ipureintro
  exact View.read_writes_eq_canon _ _ _ (tileCover _)

end Cert.KernelIdeal.Hand

end
-- ==== Proof.ProjRegionI.lean ====
/-
  The projection region as the pipeline sees it, at any contents V of the core's buffers when the region is entered:
  window w's block at a point is read off V; an input's staging buffer holds its block at every point (fetched there
  or kept from the point before); each result's buffer ends at the tile product; the region invariant is the class's
  (the scoped rest and the generator register pass through untouched).
-/
import proofs.«174840_j29523605193128_2_alg».proof.Proof.ProjBodyI

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window w's block at point t, read off its array as the region finds it. -/
def projBlk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem projBefore0_of {c : Dev nD} (dat : Dat τ (Elt F) Unit ℕ (UR sig nD τ) ℕ cfg0 c) (hA : dat.A 0 = V c (Pipeline.arrRef spec0 0))
    (hafter : ∀ t, dat.after 0 t = projBlk V c 0 t) (t : Fin cfg0.N) (d) : dat.before 0 t d = projBlk V c 0 t :=
  (dat.before_in_eq_fetched 0 rfl (fun _ => rfl) (fun _ _ _ => rfl) (fun t => by rw [hafter]; unfold Dat.blockOf projBlk; rw [hA]; try rfl) t d).trans
    (by unfold Dat.fetched Dat.blockOf projBlk; rw [hA]; try rfl)
theorem projBefore1_of {c : Dev nD} (dat : Dat τ (Elt F) Unit ℕ (UR sig nD τ) ℕ cfg0 c) (hA : dat.A 1 = V c (Pipeline.arrRef spec0 1))
    (hafter : ∀ t, dat.after 1 t = projBlk V c 1 t) (t : Fin cfg0.N) (d) : dat.before 1 t d = projBlk V c 1 t :=
  (dat.before_in_eq_fetched 1 rfl (fun _ => rfl) (fun _ _ _ => rfl) (fun t => by rw [hafter]; unfold Dat.blockOf projBlk; rw [hA]; try rfl) t d).trans
    (by unfold Dat.fetched Dat.blockOf projBlk; rw [hA]; try rfl)
theorem projBefore2_of {c : Dev nD} (dat : Dat τ (Elt F) Unit ℕ (UR sig nD τ) ℕ cfg0 c) (hA : dat.A 2 = V c (Pipeline.arrRef spec0 2))
    (hafter : ∀ t, dat.after 2 t = projBlk V c 2 t) (t : Fin cfg0.N) (d) : dat.before 2 t d = projBlk V c 2 t :=
  (dat.before_in_eq_fetched 2 rfl (fun _ => rfl) (fun _ _ _ => rfl) (fun t => by rw [hafter]; unfold Dat.blockOf projBlk; rw [hA]; try rfl) t d).trans
    (by unfold Dat.fetched Dat.blockOf projBlk; rw [hA]; try rfl)
theorem projBefore3_of {c : Dev nD} (dat : Dat τ (Elt F) Unit ℕ (UR sig nD τ) ℕ cfg0 c) (hA : dat.A 3 = V c (Pipeline.arrRef spec0 3))
    (hafter : ∀ t, dat.after 3 t = projBlk V c 3 t) (t : Fin cfg0.N) (d) : dat.before 3 t d = projBlk V c 3 t :=
  (dat.before_in_eq_fetched 3 rfl (fun _ => rfl) (fun _ _ _ => rfl) (fun t => by rw [hafter]; unfold Dat.blockOf projBlk; rw [hA]; try rfl) t d).trans
    (by unfold Dat.fetched Dat.blockOf projBlk; rw [hA]; try rfl)
theorem projBefore4_of {c : Dev nD} (dat : Dat τ (Elt F) Unit ℕ (UR sig nD τ) ℕ cfg0 c) (hA : dat.A 4 = V c (Pipeline.arrRef spec0 4))
    (hafter : ∀ t, dat.after 4 t = projBlk V c 4 t) (t : Fin cfg0.N) (d) : dat.before 4 t d = projBlk V c 4 t :=
  (dat.before_in_eq_fetched 4 rfl (fun _ => rfl) (fun _ _ _ => rfl) (fun t => by rw [hafter]; unfold Dat.blockOf projBlk; rw [hA]; try rfl) t d).trans
    (by unfold Dat.fetched Dat.blockOf projBlk; rw [hA]; try rfl)
theorem projBefore5_of {c : Dev nD} (dat : Dat τ (Elt F) Unit ℕ (UR sig nD τ) ℕ cfg0 c) (hA : dat.A 5 = V c (Pipeline.arrRef spec0 5))
    (hafter : ∀ t, dat.after 5 t = projBlk V c 5 t) (t : Fin cfg0.N) (d) : dat.before 5 t d = projBlk V c 5 t :=
  (dat.before_in_eq_fetched 5 rfl (fun _ => rfl) (fun _ _ _ => rfl) (fun t => by rw [hafter]; unfold Dat.blockOf projBlk; rw [hA]; try rfl) t d).trans
    (by unfold Dat.fetched Dat.blockOf projBlk; rw [hA]; try rfl)

/-- The proof data of the projection pipeline on core c. -/
def projDat (c : Dev nD) : Dat τ (Elt F) Unit ℕ (UR sig nD τ) ℕ cfg0 c where
  A w := V c (Pipeline.arrRef spec0 w)
  after w t := match w with
    | ⟨0, _⟩ => projBlk V c 0 t
    | ⟨1, _⟩ => projBlk V c 1 t
    | ⟨2, _⟩ => projBlk V c 2 t
    | ⟨3, _⟩ => projBlk V c 3 t
    | ⟨4, _⟩ => projBlk V c 4 t
    | ⟨5, _⟩ => projBlk V c 5 t
    | ⟨6, _⟩ => projOutQ (projBlk V c 0 t) (projBlk V c 3 t)
    | ⟨7, _⟩ => projOutK (projBlk V c 1 t) (projBlk V c 4 t)
    | ⟨8, _⟩ => projOutV (projBlk V c 2 t) (projBlk V c 5 t)
  Φ _ := Pipeline.ΦA spec0 c
  q _ := fullShare
  owed _ := 0

theorem projA_eq (c : Dev nD) (w : Fin cfg0.W) : (projDat V c).A w = V c (Pipeline.arrRef spec0 w) := by
  dsimp only [projDat]

theorem projAfter0 (c : Dev nD) (t : Fin cfg0.N) : (projDat V c).after 0 t = projBlk V c 0 t := by dsimp only [projDat]
theorem projAfter1 (c : Dev nD) (t : Fin cfg0.N) : (projDat V c).after 1 t = projBlk V c 1 t := by dsimp only [projDat]
theorem projAfter2 (c : Dev nD) (t : Fin cfg0.N) : (projDat V c).after 2 t = projBlk V c 2 t := by dsimp only [projDat]
theorem projAfter3 (c : Dev nD) (t : Fin cfg0.N) : (projDat V c).after 3 t = projBlk V c 3 t := by dsimp only [projDat]
theorem projAfter4 (c : Dev nD) (t : Fin cfg0.N) : (projDat V c).after 4 t = projBlk V c 4 t := by dsimp only [projDat]
theorem projAfter5 (c : Dev nD) (t : Fin cfg0.N) : (projDat V c).after 5 t = projBlk V c 5 t := by dsimp only [projDat]
theorem projAfter6 (c : Dev nD) (t : Fin cfg0.N) : (projDat V c).after 6 t = projOutQ (projBlk V c 0 t) (projBlk V c 3 t) := by dsimp only [projDat]
theorem projAfter7 (c : Dev nD) (t : Fin cfg0.N) : (projDat V c).after 7 t = projOutK (projBlk V c 1 t) (projBlk V c 4 t) := by dsimp only [projDat]
theorem projAfter8 (c : Dev nD) (t : Fin cfg0.N) : (projDat V c).after 8 t = projOutV (projBlk V c 2 t) (projBlk V c 5 t) := by dsimp only [projDat]

theorem projBefore0 (c : Dev nD) (t : Fin cfg0.N) (d) : (projDat V c).before 0 t d = projBlk V c 0 t :=
  projBefore0_of V (projDat V c) (projA_eq V c 0) (projAfter0 V c) t d
theorem projBefore1 (c : Dev nD) (t : Fin cfg0.N) (d) : (projDat V c).before 1 t d = projBlk V c 1 t :=
  projBefore1_of V (projDat V c) (projA_eq V c 1) (projAfter1 V c) t d
theorem projBefore2 (c : Dev nD) (t : Fin cfg0.N) (d) : (projDat V c).before 2 t d = projBlk V c 2 t :=
  projBefore2_of V (projDat V c) (projA_eq V c 2) (projAfter2 V c) t d
theorem projBefore3 (c : Dev nD) (t : Fin cfg0.N) (d) : (projDat V c).before 3 t d = projBlk V c 3 t :=
  projBefore3_of V (projDat V c) (projA_eq V c 3) (projAfter3 V c) t d
theorem projBefore4 (c : Dev nD) (t : Fin cfg0.N) (d) : (projDat V c).before 4 t d = projBlk V c 4 t :=
  projBefore4_of V (projDat V c) (projA_eq V c 4) (projAfter4 V c) t d
theorem projBefore5 (c : Dev nD) (t : Fin cfg0.N) (d) : (projDat V c).before 5 t d = projBlk V c 5 t :=
  projBefore5_of V (projDat V c) (projA_eq V c 5) (projAfter5 V c) t d

/-- What the body is called with at point t, the windows one by one, -/
def projPre (c : Dev nD) (t : Fin cfg0.N) : sProp 𝕄 :=
  iprop((projDat V c).Φ t.castSucc ∗ (projDat V c).owesAt () t.castSucc
    ∗ (∃ d, owns (c : Thread nD τ) (st0_0 t) fullShare ((projDat V c).before 0 t d))
    ∗ (∃ d, owns (c : Thread nD τ) (st0_1 t) fullShare ((projDat V c).before 1 t d))
    ∗ (∃ d, owns (c : Thread nD τ) (st0_2 t) fullShare ((projDat V c).before 2 t d))
    ∗ (∃ d, owns (c : Thread nD τ) (st0_3 t) fullShare ((projDat V c).before 3 t d))
    ∗ (∃ d, owns (c : Thread nD τ) (st0_4 t) fullShare ((projDat V c).before 4 t d))
    ∗ (∃ d, owns (c : Thread nD τ) (st0_5 t) fullShare ((projDat V c).before 5 t d))
    ∗ (∃ d, owns (c : Thread nD τ) (st0_6 t) fullShare ((projDat V c).before 6 t d))
    ∗ (∃ d, owns (c : Thread nD τ) (st0_7 t) fullShare ((projDat V c).before 7 t d))
    ∗ (∃ d, owns (c : Thread nD τ) (st0_8 t) fullShare ((projDat V c).before 8 t d)))

/-- and what it returns. -/
def projPost (c : Dev nD) (t : Fin cfg0.N) : sProp 𝕄 :=
  iprop((projDat V c).Φ t.succ ∗ (projDat V c).owesAt () t.succ
    ∗ owns (c : Thread nD τ) (st0_0 t) fullShare ((projDat V c).after 0 t)
    ∗ owns (c : Thread nD τ) (st0_1 t) fullShare ((projDat V c).after 1 t)
    ∗ owns (c : Thread nD τ) (st0_2 t) fullShare ((projDat V c).after 2 t)
    ∗ owns (c : Thread nD τ) (st0_3 t) fullShare ((projDat V c).after 3 t)
    ∗ owns (c : Thread nD τ) (st0_4 t) fullShare ((projDat V c).after 4 t)
    ∗ owns (c : Thread nD τ) (st0_5 t) fullShare ((projDat V c).after 5 t)
    ∗ owns (c : Thread nD τ) (st0_6 t) fullShare ((projDat V c).after 6 t)
    ∗ owns (c : Thread nD τ) (st0_7 t) fullShare ((projDat V c).after 7 t)
    ∗ owns (c : Thread nD τ) (st0_8 t) fullShare ((projDat V c).after 8 t))

set_option maxHeartbeats 2000000 in
/-- The body at any point: the inputs' memrefs hold their blocks, so the body's triple applies; the invariant and the
    core's dues pass through unread. -/
theorem projBody_at (c : Dev nD) (t : Fin cfg0.N) :
    projPre V c t ⊢ wp frame (wpE (defs₀ (F := F)) Variants.none c none) Set.univ (bodyAt0 t) (fun _ => projPost V c t) := by
  unfold projPre projPost bodyAt0
  simp only [projBefore0, projBefore1, projBefore2, projBefore3, projBefore4, projBefore5]
  rw [show (projDat V c).Φ t.succ = (projDat V c).Φ t.castSucc from rfl,
    show (projDat V c).owesAt () t.succ = (projDat V c).owesAt () t.castSucc from rfl,
    projAfter0, projAfter1, projAfter2, projAfter3, projAfter4, projAfter5, projAfter6, projAfter7, projAfter8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (projBody_sound c Set.univ _ _ _ _ _ _ _ _ _ _ _ _ _ _ _ _ _ _ _ (projBlk V c 0 t) (projBlk V c 1 t) (projBlk V c 2 t)
    (projBlk V c 3 t) (projBlk V c 4 t) (projBlk V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The library's body obligation, at every point. -/
theorem projObligation (c : Dev nD) : BodyObligation (projDat (F := F) V c) (defs₀ (F := F)) Variants.none () Set.univ := fun t => by
  rw [bigSep_W0, bigSep_W0]
  exact projBody_at V c t

end

end Cert.KernelIdeal.Hand

end
-- ==== Proof.AttnRunI.lean ====
/-
  The attention kernel's body at one grid point (batch b, query tile qi, key tile ki). It reads the query tile and one
  key tile and one value tile, and the three scratch buffers that carry the running row maximum, the running row sum
  and the running weighted sum across the key tiles of one (b, qi); at the first key tile it first resets them, at
  the last it stores the quotient into the output tile. Three cases of the two conditions meet the grid: first tile,
  a middle tile, last tile. Each case's run hands back every buffer it stored into with its stores applied, the list
  of stores being the run's own witness. Stated for any float instance.
-/
import proofs.«174840_j29523605193128_2_alg».proof.Proof.Gen.KernelIdeal.Launch
import proofs.«174840_j29523605193128_2_alg».proof.Proof.Gen.KernelIdeal.Skeleton
import proofs.«174840_j29523605193128_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The body resets the scratch exactly when the key-tile coordinate is 0, -/
abbrev condFirst (i : grid1.Coords) : Prop := (Scalar.cmpi .ne (Scalar.extui (Scalar.cmpi .eq (BitVec.ofNat 32 (i 2).val) 0#32)) 0#32) = 1#1
/-- and stores the output tile exactly when it is the last one. -/
abbrev condLast (i : grid1.Coords) : Prop := k1_cond2 i = 1#1

/-- The key tile is the position modulo 4: the grid is (4, 2, 4), the key-tile axis innermost. -/
theorem condFirst_iff : ∀ t : Fin cfg1.N, condFirst (grid1.coords t) ↔ t.val % 4 = 0 :=
  (by decide +kernel : ∀ t : Fin grid1.N, condFirst (grid1.coords t) ↔ t.val % 4 = 0)
theorem condLast_iff : ∀ t : Fin cfg1.N, condLast (grid1.coords t) ↔ t.val % 4 = 3 :=
  (by decide +kernel : ∀ t : Fin grid1.N, condLast (grid1.coords t) ↔ t.val % 4 = 3)

/-- The inputs are never idle; the output window is idle, and not written back, away from the last key tile. -/
theorem attnLive0 : ∀ t : Fin cfg1.N, cfg1.idle 0 (grid1.coords t) = false := by decide +kernel
theorem attnLive1 : ∀ t : Fin cfg1.N, cfg1.idle 1 (grid1.coords t) = false := by decide +kernel
theorem attnLive2 : ∀ t : Fin cfg1.N, cfg1.idle 2 (grid1.coords t) = false := by decide +kernel
theorem attnIdle3 : ∀ t : Fin cfg1.N, ¬condLast (grid1.coords t) → cfg1.idle 3 (grid1.coords t) = true := by decide +kernel
theorem attnNoFlush3 : ∀ t : Fin cfg1.N, ¬condLast (grid1.coords t) → (cfg1.win 3).flush t = false := by decide +kernel
theorem attnLive3 : ∀ t : Fin cfg1.N, condLast (grid1.coords t) → cfg1.idle 3 (grid1.coords t) = false := by decide +kernel

set_option maxHeartbeats 4000000 in
/-- FIRST key tile: the scratch buffers are found at anything. -/
noncomputable def attnRunA (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : condFirst i) (hc1 : ¬condLast i) (q : Vec F S1x1024x1024 .bf16) (k v : Vec F S1x512x1024 .bf16) :
    Σ' (L7 : List (View.Piece (Elt F) S1024x1 .f32)) (L8 : List (View.Piece (Elt F) S1024x1 .f32)), { L9 : List (View.Piece (Elt F) S1024x1024 .f32) //
      ∀ (E : Set ℕ) (K : PUnit → sProp 𝕄) (d6 : Vec F S1x1024x1024 .f32),
        iprop(owns (c : Thread nD τ) arg3 fullShare q ∗ owns (c : Thread nD τ) arg4 fullShare k ∗ owns (c : Thread nD τ) arg5 fullShare v ∗ owns (c : Thread nD τ) arg6 fullShare d6 ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg3 fullShare q ∗ owns (c : Thread nD τ) arg4 fullShare k ∗ owns (c : Thread nD τ) arg5 fullShare v ∗ owns (c : Thread nD τ) arg6 fullShare d6 ∗ (∃ f, arg7.view.loc (c : Thread nD τ) ↦[arg7.view.set]{fullShare} arg7.view.writes (Elt F) f L7) ∗ (∃ f, arg8.view.loc (c : Thread nD τ) ↦[arg8.view.set]{fullShare} arg8.view.writes (Elt F) f L8) ∗ (∃ f, arg9.view.loc (c : Thread nD τ) ↦[arg9.view.set]{fullShare} arg9.view.writes (Elt F) f L9)) -∗ K ⟨⟩))
          ⊢ wp frame (wpE (defs₀ (F := F)) Variants.none c none) E (cc1__attn_kernel i arg3 harg3 arg4 harg4 arg5 harg5 arg6 harg6 arg7 harg7 arg8 harg8 arg9 harg9) K } := by
  refine ⟨?_, ?_, ?_, fun E K d6 => ?run⟩
  case run =>
    simp only [cc1__attn_kernel_eq_skeleton]; unfold cc1__attn_kernel_skel
    simp only [k1_part1_eq_skeleton]; unfold k1_part1_skel
    unfold owns
    iintro ⟨⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, Hk⟩
    obtain rfl := harg3.eq_unread hf3; obtain rfl := harg4.eq_unread hf4; obtain rfl := harg5.eq_unread hf5
    sl_exec (disch := first | exact hc0 | exact hc1)
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists f6; isplitr; · ipureintro; exact hf6
      iexact H6
    isplitl [H7]; · iexists _; iexact H7
    isplitl [H8]; · iexists _; iexact H8
    iexists _; iexact H9

set_option maxHeartbeats 4000000 in
/-- A MIDDLE key tile: the scratch buffers are found at what the tile before left. -/
noncomputable def attnRunB (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬condFirst i) (hc1 : ¬condLast i) (q : Vec F S1x1024x1024 .bf16) (k v : Vec F S1x512x1024 .bf16) (m0 l0 : Vec F S1024x1 .f32) (a0 : Vec F S1024x1024 .f32) :
    Σ' (L7 : List (View.Piece (Elt F) S1024x1 .f32)) (L8 : List (View.Piece (Elt F) S1024x1 .f32)), { L9 : List (View.Piece (Elt F) S1024x1024 .f32) //
      ∀ (E : Set ℕ) (K : PUnit → sProp 𝕄) (d6 : Vec F S1x1024x1024 .f32),
        iprop(owns (c : Thread nD τ) arg3 fullShare q ∗ owns (c : Thread nD τ) arg4 fullShare k ∗ owns (c : Thread nD τ) arg5 fullShare v ∗ owns (c : Thread nD τ) arg6 fullShare d6 ∗ owns (c : Thread nD τ) arg7 fullShare m0 ∗ owns (c : Thread nD τ) arg8 fullShare l0 ∗ owns (c : Thread nD τ) arg9 fullShare a0
            ∗ (iprop(owns (c : Thread nD τ) arg3 fullShare q ∗ owns (c : Thread nD τ) arg4 fullShare k ∗ owns (c : Thread nD τ) arg5 fullShare v ∗ owns (c : Thread nD τ) arg6 fullShare d6 ∗ (∃ f, arg7.view.loc (c : Thread nD τ) ↦[arg7.view.set]{fullShare} arg7.view.writes (Elt F) f L7) ∗ (∃ f, arg8.view.loc (c : Thread nD τ) ↦[arg8.view.set]{fullShare} arg8.view.writes (Elt F) f L8) ∗ (∃ f, arg9.view.loc (c : Thread nD τ) ↦[arg9.view.set]{fullShare} arg9.view.writes (Elt F) f L9)) -∗ K ⟨⟩))
          ⊢ wp frame (wpE (defs₀ (F := F)) Variants.none c none) E (cc1__attn_kernel i arg3 harg3 arg4 harg4 arg5 harg5 arg6 harg6 arg7 harg7 arg8 harg8 arg9 harg9) K } := by
  refine ⟨?_, ?_, ?_, fun E K d6 => ?run⟩
  case run =>
    simp only [cc1__attn_kernel_eq_skeleton]; unfold cc1__attn_kernel_skel
    simp only [k1_part1_eq_skeleton]; unfold k1_part1_skel
    unfold owns
    iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
    obtain rfl := harg3.eq_unread hf3; obtain rfl := harg4.eq_unread hf4; obtain rfl := harg5.eq_unread hf5
    obtain rfl := harg7.eq_unread hf7; obtain rfl := harg8.eq_unread hf8; obtain rfl := harg9.eq_unread hf9
    sl_exec (disch := first | exact hc0 | exact hc1)
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists f6; isplitr; · ipureintro; exact hf6
      iexact H6
    isplitl [H7]; · iexists _; iexact H7
    isplitl [H8]; · iexists _; iexact H8
    iexists _; iexact H9

set_option maxHeartbeats 4000000 in
/-- The LAST key tile: as a middle one, and the output tile's buffer is stored into. -/
noncomputable def attnRunC (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬condFirst i) (hc1 : condLast i) (q : Vec F S1x1024x1024 .bf16) (k v : Vec F S1x512x1024 .bf16) (m0 l0 : Vec F S1024x1 .f32) (a0 : Vec F S1024x1024 .f32) :
    Σ' (L6 : List (View.Piece (Elt F) S1x1024x1024 .f32)) (L7 : List (View.Piece (Elt F) S1024x1 .f32)) (L8 : List (View.Piece (Elt F) S1024x1 .f32)), { L9 : List (View.Piece (Elt F) S1024x1024 .f32) //
      ∀ (E : Set ℕ) (K : PUnit → sProp 𝕄),
        iprop(owns (c : Thread nD τ) arg3 fullShare q ∗ owns (c : Thread nD τ) arg4 fullShare k ∗ owns (c : Thread nD τ) arg5 fullShare v ∗ (∃ d, owns (c : Thread nD τ) arg6 fullShare d) ∗ owns (c : Thread nD τ) arg7 fullShare m0 ∗ owns (c : Thread nD τ) arg8 fullShare l0 ∗ owns (c : Thread nD τ) arg9 fullShare a0
            ∗ (iprop(owns (c : Thread nD τ) arg3 fullShare q ∗ owns (c : Thread nD τ) arg4 fullShare k ∗ owns (c : Thread nD τ) arg5 fullShare v ∗ (∃ f, arg6.view.loc (c : Thread nD τ) ↦[arg6.view.set]{fullShare} arg6.view.writes (Elt F) f L6) ∗ (∃ f, arg7.view.loc (c : Thread nD τ) ↦[arg7.view.set]{fullShare} arg7.view.writes (Elt F) f L7) ∗ (∃ f, arg8.view.loc (c : Thread nD τ) ↦[arg8.view.set]{fullShare} arg8.view.writes (Elt F) f L8) ∗ (∃ f, arg9.view.loc (c : Thread nD τ) ↦[arg9.view.set]{fullShare} arg9.view.writes (Elt F) f L9)) -∗ K ⟨⟩))
          ⊢ wp frame (wpE (defs₀ (F := F)) Variants.none c none) E (cc1__attn_kernel i arg3 harg3 arg4 harg4 arg5 harg5 arg6 harg6 arg7 harg7 arg8 harg8 arg9 harg9) K } := by
  refine ⟨?_, ?_, ?_, ?_, fun E K => ?run⟩
  case run =>
    simp only [cc1__attn_kernel_eq_skeleton]; unfold cc1__attn_kernel_skel
    simp only [k1_part1_eq_skeleton]; unfold k1_part1_skel
    unfold owns
    iintro ⟨⟨%f3, %hf3, H3⟩, ⟨%f4, %hf4, H4⟩, ⟨%f5, %hf5, H5⟩, ⟨%d6, %f6, -, H6⟩, ⟨%f7, %hf7, H7⟩, ⟨%f8, %hf8, H8⟩, ⟨%f9, %hf9, H9⟩, Hk⟩
    obtain rfl := harg3.eq_unread hf3; obtain rfl := harg4.eq_unread hf4; obtain rfl := harg5.eq_unread hf5
    obtain rfl := harg7.eq_unread hf7; obtain rfl := harg8.eq_unread hf8; obtain rfl := harg9.eq_unread hf9
    sl_exec (disch := first | exact hc0 | exact hc1)
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]; · iexists _; iexact H6
    isplitl [H7]; · iexists _; iexact H7
    isplitl [H8]; · iexists _; iexact H8
    iexists _; iexact H9

end Cert.KernelIdeal.Hand

end
-- ==== Proof.AttnRegionI.lean ====
/-
  The attention region as the pipeline sees it, at any contents V of the core's buffers when the region is entered.
  The three scratch buffers are carried from one grid point to the next: what they hold after the point at position n
  is defined by recursion on n (reset at a first key tile, otherwise computed from what position n-1 left), and the
  region invariant before position n+1 holds them at exactly that. The output tile's buffer is stored into at a last key
  tile only; elsewhere the window is idle and handed back untouched.
-/
import proofs.«174840_j29523605193128_2_alg».proof.Proof.AttnRunI

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The scratch operands: whole scoped buffers of the kernel's own, passed beside the windows; and as views. -/
abbrev scM : Memref sig .tc .vmem S1024x1 .f32 := Memref.whole cc1_scratch0
abbrev scL : Memref sig .tc .vmem S1024x1 .f32 := Memref.whole cc1_scratch1
abbrev scA : Memref sig .tc .vmem S1024x1024 .f32 := Memref.whole cc1_scratch2
abbrev VM : View sig .tc .vmem S1024x1 .f32 := scM.view
abbrev VL : View sig .tc .vmem S1024x1 .f32 := scL.view
abbrev VA : View sig .tc .vmem S1024x1024 .f32 := scA.view
/-- One staging buffer of the output window, through which its contents are stated (the choice does not matter). -/
abbrev VO : View sig .tc .vmem S1x1024x1024 .f32 := (Memref.whole cc1_stg3_0 : Memref sig .tc .vmem S1x1024x1024 .f32).view
/-- Each window's current staging memref at point t, as the pipeline passes it, and its wholeness. -/
abbrev ms1_0 (t : Fin cfg1.N) : Memref sig .tc .vmem S1x1024x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x512x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x512x1024 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1024x1024 .f32 := win1_3.stage (cfg1.slots t 3)
abbrev hs1_3 (t : Fin cfg1.N) : (ms1_3 t).IsWhole := hstage1_3 ((cfg1.slots t 3).cast nbuf1_3)

/-- Case A's stores into the running-maximum scratch cover it, and what they leave there. -/
theorem coverA7 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : condFirst i) (hc1 : ¬condLast i) (q : Vec F S1x1024x1024 .bf16) (k v : Vec F S1x512x1024 .bf16) (y : S1024x1.Idx) :
    ∃ pc ∈ (attnRunA c i arg3 harg3 arg4 harg4 arg5 harg5 arg6 harg6 arg7 harg7 arg8 harg8 arg9 harg9 hc0 hc1 q k v).1, y ∈ pc.1.set :=
  View.cover_of_tiledL (attnRunA c i arg3 harg3 arg4 harg4 arg5 harg5 arg6 harg6 arg7 harg7 arg8 harg8 arg9 harg9 hc0 hc1 q k v).1 S1024x1.size (by sl_kernel_rfl) y
def leftA7 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : condFirst i) (hc1 : ¬condLast i) (q : Vec F S1x1024x1024 .bf16) (k v : Vec F S1x512x1024 .bf16) : Vec F S1024x1 .f32 :=
  VM.read (Elt F) (VM.writes (Elt F) VM.junk (attnRunA c i arg3 harg3 arg4 harg4 arg5 harg5 arg6 harg6 arg7 harg7 arg8 harg8 arg9 harg9 hc0 hc1 q k v).1)
/-- Case A's stores into the running-sum scratch cover it, and what they leave there. -/
theorem coverA8 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : condFirst i) (hc1 : ¬condLast i) (q : Vec F S1x1024x1024 .bf16) (k v : Vec F S1x512x1024 .bf16) (y : S1024x1.Idx) :
    ∃ pc ∈ (attnRunA c i arg3 harg3 arg4 harg4 arg5 harg5 arg6 harg6 arg7 harg7 arg8 harg8 arg9 harg9 hc0 hc1 q k v).2.1, y ∈ pc.1.set :=
  View.cover_of_tiledL (attnRunA c i arg3 harg3 arg4 harg4 arg5 harg5 arg6 harg6 arg7 harg7 arg8 harg8 arg9 harg9 hc0 hc1 q k v).2.1 S1024x1.size (by sl_kernel_rfl) y
def leftA8 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : condFirst i) (hc1 : ¬condLast i) (q : Vec F S1x1024x1024 .bf16) (k v : Vec F S1x512x1024 .bf16) : Vec F S1024x1 .f32 :=
  VL.read (Elt F) (VL.writes (Elt F) VL.junk (attnRunA c i arg3 harg3 arg4 harg4 arg5 harg5 arg6 harg6 arg7 harg7 arg8 harg8 arg9 harg9 hc0 hc1 q k v).2.1)
/-- Case A's stores into the accumulator scratch cover it, and what they leave there. -/
theorem coverA9 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : condFirst i) (hc1 : ¬condLast i) (q : Vec F S1x1024x1024 .bf16) (k v : Vec F S1x512x1024 .bf16) (y : S1024x1024.Idx) :
    ∃ pc ∈ (attnRunA c i arg3 harg3 arg4 harg4 arg5 harg5 arg6 harg6 arg7 harg7 arg8 harg8 arg9 harg9 hc0 hc1 q k v).2.2.1, y ∈ pc.1.set :=
  View.cover_of_tiledL (attnRunA c i arg3 harg3 arg4 harg4 arg5 harg5 arg6 harg6 arg7 harg7 arg8 harg8 arg9 harg9 hc0 hc1 q k v).2.2.1 S1024x1024.size (by sl_kernel_rfl) y
def leftA9 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : condFirst i) (hc1 : ¬condLast i) (q : Vec F S1x1024x1024 .bf16) (k v : Vec F S1x512x1024 .bf16) : Vec F S1024x1024 .f32 :=
  VA.read (Elt F) (VA.writes (Elt F) VA.junk (attnRunA c i arg3 harg3 arg4 harg4 arg5 harg5 arg6 harg6 arg7 harg7 arg8 harg8 arg9 harg9 hc0 hc1 q k v).2.2.1)
/-- Case B's stores into the running-maximum scratch cover it, and what they leave there. -/
theorem coverB7 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬condFirst i) (hc1 : ¬condLast i) (q : Vec F S1x1024x1024 .bf16) (k v : Vec F S1x512x1024 .bf16) (m0 l0 : Vec F S1024x1 .f32) (a0 : Vec F S1024x1024 .f32) (y : S1024x1.Idx) :
    ∃ pc ∈ (attnRunB c i arg3 harg3 arg4 harg4 arg5 harg5 arg6 harg6 arg7 harg7 arg8 harg8 arg9 harg9 hc0 hc1 q k v m0 l0 a0).1, y ∈ pc.1.set :=
  View.cover_of_tiledL (attnRunB c i arg3 harg3 arg4 harg4 arg5 harg5 arg6 harg6 arg7 harg7 arg8 harg8 arg9 harg9 hc0 hc1 q k v m0 l0 a0).1 S1024x1.size (by sl_kernel_rfl) y
def leftB7 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬condFirst i) (hc1 : ¬condLast i) (q : Vec F S1x1024x1024 .bf16) (k v : Vec F S1x512x1024 .bf16) (m0 l0 : Vec F S1024x1 .f32) (a0 : Vec F S1024x1024 .f32) : Vec F S1024x1 .f32 :=
  VM.read (Elt F) (VM.writes (Elt F) VM.junk (attnRunB c i arg3 harg3 arg4 harg4 arg5 harg5 arg6 harg6 arg7 harg7 arg8 harg8 arg9 harg9 hc0 hc1 q k v m0 l0 a0).1)
/-- Case B's stores into the running-sum scratch cover it, and what they leave there. -/
theorem coverB8 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬condFirst i) (hc1 : ¬condLast i) (q : Vec F S1x1024x1024 .bf16) (k v : Vec F S1x512x1024 .bf16) (m0 l0 : Vec F S1024x1 .f32) (a0 : Vec F S1024x1024 .f32) (y : S1024x1.Idx) :
    ∃ pc ∈ (attnRunB c i arg3 harg3 arg4 harg4 arg5 harg5 arg6 harg6 arg7 harg7 arg8 harg8 arg9 harg9 hc0 hc1 q k v m0 l0 a0).2.1, y ∈ pc.1.set :=
  View.cover_of_tiledL (attnRunB c i arg3 harg3 arg4 harg4 arg5 harg5 arg6 harg6 arg7 harg7 arg8 harg8 arg9 harg9 hc0 hc1 q k v m0 l0 a0).2.1 S1024x1.size (by sl_kernel_rfl) y
def leftB8 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬condFirst i) (hc1 : ¬condLast i) (q : Vec F S1x1024x1024 .bf16) (k v : Vec F S1x512x1024 .bf16) (m0 l0 : Vec F S1024x1 .f32) (a0 : Vec F S1024x1024 .f32) : Vec F S1024x1 .f32 :=
  VL.read (Elt F) (VL.writes (Elt F) VL.junk (attnRunB c i arg3 harg3 arg4 harg4 arg5 harg5 arg6 harg6 arg7 harg7 arg8 harg8 arg9 harg9 hc0 hc1 q k v m0 l0 a0).2.1)
/-- Case B's stores into the accumulator scratch cover it, and what they leave there. -/
theorem coverB9 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬condFirst i) (hc1 : ¬condLast i) (q : Vec F S1x1024x1024 .bf16) (k v : Vec F S1x512x1024 .bf16) (m0 l0 : Vec F S1024x1 .f32) (a0 : Vec F S1024x1024 .f32) (y : S1024x1024.Idx) :
    ∃ pc ∈ (attnRunB c i arg3 harg3 arg4 harg4 arg5 harg5 arg6 harg6 arg7 harg7 arg8 harg8 arg9 harg9 hc0 hc1 q k v m0 l0 a0).2.2.1, y ∈ pc.1.set :=
  View.cover_of_tiledL (attnRunB c i arg3 harg3 arg4 harg4 arg5 harg5 arg6 harg6 arg7 harg7 arg8 harg8 arg9 harg9 hc0 hc1 q k v m0 l0 a0).2.2.1 S1024x1024.size (by sl_kernel_rfl) y
def leftB9 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬condFirst i) (hc1 : ¬condLast i) (q : Vec F S1x1024x1024 .bf16) (k v : Vec F S1x512x1024 .bf16) (m0 l0 : Vec F S1024x1 .f32) (a0 : Vec F S1024x1024 .f32) : Vec F S1024x1024 .f32 :=
  VA.read (Elt F) (VA.writes (Elt F) VA.junk (attnRunB c i arg3 harg3 arg4 harg4 arg5 harg5 arg6 harg6 arg7 harg7 arg8 harg8 arg9 harg9 hc0 hc1 q k v m0 l0 a0).2.2.1)
/-- Case C's stores into the output tile's buffer cover it, and what they leave there. -/
theorem coverC6 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬condFirst i) (hc1 : condLast i) (q : Vec F S1x1024x1024 .bf16) (k v : Vec F S1x512x1024 .bf16) (m0 l0 : Vec F S1024x1 .f32) (a0 : Vec F S1024x1024 .f32) (y : S1x1024x1024.Idx) :
    ∃ pc ∈ (attnRunC c i arg3 harg3 arg4 harg4 arg5 harg5 arg6 harg6 arg7 harg7 arg8 harg8 arg9 harg9 hc0 hc1 q k v m0 l0 a0).1, y ∈ pc.1.set :=
  View.cover_of_tiledL (attnRunC c i arg3 harg3 arg4 harg4 arg5 harg5 arg6 harg6 arg7 harg7 arg8 harg8 arg9 harg9 hc0 hc1 q k v m0 l0 a0).1 S1x1024x1024.size (by sl_kernel_rfl) y
def leftC6 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬condFirst i) (hc1 : condLast i) (q : Vec F S1x1024x1024 .bf16) (k v : Vec F S1x512x1024 .bf16) (m0 l0 : Vec F S1024x1 .f32) (a0 : Vec F S1024x1024 .f32) : Vec F S1x1024x1024 .f32 :=
  VO.read (Elt F) (VO.writes (Elt F) VO.junk (attnRunC c i arg3 harg3 arg4 harg4 arg5 harg5 arg6 harg6 arg7 harg7 arg8 harg8 arg9 harg9 hc0 hc1 q k v m0 l0 a0).1)
/-- Case C's stores into the running-maximum scratch cover it, and what they leave there. -/
theorem coverC7 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬condFirst i) (hc1 : condLast i) (q : Vec F S1x1024x1024 .bf16) (k v : Vec F S1x512x1024 .bf16) (m0 l0 : Vec F S1024x1 .f32) (a0 : Vec F S1024x1024 .f32) (y : S1024x1.Idx) :
    ∃ pc ∈ (attnRunC c i arg3 harg3 arg4 harg4 arg5 harg5 arg6 harg6 arg7 harg7 arg8 harg8 arg9 harg9 hc0 hc1 q k v m0 l0 a0).2.1, y ∈ pc.1.set :=
  View.cover_of_tiledL (attnRunC c i arg3 harg3 arg4 harg4 arg5 harg5 arg6 harg6 arg7 harg7 arg8 harg8 arg9 harg9 hc0 hc1 q k v m0 l0 a0).2.1 S1024x1.size (by sl_kernel_rfl) y
def leftC7 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬condFirst i) (hc1 : condLast i) (q : Vec F S1x1024x1024 .bf16) (k v : Vec F S1x512x1024 .bf16) (m0 l0 : Vec F S1024x1 .f32) (a0 : Vec F S1024x1024 .f32) : Vec F S1024x1 .f32 :=
  VM.read (Elt F) (VM.writes (Elt F) VM.junk (attnRunC c i arg3 harg3 arg4 harg4 arg5 harg5 arg6 harg6 arg7 harg7 arg8 harg8 arg9 harg9 hc0 hc1 q k v m0 l0 a0).2.1)
/-- Case C's stores into the running-sum scratch cover it, and what they leave there. -/
theorem coverC8 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬condFirst i) (hc1 : condLast i) (q : Vec F S1x1024x1024 .bf16) (k v : Vec F S1x512x1024 .bf16) (m0 l0 : Vec F S1024x1 .f32) (a0 : Vec F S1024x1024 .f32) (y : S1024x1.Idx) :
    ∃ pc ∈ (attnRunC c i arg3 harg3 arg4 harg4 arg5 harg5 arg6 harg6 arg7 harg7 arg8 harg8 arg9 harg9 hc0 hc1 q k v m0 l0 a0).2.2.1, y ∈ pc.1.set :=
  View.cover_of_tiledL (attnRunC c i arg3 harg3 arg4 harg4 arg5 harg5 arg6 harg6 arg7 harg7 arg8 harg8 arg9 harg9 hc0 hc1 q k v m0 l0 a0).2.2.1 S1024x1.size (by sl_kernel_rfl) y
def leftC8 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬condFirst i) (hc1 : condLast i) (q : Vec F S1x1024x1024 .bf16) (k v : Vec F S1x512x1024 .bf16) (m0 l0 : Vec F S1024x1 .f32) (a0 : Vec F S1024x1024 .f32) : Vec F S1024x1 .f32 :=
  VL.read (Elt F) (VL.writes (Elt F) VL.junk (attnRunC c i arg3 harg3 arg4 harg4 arg5 harg5 arg6 harg6 arg7 harg7 arg8 harg8 arg9 harg9 hc0 hc1 q k v m0 l0 a0).2.2.1)
/-- Case C's stores into the accumulator scratch cover it, and what they leave there. -/
theorem coverC9 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬condFirst i) (hc1 : condLast i) (q : Vec F S1x1024x1024 .bf16) (k v : Vec F S1x512x1024 .bf16) (m0 l0 : Vec F S1024x1 .f32) (a0 : Vec F S1024x1024 .f32) (y : S1024x1024.Idx) :
    ∃ pc ∈ (attnRunC c i arg3 harg3 arg4 harg4 arg5 harg5 arg6 harg6 arg7 harg7 arg8 harg8 arg9 harg9 hc0 hc1 q k v m0 l0 a0).2.2.2.1, y ∈ pc.1.set :=
  View.cover_of_tiledL (attnRunC c i arg3 harg3 arg4 harg4 arg5 harg5 arg6 harg6 arg7 harg7 arg8 harg8 arg9 harg9 hc0 hc1 q k v m0 l0 a0).2.2.2.1 S1024x1024.size (by sl_kernel_rfl) y
def leftC9 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬condFirst i) (hc1 : condLast i) (q : Vec F S1x1024x1024 .bf16) (k v : Vec F S1x512x1024 .bf16) (m0 l0 : Vec F S1024x1 .f32) (a0 : Vec F S1024x1024 .f32) : Vec F S1024x1024 .f32 :=
  VA.read (Elt F) (VA.writes (Elt F) VA.junk (attnRunC c i arg3 harg3 arg4 harg4 arg5 harg5 arg6 harg6 arg7 harg7 arg8 harg8 arg9 harg9 hc0 hc1 q k v m0 l0 a0).2.2.2.1)

/-- The projection region's fifteen staging buffers, each at some contents: they ride through the attention region untouched. -/
def otherStaging (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f) ∗ (∃ f : Buf (Elt F) ((c : Thread nD τ).loc cc0_stg8_0), ((c : Thread nD τ).loc cc0_stg8_0) ↦{fullShare} f) ∗ (∃ f : Buf (Elt F) ((c : Thread nD τ).loc cc0_stg8_1), ((c : Thread nD τ).loc cc0_stg8_1) ↦{fullShare} f))

/-- The class's invariant (the scoped rest and the generator register) with the three scratch buffers named. -/
theorem clsInv_open (c : Dev nD) : (Pipeline.ΦA spec1 c : sProp 𝕄)
    ⊢ iprop(otherStaging c ∗ (∃ d, owns (c : Thread nD τ) scM fullShare d) ∗ (∃ d, owns (c : Thread nD τ) scL fullShare d) ∗ (∃ d, owns (c : Thread nD τ) scA fullShare d) ∗ (∃ r, prngReg c r)) := by
  unfold Pipeline.ΦA otherStaging; rw [scopedRest1_eq]; simp only [owns_whole]
  iintro ⟨⟨A1, A2, A3, A4, A5, A6, A7, A8, A9, A10, A11, A12, A13, A14, A15, S0, S1, S2⟩, Hg⟩
  isplitl [A1 A2 A3 A4 A5 A6 A7 A8 A9 A10 A11 A12 A13 A14 A15]
  · isplitl [A1]; · iexact A1
    isplitl [A2]; · iexact A2
    isplitl [A3]; · iexact A3
    isplitl [A4]; · iexact A4
    isplitl [A5]; · iexact A5
    isplitl [A6]; · iexact A6
    isplitl [A7]; · iexact A7
    isplitl [A8]; · iexact A8
    isplitl [A9]; · iexact A9
    isplitl [A10]; · iexact A10
    isplitl [A11]; · iexact A11
    isplitl [A12]; · iexact A12
    isplitl [A13]; · iexact A13
    isplitl [A14]; · iexact A14
    iexact A15
  isplitl [S0]; · iexact S0
  isplitl [S1]; · iexact S1
  isplitl [S2]; · iexact S2
  iexact Hg

theorem clsInv_close (c : Dev nD) : iprop(otherStaging c ∗ (∃ d, owns (c : Thread nD τ) scM fullShare d) ∗ (∃ d, owns (c : Thread nD τ) scL fullShare d) ∗ (∃ d, owns (c : Thread nD τ) scA fullShare d) ∗ (∃ r, prngReg c r))
    ⊢ (Pipeline.ΦA spec1 c : sProp 𝕄) := by
  unfold Pipeline.ΦA otherStaging; rw [scopedRest1_eq]; simp only [owns_whole]
  iintro ⟨⟨A1, A2, A3, A4, A5, A6, A7, A8, A9, A10, A11, A12, A13, A14, A15⟩, S0, S1, S2, Hg⟩
  isplitr [Hg]
  swap; · iexact Hg
  isplitl [A1]; · iexact A1
  isplitl [A2]; · iexact A2
  isplitl [A3]; · iexact A3
  isplitl [A4]; · iexact A4
  isplitl [A5]; · iexact A5
  isplitl [A6]; · iexact A6
  isplitl [A7]; · iexact A7
  isplitl [A8]; · iexact A8
  isplitl [A9]; · iexact A9
  isplitl [A10]; · iexact A10
  isplitl [A11]; · iexact A11
  isplitl [A12]; · iexact A12
  isplitl [A13]; · iexact A13
  isplitl [A14]; · iexact A14
  isplitl [A15]; · iexact A15
  isplitl [S0]; · iexact S0
  isplitl [S1]; · iexact S1
  iexact S2

section
variable (V : (c : Dev nD) → (b : Ref sig .tc) → Buf (Elt F) ((c : Thread nD τ).loc b))

/-- Window w's block at point t, read off its array as the region finds it. -/
def attnBlk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem attnBefore0_of {c : Dev nD} (dat : Dat τ (Elt F) Unit ℕ (UR sig nD τ) ℕ cfg1 c) (hA : dat.A 0 = V c (Pipeline.arrRef spec1 0))
    (hafter : ∀ t, dat.after 0 t = attnBlk V c 0 t) (t : Fin cfg1.N) (d) : dat.before 0 t d = attnBlk V c 0 t :=
  (dat.before_in_eq_fetched 0 rfl (fun _ => rfl) (fun _ _ _ => rfl) (fun t => by rw [hafter]; unfold Dat.blockOf attnBlk; rw [hA]; try rfl) t d).trans
    (by unfold Dat.fetched Dat.blockOf attnBlk; rw [hA]; try rfl)
theorem attnBefore1_of {c : Dev nD} (dat : Dat τ (Elt F) Unit ℕ (UR sig nD τ) ℕ cfg1 c) (hA : dat.A 1 = V c (Pipeline.arrRef spec1 1))
    (hafter : ∀ t, dat.after 1 t = attnBlk V c 1 t) (t : Fin cfg1.N) (d) : dat.before 1 t d = attnBlk V c 1 t :=
  (dat.before_in_eq_fetched 1 rfl (fun _ => rfl) (fun _ _ _ => rfl) (fun t => by rw [hafter]; unfold Dat.blockOf attnBlk; rw [hA]; try rfl) t d).trans
    (by unfold Dat.fetched Dat.blockOf attnBlk; rw [hA]; try rfl)
theorem attnBefore2_of {c : Dev nD} (dat : Dat τ (Elt F) Unit ℕ (UR sig nD τ) ℕ cfg1 c) (hA : dat.A 2 = V c (Pipeline.arrRef spec1 2))
    (hafter : ∀ t, dat.after 2 t = attnBlk V c 2 t) (t : Fin cfg1.N) (d) : dat.before 2 t d = attnBlk V c 2 t :=
  (dat.before_in_eq_fetched 2 rfl (fun _ => rfl) (fun _ _ _ => rfl) (fun t => by rw [hafter]; unfold Dat.blockOf attnBlk; rw [hA]; try rfl) t d).trans
    (by unfold Dat.fetched Dat.blockOf attnBlk; rw [hA]; try rfl)

/-- What a point of each case leaves: the output tile's buffer (a placeholder where the window is idle: nothing consults it),
    then the three scratch buffers. -/
def leftAt_A (c : Dev nD) (t : Fin cfg1.N) (hc0 : condFirst (grid1.coords t)) (hc1 : ¬condLast (grid1.coords t)) : Vec F S1x1024x1024 .f32 × Vec F S1024x1 .f32 × Vec F S1024x1 .f32 × Vec F S1024x1024 .f32 :=
  (VO.read (Elt F) VO.junk,
   leftA7 c (grid1.coords t) (ms1_0 t) (hs1_0 t) (ms1_1 t) (hs1_1 t) (ms1_2 t) (hs1_2 t) (ms1_3 t) (hs1_3 t) scM (Memref.isWhole_whole _) scL (Memref.isWhole_whole _) scA (Memref.isWhole_whole _) hc0 hc1 (attnBlk V c 0 t) (attnBlk V c 1 t) (attnBlk V c 2 t),
   leftA8 c (grid1.coords t) (ms1_0 t) (hs1_0 t) (ms1_1 t) (hs1_1 t) (ms1_2 t) (hs1_2 t) (ms1_3 t) (hs1_3 t) scM (Memref.isWhole_whole _) scL (Memref.isWhole_whole _) scA (Memref.isWhole_whole _) hc0 hc1 (attnBlk V c 0 t) (attnBlk V c 1 t) (attnBlk V c 2 t),
   leftA9 c (grid1.coords t) (ms1_0 t) (hs1_0 t) (ms1_1 t) (hs1_1 t) (ms1_2 t) (hs1_2 t) (ms1_3 t) (hs1_3 t) scM (Memref.isWhole_whole _) scL (Memref.isWhole_whole _) scA (Memref.isWhole_whole _) hc0 hc1 (attnBlk V c 0 t) (attnBlk V c 1 t) (attnBlk V c 2 t))
def leftAt_B (c : Dev nD) (t : Fin cfg1.N) (hc0 : ¬condFirst (grid1.coords t)) (hc1 : ¬condLast (grid1.coords t)) (p : Vec F S1x1024x1024 .f32 × Vec F S1024x1 .f32 × Vec F S1024x1 .f32 × Vec F S1024x1024 .f32) : Vec F S1x1024x1024 .f32 × Vec F S1024x1 .f32 × Vec F S1024x1 .f32 × Vec F S1024x1024 .f32 :=
  (VO.read (Elt F) VO.junk,
   leftB7 c (grid1.coords t) (ms1_0 t) (hs1_0 t) (ms1_1 t) (hs1_1 t) (ms1_2 t) (hs1_2 t) (ms1_3 t) (hs1_3 t) scM (Memref.isWhole_whole _) scL (Memref.isWhole_whole _) scA (Memref.isWhole_whole _) hc0 hc1 (attnBlk V c 0 t) (attnBlk V c 1 t) (attnBlk V c 2 t) p.2.1 p.2.2.1 p.2.2.2,
   leftB8 c (grid1.coords t) (ms1_0 t) (hs1_0 t) (ms1_1 t) (hs1_1 t) (ms1_2 t) (hs1_2 t) (ms1_3 t) (hs1_3 t) scM (Memref.isWhole_whole _) scL (Memref.isWhole_whole _) scA (Memref.isWhole_whole _) hc0 hc1 (attnBlk V c 0 t) (attnBlk V c 1 t) (attnBlk V c 2 t) p.2.1 p.2.2.1 p.2.2.2,
   leftB9 c (grid1.coords t) (ms1_0 t) (hs1_0 t) (ms1_1 t) (hs1_1 t) (ms1_2 t) (hs1_2 t) (ms1_3 t) (hs1_3 t) scM (Memref.isWhole_whole _) scL (Memref.isWhole_whole _) scA (Memref.isWhole_whole _) hc0 hc1 (attnBlk V c 0 t) (attnBlk V c 1 t) (attnBlk V c 2 t) p.2.1 p.2.2.1 p.2.2.2)
def leftAt_C (c : Dev nD) (t : Fin cfg1.N) (hc0 : ¬condFirst (grid1.coords t)) (hc1 : condLast (grid1.coords t)) (p : Vec F S1x1024x1024 .f32 × Vec F S1024x1 .f32 × Vec F S1024x1 .f32 × Vec F S1024x1024 .f32) : Vec F S1x1024x1024 .f32 × Vec F S1024x1 .f32 × Vec F S1024x1 .f32 × Vec F S1024x1024 .f32 :=
  (leftC6 c (grid1.coords t) (ms1_0 t) (hs1_0 t) (ms1_1 t) (hs1_1 t) (ms1_2 t) (hs1_2 t) (ms1_3 t) (hs1_3 t) scM (Memref.isWhole_whole _) scL (Memref.isWhole_whole _) scA (Memref.isWhole_whole _) hc0 hc1 (attnBlk V c 0 t) (attnBlk V c 1 t) (attnBlk V c 2 t) p.2.1 p.2.2.1 p.2.2.2,
   leftC7 c (grid1.coords t) (ms1_0 t) (hs1_0 t) (ms1_1 t) (hs1_1 t) (ms1_2 t) (hs1_2 t) (ms1_3 t) (hs1_3 t) scM (Memref.isWhole_whole _) scL (Memref.isWhole_whole _) scA (Memref.isWhole_whole _) hc0 hc1 (attnBlk V c 0 t) (attnBlk V c 1 t) (attnBlk V c 2 t) p.2.1 p.2.2.1 p.2.2.2,
   leftC8 c (grid1.coords t) (ms1_0 t) (hs1_0 t) (ms1_1 t) (hs1_1 t) (ms1_2 t) (hs1_2 t) (ms1_3 t) (hs1_3 t) scM (Memref.isWhole_whole _) scL (Memref.isWhole_whole _) scA (Memref.isWhole_whole _) hc0 hc1 (attnBlk V c 0 t) (attnBlk V c 1 t) (attnBlk V c 2 t) p.2.1 p.2.2.1 p.2.2.2,
   leftC9 c (grid1.coords t) (ms1_0 t) (hs1_0 t) (ms1_1 t) (hs1_1 t) (ms1_2 t) (hs1_2 t) (ms1_3 t) (hs1_3 t) scM (Memref.isWhole_whole _) scL (Memref.isWhole_whole _) scA (Memref.isWhole_whole _) hc0 hc1 (attnBlk V c 0 t) (attnBlk V c 1 t) (attnBlk V c 2 t) p.2.1 p.2.2.1 p.2.2.2)

/-- THE ACCUMULATION: what the output tile's buffer and the three scratch buffers hold after the body at position n. -/
def carried (c : Dev nD) : (n : ℕ) → n < cfg1.N → Vec F S1x1024x1024 .f32 × Vec F S1024x1 .f32 × Vec F S1024x1 .f32 × Vec F S1024x1024 .f32
  | 0, hn => leftAt_A V c ⟨0, hn⟩ ((condFirst_iff ⟨0, hn⟩).mpr (Nat.zero_mod _)) (fun h => (fun h => by (try dsimp only at h); omega) ((condLast_iff ⟨0, hn⟩).mp h))
  | n + 1, hn =>
    if h0 : (n + 1) % 4 = 0 then
      leftAt_A V c ⟨n + 1, hn⟩ ((condFirst_iff ⟨n + 1, hn⟩).mpr h0) (fun h => (fun h => by (try dsimp only at h); omega) ((condLast_iff ⟨n + 1, hn⟩).mp h))
    else
      if h1 : (n + 1) % 4 = 3 then
        leftAt_C V c ⟨n + 1, hn⟩ (fun h => h0 ((condFirst_iff ⟨n + 1, hn⟩).mp h)) ((condLast_iff ⟨n + 1, hn⟩).mpr h1) (carried c n (Nat.lt_of_succ_lt hn))
      else
        leftAt_B V c ⟨n + 1, hn⟩ (fun h => h0 ((condFirst_iff ⟨n + 1, hn⟩).mp h)) (fun h => h1 ((condLast_iff ⟨n + 1, hn⟩).mp h)) (carried c n (Nat.lt_of_succ_lt hn))

theorem carried_A (c : Dev nD) (t : Fin cfg1.N) (h0 : t.val % 4 = 0) (hc0 : condFirst (grid1.coords t)) (hc1 : ¬condLast (grid1.coords t)) :
    carried V c t.val t.isLt = leftAt_A V c t hc0 hc1 := by
  obtain ⟨n, hn⟩ := t
  cases n with
  | zero => exact rfl
  | succ n => exact (dif_pos h0).trans rfl

theorem carried_B (c : Dev nD) (t : Fin cfg1.N) (h0 : ¬t.val % 4 = 0) (h1 : ¬t.val % 4 = 3) (hc0 : ¬condFirst (grid1.coords t)) (hc1 : ¬condLast (grid1.coords t)) :
    carried V c t.val t.isLt = leftAt_B V c t hc0 hc1 (carried V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans rfl)

theorem carried_C (c : Dev nD) (t : Fin cfg1.N) (h0 : ¬t.val % 4 = 0) (h1 : t.val % 4 = 3) (hc0 : ¬condFirst (grid1.coords t)) (hc1 : condLast (grid1.coords t)) :
    carried V c t.val t.isLt = leftAt_C V c t hc0 hc1 (carried V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

/-- The region invariant before position n: the class's before the first point (every scratch at anything); afterwards the
    other region's staging buffers at anything, each scratch at what the point before left in it, the generator register at some state. -/
def attnInv (c : Dev nD) : (n : ℕ) → n ≤ cfg1.N → sProp 𝕄
  | 0, _ => Pipeline.ΦA spec1 c
  | n + 1, hn => iprop(otherStaging c ∗ owns (c : Thread nD τ) scM fullShare (carried V c n hn).2.1 ∗ owns (c : Thread nD τ) scL fullShare (carried V c n hn).2.2.1
      ∗ owns (c : Thread nD τ) scA fullShare (carried V c n hn).2.2.2 ∗ (∃ r, prngReg c r))

theorem attnInv_zero (c : Dev nD) (n : ℕ) (h : n ≤ cfg1.N) (hz : n = 0) : attnInv V c n h = Pipeline.ΦA spec1 c := by
  subst hz; rfl
theorem attnInv_succ (c : Dev nD) (n : ℕ) (hn : n < cfg1.N) :
    attnInv V c (n + 1) hn = iprop(otherStaging c ∗ owns (c : Thread nD τ) scM fullShare (carried V c n hn).2.1 ∗ owns (c : Thread nD τ) scL fullShare (carried V c n hn).2.2.1
      ∗ owns (c : Thread nD τ) scA fullShare (carried V c n hn).2.2.2 ∗ (∃ r, prngReg c r)) := rfl
theorem attnInv_pos (c : Dev nD) (n : ℕ) (h : n ≤ cfg1.N) (hz : n ≠ 0) :
    attnInv V c n h = iprop(otherStaging c ∗ owns (c : Thread nD τ) scM fullShare (carried V c (n - 1) (by omega)).2.1 ∗ owns (c : Thread nD τ) scL fullShare (carried V c (n - 1) (by omega)).2.2.1
      ∗ owns (c : Thread nD τ) scA fullShare (carried V c (n - 1) (by omega)).2.2.2 ∗ (∃ r, prngReg c r)) := by
  cases n with
  | zero => exact absurd rfl hz
  | succ n => rfl

/-- The proof data of the attention pipeline on core c. -/
def attnDat (c : Dev nD) : Dat τ (Elt F) Unit ℕ (UR sig nD τ) ℕ cfg1 c where
  A w := V c (Pipeline.arrRef spec1 w)
  after w t := match w with
    | ⟨0, _⟩ => attnBlk V c 0 t
    | ⟨1, _⟩ => attnBlk V c 1 t
    | ⟨2, _⟩ => attnBlk V c 2 t
    | ⟨3, _⟩ => (carried V c t.val t.isLt).1
  Φ t := attnInv V c t.val (Nat.le_of_lt_succ t.isLt)
  q _ := fullShare
  owed _ := 0

theorem attnA_eq (c : Dev nD) (w : Fin cfg1.W) : (attnDat V c).A w = V c (Pipeline.arrRef spec1 w) := by
  dsimp only [attnDat]
theorem attnInv_castSucc (c : Dev nD) (t : Fin cfg1.N) :
    (attnDat V c).Φ t.castSucc = attnInv V c t.val (Nat.le_of_lt t.isLt) := by
  dsimp only [attnDat]; simp only [Fin.coe_castSucc]
theorem attnAfter0 (c : Dev nD) (t : Fin cfg1.N) : (attnDat V c).after 0 t = attnBlk V c 0 t := by dsimp only [attnDat]
theorem attnAfter1 (c : Dev nD) (t : Fin cfg1.N) : (attnDat V c).after 1 t = attnBlk V c 1 t := by dsimp only [attnDat]
theorem attnAfter2 (c : Dev nD) (t : Fin cfg1.N) : (attnDat V c).after 2 t = attnBlk V c 2 t := by dsimp only [attnDat]
theorem attnAfter3 (c : Dev nD) (t : Fin cfg1.N) : (attnDat V c).after 3 t = (carried V c t.val t.isLt).1 := by dsimp only [attnDat]
theorem attnBefore0 (c : Dev nD) (t : Fin cfg1.N) (d) : (attnDat V c).before 0 t d = attnBlk V c 0 t :=
  attnBefore0_of V (attnDat V c) (attnA_eq V c 0) (attnAfter0 V c) t d
theorem attnBefore1 (c : Dev nD) (t : Fin cfg1.N) (d) : (attnDat V c).before 1 t d = attnBlk V c 1 t :=
  attnBefore1_of V (attnDat V c) (attnA_eq V c 1) (attnAfter1 V c) t d
theorem attnBefore2 (c : Dev nD) (t : Fin cfg1.N) (d) : (attnDat V c).before 2 t d = attnBlk V c 2 t :=
  attnBefore2_of V (attnDat V c) (attnA_eq V c 2) (attnAfter2 V c) t d

end

end Cert.KernelIdeal.Hand

end
-- ==== Proof.AttnObligI.lean ====
/-
  The attention body at any grid point discharges the pipeline's obligation: the inputs' staging buffers hold their
  blocks; the position modulo 4 says which of the three cases the point is in; the invariant hands the body the scratch
  buffers at what the point before left (at anything at the very first point) and takes them back at this point's.
-/
import proofs.«174840_j29523605193128_2_alg».proof.Proof.AttnRegionI

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- What the body is called with at point t, the windows one by one, -/
def attnPre (c : Dev nD) (t : Fin cfg1.N) : sProp 𝕄 :=
  iprop((attnDat V c).Φ t.castSucc ∗ (attnDat V c).owesAt () t.castSucc
    ∗ (∃ d, owns (c : Thread nD τ) (ms1_0 t) fullShare ((attnDat V c).before 0 t d))
    ∗ (∃ d, owns (c : Thread nD τ) (ms1_1 t) fullShare ((attnDat V c).before 1 t d))
    ∗ (∃ d, owns (c : Thread nD τ) (ms1_2 t) fullShare ((attnDat V c).before 2 t d))
    ∗ (∃ d, owns (c : Thread nD τ) (ms1_3 t) fullShare ((attnDat V c).before 3 t d)))

/-- and what it returns. -/
def attnPost (c : Dev nD) (t : Fin cfg1.N) : sProp 𝕄 :=
  iprop((attnDat V c).Φ t.succ ∗ (attnDat V c).owesAt () t.succ
    ∗ (attnDat V c).leavesExact 0 t
    ∗ (attnDat V c).leavesExact 1 t
    ∗ (attnDat V c).leavesExact 2 t
    ∗ (attnDat V c).leavesExact 3 t)

set_option maxHeartbeats 8000000 in
theorem attnBody_at (c : Dev nD) (t : Fin cfg1.N) :
    attnPre V c t ⊢ wp frame (wpE (defs₀ (F := F)) Variants.none c none) Set.univ (bodyAt1 t) (fun _ => attnPost V c t) := by
  unfold attnPre attnPost bodyAt1
  simp only [attnBefore0, attnBefore1, attnBefore2]
  rw [show (attnDat V c).owesAt () t.succ = (attnDat V c).owesAt () t.castSucc from rfl]
  rw [show (attnDat V c).Φ t.succ = attnInv V c (t.val + 1) t.isLt from rfl, attnInv_succ]
  have hN : t.val < 32 := lt_of_lt_of_eq t.isLt (show cfg1.N = 32 from N_1)
  by_cases h0 : t.val % 4 = 0
  · have hc0 : condFirst (grid1.coords t) := (condFirst_iff t).mpr h0
    have hc1 : ¬condLast (grid1.coords t) := fun h => by have h' := (condLast_iff t).mp h; omega
    rw [show (attnDat V c).leavesExact 0 t = owns (c : Thread nD τ) (ms1_0 t) fullShare ((attnDat V c).after 0 t) from by
      unfold Dat.leavesExact; rw [attnLive0 t], attnAfter0]
    rw [show (attnDat V c).leavesExact 1 t = owns (c : Thread nD τ) (ms1_1 t) fullShare ((attnDat V c).after 1 t) from by
      unfold Dat.leavesExact; rw [attnLive1 t], attnAfter1]
    rw [show (attnDat V c).leavesExact 2 t = owns (c : Thread nD τ) (ms1_2 t) fullShare ((attnDat V c).after 2 t) from by
      unfold Dat.leavesExact; rw [attnLive2 t], attnAfter2]
    rw [Dat.leavesExact_idle (attnDat V c) 3 t (attnIdle3 t hc1) (attnNoFlush3 t hc1)]
    rw [carried_A V c t h0 hc0 hc1]
    unfold leftAt_A leftA7 leftA8 leftA9; (try dsimp only)
    by_cases hz : t.val = 0
    ·
      rw [attnInv_castSucc V c t, attnInv_zero V c _ _ hz]
      iintro ⟨HΦ, Ho, ⟨%d0, H0⟩, ⟨%d1, H1⟩, ⟨%d2, H2⟩, ⟨%d3, H3⟩⟩
      ihave HΦ' := clsInv_open c $$ HΦ
      icases HΦ' with ⟨Hoth, HS0, HS1, HS2, Hg⟩
      iapply ((attnRunA c (grid1.coords t) _ _ _ _ _ _ _ _ _ _ _ _ _ _ hc0 hc1 (attnBlk V c 0 t) (attnBlk V c 1 t) (attnBlk V c 2 t)).2.2.2 Set.univ _ _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      iintro ⟨H0, H1, H2, H3, ⟨%e7, HS0⟩, ⟨%e8, HS1⟩, ⟨%e9, HS2⟩⟩
      isplitl [Hoth HS0 HS1 HS2 Hg]
      · isplitl [Hoth]; · iexact Hoth
        isplitl [HS0]
        · unfold owns; iexists _; isplitr
          swap; · iexact HS0
          ipureintro; exact View.read_writes_of_cover _ _ _ _ _ (coverA7 c _ _ _ _ _ _ _ _ _ _ _ _ _ _ _ _ _ _ _ _)
        isplitl [HS1]
        · unfold owns; iexists _; isplitr
          swap; · iexact HS1
          ipureintro; exact View.read_writes_of_cover _ _ _ _ _ (coverA8 c _ _ _ _ _ _ _ _ _ _ _ _ _ _ _ _ _ _ _ _)
        isplitl [HS2]
        · unfold owns; iexists _; isplitr
          swap; · iexact HS2
          ipureintro; exact View.read_writes_of_cover _ _ _ _ _ (coverA9 c _ _ _ _ _ _ _ _ _ _ _ _ _ _ _ _ _ _ _ _)
        iexact Hg
      isplitl [Ho]; · iexact Ho
      isplitl [H0]; · iexact H0
      isplitl [H1]; · iexact H1
      isplitl [H2]; · iexact H2
      iexists _; iexact H3
    ·
      rw [attnInv_castSucc V c t, attnInv_pos V c _ _ hz]
      iintro ⟨⟨Hoth, HS0, HS1, HS2, Hg⟩, Ho, ⟨%d0, H0⟩, ⟨%d1, H1⟩, ⟨%d2, H2⟩, ⟨%d3, H3⟩⟩
      iapply ((attnRunA c (grid1.coords t) _ _ _ _ _ _ _ _ _ _ _ _ _ _ hc0 hc1 (attnBlk V c 0 t) (attnBlk V c 1 t) (attnBlk V c 2 t)).2.2.2 Set.univ _ _)
      isplitl [H0]; · iexact H0
      isplitl [H1]; · iexact H1
      isplitl [H2]; · iexact H2
      isplitl [H3]; · iexact H3
      isplitl [HS0]; · iexists _; iexact HS0
      isplitl [HS1]; · iexists _; iexact HS1
      isplitl [HS2]; · iexists _; iexact HS2
      iintro ⟨H0, H1, H2, H3, ⟨%e7, HS0⟩, ⟨%e8, HS1⟩, ⟨%e9, HS2⟩⟩
      isplitl [Hoth HS0 HS1 HS2 Hg]
      · isplitl [Hoth]; · iexact Hoth
        isplitl [HS0]
        · unfold owns; iexists _; isplitr
          swap; · iexact HS0
          ipureintro; exact View.read_writes_of_cover _ _ _ _ _ (coverA7 c _ _ _ _ _ _ _ _ _ _ _ _ _ _ _ _ _ _ _ _)
        isplitl [HS1]
        · unfold owns; iexists _; isplitr
          swap; · iexact HS1
          ipureintro; exact View.read_writes_of_cover _ _ _ _ _ (coverA8 c _ _ _ _ _ _ _ _ _ _ _ _ _ _ _ _ _ _ _ _)
        isplitl [HS2]
        · unfold owns; iexists _; isplitr
          swap; · iexact HS2
          ipureintro; exact View.read_writes_of_cover _ _ _ _ _ (coverA9 c _ _ _ _ _ _ _ _ _ _ _ _ _ _ _ _ _ _ _ _)
        iexact Hg
      isplitl [Ho]; · iexact Ho
      isplitl [H0]; · iexact H0
      isplitl [H1]; · iexact H1
      isplitl [H2]; · iexact H2
      iexists _; iexact H3
  · have hc0 : ¬condFirst (grid1.coords t) := fun h => h0 ((condFirst_iff t).mp h)
    have hz : t.val ≠ 0 := fun hz => h0 (by rw [hz])
    by_cases h1 : t.val % 4 = 3
    · have hc1 : condLast (grid1.coords t) := (condLast_iff t).mpr h1
      rw [show (attnDat V c).leavesExact 0 t = owns (c : Thread nD τ) (ms1_0 t) fullShare ((attnDat V c).after 0 t) from by
        unfold Dat.leavesExact; rw [attnLive0 t], attnAfter0]
      rw [show (attnDat V c).leavesExact 1 t = owns (c : Thread nD τ) (ms1_1 t) fullShare ((attnDat V c).after 1 t) from by
        unfold Dat.leavesExact; rw [attnLive1 t], attnAfter1]
      rw [show (attnDat V c).leavesExact 2 t = owns (c : Thread nD τ) (ms1_2 t) fullShare ((attnDat V c).after 2 t) from by
        unfold Dat.leavesExact; rw [attnLive2 t], attnAfter2]
      rw [show (attnDat V c).leavesExact 3 t = owns (c : Thread nD τ) (ms1_3 t) fullShare ((attnDat V c).after 3 t) from by
        unfold Dat.leavesExact; rw [attnLive3 t hc1], attnAfter3]
      rw [carried_C V c t h0 h1 hc0 hc1]
      unfold leftAt_C leftC6 leftC7 leftC8 leftC9; (try dsimp only)
      rw [attnInv_castSucc V c t, attnInv_pos V c _ _ hz]
      iintro ⟨⟨Hoth, HS0, HS1, HS2, Hg⟩, Ho, ⟨%d0, H0⟩, ⟨%d1, H1⟩, ⟨%d2, H2⟩, ⟨%d3, H3⟩⟩
      iapply ((attnRunC c (grid1.coords t) _ _ _ _ _ _ _ _ _ _ _ _ _ _ hc0 hc1 (attnBlk V c 0 t) (attnBlk V c 1 t) (attnBlk V c 2 t) _ _ _).2.2.2.2 Set.univ _)
      isplitl [H0]; · iexact H0
      isplitl [H1]; · iexact H1
      isplitl [H2]; · iexact H2
      isplitl [H3]; · iexists _; iexact H3
      isplitl [HS0]; · iexact HS0
      isplitl [HS1]; · iexact HS1
      isplitl [HS2]; · iexact HS2
      iintro ⟨H0, H1, H2, ⟨%e6, H3⟩, ⟨%e7, HS0⟩, ⟨%e8, HS1⟩, ⟨%e9, HS2⟩⟩
      isplitl [Hoth HS0 HS1 HS2 Hg]
      · isplitl [Hoth]; · iexact Hoth
        isplitl [HS0]
        · unfold owns; iexists _; isplitr
          swap; · iexact HS0
          ipureintro; exact View.read_writes_of_cover _ _ _ _ _ (coverC7 c _ _ _ _ _ _ _ _ _ _ _ _ _ _ _ _ _ _ _ _ _ _ _)
        isplitl [HS1]
        · unfold owns; iexists _; isplitr
          swap; · iexact HS1
          ipureintro; exact View.read_writes_of_cover _ _ _ _ _ (coverC8 c _ _ _ _ _ _ _ _ _ _ _ _ _ _ _ _ _ _ _ _ _ _ _)
        isplitl [HS2]
        · unfold owns; iexists _; isplitr
          swap; · iexact HS2
          ipureintro; exact View.read_writes_of_cover _ _ _ _ _ (coverC9 c _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (coverC6 c _ _ _ _ _ _ _ _ _ _ _ _ _ _ _ _ _ _ _ _ _ _ _)
    · have hc1 : ¬condLast (grid1.coords t) := fun h => h1 ((condLast_iff t).mp h)
      rw [show (attnDat V c).leavesExact 0 t = owns (c : Thread nD τ) (ms1_0 t) fullShare ((attnDat V c).after 0 t) from by
        unfold Dat.leavesExact; rw [attnLive0 t], attnAfter0]
      rw [show (attnDat V c).leavesExact 1 t = owns (c : Thread nD τ) (ms1_1 t) fullShare ((attnDat V c).after 1 t) from by
        unfold Dat.leavesExact; rw [attnLive1 t], attnAfter1]
      rw [show (attnDat V c).leavesExact 2 t = owns (c : Thread nD τ) (ms1_2 t) fullShare ((attnDat V c).after 2 t) from by
        unfold Dat.leavesExact; rw [attnLive2 t], attnAfter2]
      rw [Dat.leavesExact_idle (attnDat V c) 3 t (attnIdle3 t hc1) (attnNoFlush3 t hc1)]
      rw [carried_B V c t h0 h1 hc0 hc1]
      unfold leftAt_B leftB7 leftB8 leftB9; (try dsimp only)
      rw [attnInv_castSucc V c t, attnInv_pos V c _ _ hz]
      iintro ⟨⟨Hoth, HS0, HS1, HS2, Hg⟩, Ho, ⟨%d0, H0⟩, ⟨%d1, H1⟩, ⟨%d2, H2⟩, ⟨%d3, H3⟩⟩
      iapply ((attnRunB c (grid1.coords t) _ _ _ _ _ _ _ _ _ _ _ _ _ _ hc0 hc1 (attnBlk V c 0 t) (attnBlk V c 1 t) (attnBlk V c 2 t) _ _ _).2.2.2 Set.univ _ _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      iintro ⟨H0, H1, H2, H3, ⟨%e7, HS0⟩, ⟨%e8, HS1⟩, ⟨%e9, HS2⟩⟩
      isplitl [Hoth HS0 HS1 HS2 Hg]
      · isplitl [Hoth]; · iexact Hoth
        isplitl [HS0]
        · unfold owns; iexists _; isplitr
          swap; · iexact HS0
          ipureintro; exact View.read_writes_of_cover _ _ _ _ _ (coverB7 c _ _ _ _ _ _ _ _ _ _ _ _ _ _ _ _ _ _ _ _ _ _ _)
        isplitl [HS1]
        · unfold owns; iexists _; isplitr
          swap; · iexact HS1
          ipureintro; exact View.read_writes_of_cover _ _ _ _ _ (coverB8 c _ _ _ _ _ _ _ _ _ _ _ _ _ _ _ _ _ _ _ _ _ _ _)
        isplitl [HS2]
        · unfold owns; iexists _; isplitr
          swap; · iexact HS2
          ipureintro; exact View.read_writes_of_cover _ _ _ _ _ (coverB9 c _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      iexists _; iexact H3

/-- The library's body obligation, at every point. -/
theorem attnObligation (c : Dev nD) : BodyObligation (attnDat (F := F) V c) (defs₀ (F := F)) Variants.none () Set.univ := fun t => by
  rw [bigSep_W1, bigSep_W1]
  exact attnBody_at V c t

/-- What the launch hands the region is the invariant before the first point; after the last point the invariant gives
    it back, the scratch buffers' named contents forgotten. -/
theorem attnInv_in (c : Dev nD) : Pipeline.ΦA spec1 c ⊢ (attnDat V c).Φ 0 := by
  rw [show (attnDat V c).Φ 0 = attnInv V c 0 (Nat.zero_le _) from rfl, attnInv_zero V c 0 _ rfl]
  try exact Idealize.SL.BI.Entails.refl _

theorem attnInv_out (c : Dev nD) : (attnDat V c).Φ (Fin.last cfg1.N) ⊢ Pipeline.ΦA spec1 c := by
  rw [show (attnDat V c).Φ (Fin.last cfg1.N) = attnInv V c (Fin.last cfg1.N).val (Nat.le_of_lt_succ (Fin.last cfg1.N).isLt) from rfl,
    attnInv_pos V c _ _ (by rw [Fin.val_last]; have : cfg1.N = 32 := N_1; omega)]
  iintro ⟨Hoth, HS0, HS1, HS2, Hg⟩
  iapply (clsInv_close c)
  isplitl [Hoth]; · iexact Hoth
  isplitl [HS0]; · iexists _; iexact HS0
  isplitl [HS1]; · iexists _; iexact HS1
  isplitl [HS2]; · iexists _; iexact HS2
  iexact Hg

end

end Cert.KernelIdeal.Hand

end
-- ==== Proof.WholeRunI.lean ====
/-
  The whole run. The core's buffer contents are followed through @main's four segments (host operations, the
  projection region, host operations, the attention region): a host stretch leaves what its operations compute, a
  region leaves each of its windows' arrays at what the pipeline's write-backs leave and every other buffer as entered.
  Every weakly fair execution terminates with every unscoped buffer at the last of these contents; in particular each
  argument ends as launched. Stated for any float instance.
-/
import proofs.«174840_j29523605193128_2_alg».proof.Proof.ProjRegionI
import proofs.«174840_j29523605193128_2_alg».proof.Proof.AttnObligI
import proofs.«174840_j29523605193128_2_alg».proof.Proof.Gen.KernelIdeal.Regions

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core c's buffers at launch, -/
abbrev W0 : Dev nD → Valuation τ sig (Elt F) := fun c b => m (c, b)
/-- after the first host stretch (the projection region's entry), -/
abbrev W1 : Dev nD → Valuation τ sig (Elt F) := fun c => StableHlo.after hostOps0 (W0 m c)
abbrev E1 : (c : Dev nD) → (b : Ref sig .tc) → Buf (Elt F) ((c : Thread nD τ).loc b) := fun c b => W1 m c b
/-- at the projection region's exit, -/
def W2 (c : Dev nD) : Valuation τ sig (Elt F) :=
  Pipeline.withArrays spec0 c (W1 m c) fun w => (projDat (E1 m) c).arrAt w cfg0.N
theorem W2_arr (c : Dev nD) (w : Fin cfg0.W) :
    W2 m c (Proc.devRef .tc (Pipeline.arrRef spec0 w)) = (projDat (E1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev E2 : (c : Dev nD) → (b : Ref sig .tc) → Buf (Elt F) ((c : Thread nD τ).loc b) := fun c b => W2 m c b
theorem projFinal (c : Dev nD) (w : Fin cfg0.W) : (projDat (E1 m) c).arrAt w cfg0.N = E2 m c (Pipeline.arrRef spec0 w) :=
  (W2_arr m c w).symm
theorem projRest (c : Dev nD) : ∀ b, b ∉ Finset.univ.image (Pipeline.arrRef spec0) → E2 m c b = E1 m c b :=
  fun b hb => W2_of_ne m c b fun w e => hb (Finset.mem_image.mpr ⟨w, Finset.mem_univ _, e⟩)
/-- after the second host stretch (the attention region's entry), -/
abbrev W3 : Dev nD → Valuation τ sig (Elt F) := fun c => StableHlo.after hostOps1 (W2 m c)
abbrev E3 : (c : Dev nD) → (b : Ref sig .tc) → Buf (Elt F) ((c : Thread nD τ).loc b) := fun c b => W3 m c b
/-- and at the attention region's exit. -/
def W4 (c : Dev nD) : Valuation τ sig (Elt F) :=
  Pipeline.withArrays spec1 c (W3 m c) fun w => (attnDat (E3 m) c).arrAt w cfg1.N
theorem W4_arr (c : Dev nD) (w : Fin cfg1.W) :
    W4 m c (Proc.devRef .tc (Pipeline.arrRef spec1 w)) = (attnDat (E3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev E4 : (c : Dev nD) → (b : Ref sig .tc) → Buf (Elt F) ((c : Thread nD τ).loc b) := fun c b => W4 m c b
theorem attnFinal (c : Dev nD) (w : Fin cfg1.W) : (attnDat (E3 m) c).arrAt w cfg1.N = E4 m c (Pipeline.arrRef spec1 w) :=
  (W4_arr m c w).symm
theorem attnRest (c : Dev nD) : ∀ b, b ∉ Finset.univ.image (Pipeline.arrRef spec1) → E4 m c b = E3 m c b :=
  fun b hb => W4_of_ne m c b fun w e => hb (Finset.mem_image.mpr ⟨w, Finset.mem_univ _, e⟩)

/-- No host operation and no region writes an argument. -/
theorem W4_main_arg0 (c : Dev nD) : W4 m c (Proc.devRef .tc main_arg0) = m ((c : Thread nD τ).loc main_arg0) :=
  (W4_of_ne m c main_arg0 (by decide)).trans <| (StableHlo.after_of_writes_sub hostOps1 _ hostOps1_writes (show main_arg0 ∉ hostOps1_W by decide)).trans <|
    (W2_of_ne m c main_arg0 (by decide)).trans <| (StableHlo.after_of_writes_sub hostOps0 _ hostOps0_writes (show main_arg0 ∉ hostOps0_W by decide)).trans rfl
theorem W4_main_arg1 (c : Dev nD) : W4 m c (Proc.devRef .tc main_arg1) = m ((c : Thread nD τ).loc main_arg1) :=
  (W4_of_ne m c main_arg1 (by decide)).trans <| (StableHlo.after_of_writes_sub hostOps1 _ hostOps1_writes (show main_arg1 ∉ hostOps1_W by decide)).trans <|
    (W2_of_ne m c main_arg1 (by decide)).trans <| (StableHlo.after_of_writes_sub hostOps0 _ hostOps0_writes (show main_arg1 ∉ hostOps0_W by decide)).trans rfl
theorem W4_main_arg2 (c : Dev nD) : W4 m c (Proc.devRef .tc main_arg2) = m ((c : Thread nD τ).loc main_arg2) :=
  (W4_of_ne m c main_arg2 (by decide)).trans <| (StableHlo.after_of_writes_sub hostOps1 _ hostOps1_writes (show main_arg2 ∉ hostOps1_W by decide)).trans <|
    (W2_of_ne m c main_arg2 (by decide)).trans <| (StableHlo.after_of_writes_sub hostOps0 _ hostOps0_writes (show main_arg2 ∉ hostOps0_W by decide)).trans rfl
theorem W4_main_arg3 (c : Dev nD) : W4 m c (Proc.devRef .tc main_arg3) = m ((c : Thread nD τ).loc main_arg3) :=
  (W4_of_ne m c main_arg3 (by decide)).trans <| (StableHlo.after_of_writes_sub hostOps1 _ hostOps1_writes (show main_arg3 ∉ hostOps1_W by decide)).trans <|
    (W2_of_ne m c main_arg3 (by decide)).trans <| (StableHlo.after_of_writes_sub hostOps0 _ hostOps0_writes (show main_arg3 ∉ hostOps0_W by decide)).trans rfl
theorem W4_main_arg4 (c : Dev nD) : W4 m c (Proc.devRef .tc main_arg4) = m ((c : Thread nD τ).loc main_arg4) :=
  (W4_of_ne m c main_arg4 (by decide)).trans <| (StableHlo.after_of_writes_sub hostOps1 _ hostOps1_writes (show main_arg4 ∉ hostOps1_W by decide)).trans <|
    (W2_of_ne m c main_arg4 (by decide)).trans <| (StableHlo.after_of_writes_sub hostOps0 _ hostOps0_writes (show main_arg4 ∉ hostOps0_W by decide)).trans rfl
theorem W4_main_arg5 (c : Dev nD) : W4 m c (Proc.devRef .tc main_arg5) = m ((c : Thread nD τ).loc main_arg5) :=
  (W4_of_ne m c main_arg5 (by decide)).trans <| (StableHlo.after_of_writes_sub hostOps1 _ hostOps1_writes (show main_arg5 ∉ hostOps1_W by decide)).trans <|
    (W2_of_ne m c main_arg5 (by decide)).trans <| (StableHlo.after_of_writes_sub hostOps0 _ hostOps0_writes (show main_arg5 ∉ hostOps0_W by decide)).trans rfl

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => projDat (E1 m) c
  | ⟨1, _⟩ => fun c => attnDat (E3 m) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m c) ∗ ∃ r, prngReg c r)

set_option backward.isDefEq.respectTransparency.types false in
/-- The projection region over the thread state. -/
def projSeg : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (projObligation (E1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E1 m c) (E2 m c) ((pdats m 0 c).arrAt · cfg0.N) (projFinal m c) (projRest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The attention region over the thread state: the generator register and the scoped rest enter the invariant before
    the first point, and come back after the last one with the scratch buffers' contents forgotten. -/
def attnSeg : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (attnObligation (E3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (E3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (attnInv_out (E3 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E3 m c) (E4 m c) ((pdats m 1 c).arrAt · cfg1.N) (attnFinal m c) (attnRest m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-- @main's four segments in order. -/
abbrev segs : List (Pipeline.Seg (pcfgs (F := F)) adm (pdats m) () defs₀ 𝒱₀ L lv) :=
  [ .host (hseg hostOps0 hostOps0_sub hostOps0_fresh (W0 m)),
    .region (projSeg m),
    .host (hseg hostOps1 hostOps1_sub hostOps1_fresh (W2 m)),
    .region (attnSeg m) ]
theorem main_run (c : Dev nD) : main (F := F) c = Pipeline.Seg.run (segs m) := (main_chain c).trans (by chain_rfl)

set_option backward.isDefEq.respectTransparency.types false in
/-- THE RUN: from any memory with zero counters every weakly fair execution of @main terminates, nothing faulting, and
    every final state has every unscoped buffer at the last boundary's contents. -/
theorem run_all : θ_run defs (onTc (τ := τ) (main (F := F))) ⟨m, fun _ => 0, ρ⟩
    (fun r => ∀ c : Dev nD, ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h => h)

/-- The frame: every argument ends as launched. -/
theorem frame_all : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨(h c _ (mem_uc main_arg0 (by decide))).trans (W4_main_arg0 m c),
     (h c _ (mem_uc main_arg1 (by decide))).trans (W4_main_arg1 m c),
     (h c _ (mem_uc main_arg2 (by decide))).trans (W4_main_arg2 m c),
     (h c _ (mem_uc main_arg3 (by decide))).trans (W4_main_arg3 m c),
     (h c _ (mem_uc main_arg4 (by decide))).trans (W4_main_arg4 m c),
     (h c _ (mem_uc main_arg5 (by decide))).trans (W4_main_arg5 m c)⟩) (run_all m ρ)

/-- The result buffer ends at what the attention pipeline's write-backs leave in its output window's array. -/
theorem result_all : θ_run defs (onTc (τ := τ) (main (F := F))) ⟨m, fun _ => 0, ρ⟩ (fun r => ∀ c : Dev nD,
      r.2.mem ((c.tc : Thread nD τ).loc main_v13) = (attnDat (E3 m) c).arrAt 3 cfg1.N) :=
  (θ_run defs _ _).mono (fun _ h c => (h c _ (mem_uc main_v13 (by decide))).trans (W4_arr m c 3)) (run_all m ρ)

end Cert.KernelIdeal.Hand

end
-- ==== Proof.LibPlainDot.lean ====
/-
  A plain matrix product read at an entry.

  Both programs multiply matrices with the dimension numbers "contract the left operand's columns with the
  right operand's rows, no batch axis" (`DotDims.plain M K N`). On the extended reals the kernel's matrix unit
  accumulating into zero and the host's `dot_general` are the same contraction; this module reads either at the
  entry `(p, q)` as the textbook sum `∑ k, lhs (p, k) * rhs (k, q)` over the `K` contracted coordinates, for any
  extents. The contraction index of the library is a one-coordinate index; the bijection with `Fin K` moves the sum.
-/
import Idealize.ShloMosaic.PureOps.Ideal.Laws
import Idealize.ShloMosaic.Lib.ValueIdx

namespace Gcn.Lib

open Idealize.ShloMosaic Idealize.ShloMosaic.ValueIdx

variable {M K N : ℕ}

/-- The left operand's index at output entry `(p, q)` and contracted coordinate `k` is `(p, k)`. -/
theorem plain_lhsIdx (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  apply Fin.ext
  match a with
  | ⟨0, _⟩ => rfl
  | ⟨1, _⟩ => exact ((DotDims.plain M K N).lhsIdx_val_of_single (cl := 1) rfl _ _).trans hk

/-- The right operand's index at output entry `(p, q)` and contracted coordinate `k` is `(k, q)`. -/
theorem plain_rhsIdx (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  apply Fin.ext
  match a with
  | ⟨0, _⟩ => exact ((DotDims.plain M K N).rhsIdx_val_of_single (cr := 0) rfl _ _).trans hk
  | ⟨1, _⟩ => rfl

/-- The contraction of a plain product at entry `(p, q)` is the sum over the `K` contracted coordinates. -/
theorem plain_contraction (lhs : (⟨2, ![M, K]⟩ : Shape).Idx → EReal) (rhs : (⟨2, ![K, N]⟩ : Shape).Idx → EReal)
    (p : Fin M) (q : Fin N) :
    ∑ k : (DotDims.plain M K N).contr.Idx,
        lhs ((DotDims.plain M K N).lhsIdx (ix2 p q) k) * rhs ((DotDims.plain M K N).rhsIdx (ix2 p q) k)
      = ∑ k : Fin K, lhs (ix2 p k) * rhs (ix2 k q) := by
  rw [← Equiv.sum_comp (contrEquiv1 (DotDims.plain M K N) K rfl rfl).symm]
  refine Finset.sum_congr rfl fun k _ => ?_
  rw [plain_lhsIdx, plain_rhsIdx]

/-- The kernel's matrix unit accumulating into the zero vector, read at entry `(p, q)`. -/
theorem plain_matmul_zero_apply {φ₁ φ₂ : FTy} (lhs : FVec Ideal ⟨2, ![M, K]⟩ φ₁) (rhs : FVec Ideal ⟨2, ![K, N]⟩ φ₂)
    (prec : Option ContractPrecision) (p : Fin M) (q : Fin N) :
    FloatOps.matmul (DotDims.plain M K N) prec lhs rhs (constant ⟨2, ![M, N]⟩ .f32 0x00000000#32) (ix2 p q)
      = ∑ k : Fin K, lhs (ix2 p k) * rhs (ix2 k q) :=
  (Ideal.matmul_constant_zero_apply (DotDims.plain M K N) prec lhs rhs (ix2 p q)).trans (plain_contraction lhs rhs p q)

/-- The host's `dot_general`, read at entry `(p, q)`: the same sum. -/
theorem plain_dotGeneral_apply {φ₁ φ₂ : FTy} (lhs : FVec Ideal ⟨2, ![M, K]⟩ φ₁) (rhs : FVec Ideal ⟨2, ![K, N]⟩ φ₂)
    (prec : Option ContractPrecision) (sched : HostSchedule) (p : Fin M) (q : Fin N) :
    FloatOps.dotGeneral (DotDims.plain M K N) prec sched lhs rhs (ix2 p q)
      = ∑ k : Fin K, lhs (ix2 p k) * rhs (ix2 k q) :=
  (Ideal.dotGeneral_apply (DotDims.plain M K N) prec sched lhs rhs (ix2 p q)).trans (plain_contraction lhs rhs p q)

end Gcn.Lib
-- ==== Proof.LibDotRecord.lean ====
/-
  A printed matrix-product record read as the plain product, and a row vector broadcast down the rows.

  A matrix product of an [M, K] by a [K, N] operand that contracts the left operand's columns with the right
  operand's rows and has no batch axis is determined by its six lists of axes; the record's last field is a proof.
  So any record with those lists IS the plain record, and every lemma about the plain product reads it: at entry
  (p, q) the product accumulated into zero is the sum over k of lhs (p, k) * rhs (k, q).
  A [1, b] row broadcast over [a, b] reads, at (r, c), the row's entry c.
-/
import proofs.«174840_j29523605193128_2_alg».proof.Proof.LibPlainDot
import Idealize.ShloMosaic.Lib.Pipeline.Value

namespace DotRecord

open Idealize.ShloMosaic Idealize.ShloMosaic.ValueIdx

variable {M K N : ℕ}

/-- A record whose six axis lists are the plain product's is the plain product's record. -/
theorem eq_plain (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = []) :
    d = DotDims.plain M K N := by
  obtain ⟨lc, rc, ln, rn, lb, rb, wf⟩ := d
  simp only at h1 h2 h3 h4 h5 h6
  subst h1 h2 h3 h4 h5 h6
  rfl

/-- The matrix unit accumulating into the zero vector, under any record with the plain lists, at entry (p, q). -/
theorem matmul_zero_apply {φ₁ φ₂ : FTy} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (lhs : FVec Ideal ⟨2, ![M, K]⟩ φ₁) (rhs : FVec Ideal ⟨2, ![K, N]⟩ φ₂)
    (prec : Option ContractPrecision) (p : Fin M) (q : Fin N) :
    FloatOps.matmul d prec lhs rhs (constant ⟨2, ![M, N]⟩ .f32 0x00000000#32) (ix2 p q)
      = ∑ k : Fin K, lhs (ix2 p k) * rhs (ix2 k q) := by
  rw [eq_plain d h1 h2 h3 h4 h5 h6]
  exact Gcn.Lib.plain_matmul_zero_apply lhs rhs prec p q

/-- A row [1, b] broadcast over [a, b] reads, at (r, c), the row's entry c. -/
theorem broadcastTo_1b_ab_apply {α : Type} {a b : ℕ} (v : (⟨2, ![1, b]⟩ : Shape).Idx → α)
    (h : (⟨2, ![1, b]⟩ : Shape).Broadcasts ⟨2, ![a, b]⟩) (r : Fin a) (c : Fin b) :
    broadcastTo ⟨2, ![a, b]⟩ v h (ix2 r c) = v (ix2 (0 : Fin 1) c) := by
  refine broadcastTo_apply v h (ix2 r c) (ix2 (0 : Fin 1) c) fun ax => ?_
  match ax with
  | ⟨0, _⟩ =>
    show (0 : ℕ) = if (1 : ℕ) = 1 then 0 else r.val
    rw [if_pos rfl]
  | ⟨1, _⟩ =>
    show c.val = if b = 1 then 0 else c.val
    split
    · have := c.isLt; omega
    · rfl

end DotRecord
-- ==== Proof.AttnLeft.lean ====
/-
  What each case of the attention body leaves, read back as values. With M, L, A the running maximum, running sum and
  running weighted sum found in the scratch buffers, Q, K, V the point's query, key and value tiles and S the tile of
  masked, scaled scores, a point leaves
      M' = max M (row maximum of S),   L' = exp (M - M') * L + row sum of exp (S - M'),
      A' = exp (M - M') * A + exp (S - M') times V,
  a first key tile starting from M = -inf, L = 0, A = 0, and a last key tile also stores A' / L' into the output tile.
  Then the carried contents position by position, as that recurrence.
-/
import proofs.«174840_j29523605193128_2_alg».proof.Proof.AttnRegionI
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

theorem hz2 : (![0, 0] : Fin 2 → Nat) = fun _ => 0 := funext fun a => by fin_cases a <;> rfl
theorem hz3 : (![0, 0, 0] : Fin 3 → Nat) = fun _ => 0 := funext fun a => by fin_cases a <;> rfl

/-- The three scratch buffers after one point, from the tiles and what the scratch held before. -/
def stepM (i : grid1.Coords) (q : Vec F S1x1024x1024 .bf16) (k : Vec F S1x512x1024 .bf16) (m0 : Vec F S1024x1 .f32) : Vec F S1024x1 .f32 :=
  k1_pay3 (k1_pay10 i q k m0)
def stepL (i : grid1.Coords) (q : Vec F S1x1024x1024 .bf16) (k : Vec F S1x512x1024 .bf16) (m0 l0 : Vec F S1024x1 .f32) : Vec F S1024x1 .f32 :=
  k1_pay1 (k1_pay11 i q k m0) (k1_pay13 i q k m0 l0)
def stepA (i : grid1.Coords) (q : Vec F S1x1024x1024 .bf16) (k v : Vec F S1x512x1024 .bf16) (m0 : Vec F S1024x1 .f32) (a0 : Vec F S1024x1024 .f32) : Vec F S1024x1024 .f32 :=
  k1_pay2 (k1_pay8 v) (k1_pay11 i q k m0) (k1_pay12 i q k m0) a0

theorem leftB7_eq (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬condFirst i) (hc1 : ¬condLast i) (q : Vec F S1x1024x1024 .bf16) (k v : Vec F S1x512x1024 .bf16) (m0 l0 : Vec F S1024x1 .f32) (a0 : Vec F S1024x1024 .f32) :
    leftB7 c i arg3 harg3 arg4 harg4 arg5 harg5 arg6 harg6 arg7 harg7 arg8 harg8 arg9 harg9 hc0 hc1 q k v m0 l0 a0 = stepM i q k m0 := by
  unfold leftB7 stepM
  rw [View.read_writes_eq_canon _ _ _ (coverB7 c i arg3 harg3 arg4 harg4 arg5 harg5 arg6 harg6 arg7 harg7 arg8 harg8 arg9 harg9 hc0 hc1 q k v m0 l0 a0)]
  unfold attnRunB
  dsimp only
  rw [View.canon_unit_zero (S := S1024x1) hz2]
  simp only [View.readAt_eq_ld, harg3.read_unread, harg4.read_unread, harg5.read_unread, harg7.read_unread, harg8.read_unread, harg9.read_unread,
    View.ld_unit_zero (S := S1x1024x1024) hz3, View.ld_unit_zero (S := S1x512x1024) hz3, View.ld_unit_zero (S := S1024x1) hz2, View.ld_unit_zero (S := S1024x1024) hz2]

theorem leftB8_eq (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬condFirst i) (hc1 : ¬condLast i) (q : Vec F S1x1024x1024 .bf16) (k v : Vec F S1x512x1024 .bf16) (m0 l0 : Vec F S1024x1 .f32) (a0 : Vec F S1024x1024 .f32) :
    leftB8 c i arg3 harg3 arg4 harg4 arg5 harg5 arg6 harg6 arg7 harg7 arg8 harg8 arg9 harg9 hc0 hc1 q k v m0 l0 a0 = stepL i q k m0 l0 := by
  unfold leftB8 stepL
  rw [View.read_writes_eq_canon _ _ _ (coverB8 c i arg3 harg3 arg4 harg4 arg5 harg5 arg6 harg6 arg7 harg7 arg8 harg8 arg9 harg9 hc0 hc1 q k v m0 l0 a0)]
  unfold attnRunB
  dsimp only
  rw [View.canon_unit_zero (S := S1024x1) hz2]
  simp only [View.readAt_eq_ld, harg3.read_unread, harg4.read_unread, harg5.read_unread, harg7.read_unread, harg8.read_unread, harg9.read_unread,
    View.ld_unit_zero (S := S1x1024x1024) hz3, View.ld_unit_zero (S := S1x512x1024) hz3, View.ld_unit_zero (S := S1024x1) hz2, View.ld_unit_zero (S := S1024x1024) hz2]

theorem leftB9_eq (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬condFirst i) (hc1 : ¬condLast i) (q : Vec F S1x1024x1024 .bf16) (k v : Vec F S1x512x1024 .bf16) (m0 l0 : Vec F S1024x1 .f32) (a0 : Vec F S1024x1024 .f32) :
    leftB9 c i arg3 harg3 arg4 harg4 arg5 harg5 arg6 harg6 arg7 harg7 arg8 harg8 arg9 harg9 hc0 hc1 q k v m0 l0 a0 = stepA i q k v m0 a0 := by
  unfold leftB9 stepA
  rw [View.read_writes_eq_canon _ _ _ (coverB9 c i arg3 harg3 arg4 harg4 arg5 harg5 arg6 harg6 arg7 harg7 arg8 harg8 arg9 harg9 hc0 hc1 q k v m0 l0 a0)]
  unfold attnRunB
  dsimp only
  rw [View.canon_unit_zero (S := S1024x1024) hz2]
  simp only [View.readAt_eq_ld, harg3.read_unread, harg4.read_unread, harg5.read_unread, harg7.read_unread, harg8.read_unread, harg9.read_unread,
    View.ld_unit_zero (S := S1x1024x1024) hz3, View.ld_unit_zero (S := S1x512x1024) hz3, View.ld_unit_zero (S := S1024x1) hz2, View.ld_unit_zero (S := S1024x1024) hz2]

theorem leftC7_eq (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬condFirst i) (hc1 : condLast i) (q : Vec F S1x1024x1024 .bf16) (k v : Vec F S1x512x1024 .bf16) (m0 l0 : Vec F S1024x1 .f32) (a0 : Vec F S1024x1024 .f32) :
    leftC7 c i arg3 harg3 arg4 harg4 arg5 harg5 arg6 harg6 arg7 harg7 arg8 harg8 arg9 harg9 hc0 hc1 q k v m0 l0 a0 = stepM i q k m0 := by
  unfold leftC7 stepM
  rw [View.read_writes_eq_canon _ _ _ (coverC7 c i arg3 harg3 arg4 harg4 arg5 harg5 arg6 harg6 arg7 harg7 arg8 harg8 arg9 harg9 hc0 hc1 q k v m0 l0 a0)]
  unfold attnRunC
  dsimp only
  sl_unfold_words
  rw [View.canon_unit_zero (S := S1024x1) hz2]
  simp only [View.readAt_eq_ld, harg3.read_unread, harg4.read_unread, harg5.read_unread, harg7.read_unread, harg8.read_unread, harg9.read_unread,
    View.ld_unit_zero (S := S1x1024x1024) hz3, View.ld_unit_zero (S := S1x512x1024) hz3, View.ld_unit_zero (S := S1024x1) hz2, View.ld_unit_zero (S := S1024x1024) hz2]

theorem leftC8_eq (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬condFirst i) (hc1 : condLast i) (q : Vec F S1x1024x1024 .bf16) (k v : Vec F S1x512x1024 .bf16) (m0 l0 : Vec F S1024x1 .f32) (a0 : Vec F S1024x1024 .f32) :
    leftC8 c i arg3 harg3 arg4 harg4 arg5 harg5 arg6 harg6 arg7 harg7 arg8 harg8 arg9 harg9 hc0 hc1 q k v m0 l0 a0 = stepL i q k m0 l0 := by
  unfold leftC8 stepL
  rw [View.read_writes_eq_canon _ _ _ (coverC8 c i arg3 harg3 arg4 harg4 arg5 harg5 arg6 harg6 arg7 harg7 arg8 harg8 arg9 harg9 hc0 hc1 q k v m0 l0 a0)]
  unfold attnRunC
  dsimp only
  sl_unfold_words
  rw [View.canon_unit_zero (S := S1024x1) hz2]
  simp only [View.readAt_eq_ld, harg3.read_unread, harg4.read_unread, harg5.read_unread, harg7.read_unread, harg8.read_unread, harg9.read_unread,
    View.ld_unit_zero (S := S1x1024x1024) hz3, View.ld_unit_zero (S := S1x512x1024) hz3, View.ld_unit_zero (S := S1024x1) hz2, View.ld_unit_zero (S := S1024x1024) hz2]

theorem leftC9_eq (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬condFirst i) (hc1 : condLast i) (q : Vec F S1x1024x1024 .bf16) (k v : Vec F S1x512x1024 .bf16) (m0 l0 : Vec F S1024x1 .f32) (a0 : Vec F S1024x1024 .f32) :
    leftC9 c i arg3 harg3 arg4 harg4 arg5 harg5 arg6 harg6 arg7 harg7 arg8 harg8 arg9 harg9 hc0 hc1 q k v m0 l0 a0 = stepA i q k v m0 a0 := by
  unfold leftC9 stepA
  rw [View.read_writes_eq_canon _ _ _ (coverC9 c i arg3 harg3 arg4 harg4 arg5 harg5 arg6 harg6 arg7 harg7 arg8 harg8 arg9 harg9 hc0 hc1 q k v m0 l0 a0)]
  unfold attnRunC
  dsimp only
  sl_unfold_words
  rw [View.canon_unit_zero (S := S1024x1024) hz2]
  simp only [View.readAt_eq_ld, harg3.read_unread, harg4.read_unread, harg5.read_unread, harg7.read_unread, harg8.read_unread, harg9.read_unread,
    View.ld_unit_zero (S := S1x1024x1024) hz3, View.ld_unit_zero (S := S1x512x1024) hz3, View.ld_unit_zero (S := S1024x1) hz2, View.ld_unit_zero (S := S1024x1024) hz2]

theorem leftC6_eq (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬condFirst i) (hc1 : condLast i) (q : Vec F S1x1024x1024 .bf16) (k v : Vec F S1x512x1024 .bf16) (m0 l0 : Vec F S1024x1 .f32) (a0 : Vec F S1024x1024 .f32) :
    leftC6 c i arg3 harg3 arg4 harg4 arg5 harg5 arg6 harg6 arg7 harg7 arg8 harg8 arg9 harg9 hc0 hc1 q k v m0 l0 a0 = k1_pay4 (stepA i q k v m0 a0) (stepL i q k m0 l0) := by
  unfold leftC6 stepL stepA
  rw [View.read_writes_eq_canon _ _ _ (coverC6 c i arg3 harg3 arg4 harg4 arg5 harg5 arg6 harg6 arg7 harg7 arg8 harg8 arg9 harg9 hc0 hc1 q k v m0 l0 a0)]
  unfold attnRunC
  dsimp only
  sl_unfold_words
  rw [View.canon_unit_zero (S := S1x1024x1024) hz3]
  simp only [View.readCov_unit_zero (S := S1024x1) _ hz2, View.readCov_unit_zero (S := S1024x1024) _ hz2, View.readAt_eq_ld, harg3.read_unread, harg4.read_unread, harg5.read_unread, harg7.read_unread, harg8.read_unread, harg9.read_unread,
    View.ld_unit_zero (S := S1x1024x1024) hz3, View.ld_unit_zero (S := S1x512x1024) hz3, View.ld_unit_zero (S := S1024x1) hz2, View.ld_unit_zero (S := S1024x1024) hz2]

theorem leftA7_eq (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : condFirst i) (hc1 : ¬condLast i) (q : Vec F S1x1024x1024 .bf16) (k v : Vec F S1x512x1024 .bf16) :
    leftA7 c i arg3 harg3 arg4 harg4 arg5 harg5 arg6 harg6 arg7 harg7 arg8 harg8 arg9 harg9 hc0 hc1 q k v = stepM i q k (k1_pay5 (F := F)) := by
  unfold leftA7 stepM
  rw [View.read_writes_eq_canon _ _ _ (coverA7 c i arg3 harg3 arg4 harg4 arg5 harg5 arg6 harg6 arg7 harg7 arg8 harg8 arg9 harg9 hc0 hc1 q k v)]
  unfold attnRunA
  dsimp only
  sl_unfold_words
  rw [View.canon_cons_unit_zero (S := S1024x1) hz2]
  simp only [View.readCov_unit_zero (S := S1024x1) _ hz2, View.readCov_unit_zero (S := S1024x1024) _ hz2, View.readAt_eq_ld, harg3.read_unread, harg4.read_unread, harg5.read_unread, harg7.read_unread, harg8.read_unread, harg9.read_unread,
    View.ld_unit_zero (S := S1x1024x1024) hz3, View.ld_unit_zero (S := S1x512x1024) hz3, View.ld_unit_zero (S := S1024x1) hz2, View.ld_unit_zero (S := S1024x1024) hz2]

theorem leftA8_eq (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : condFirst i) (hc1 : ¬condLast i) (q : Vec F S1x1024x1024 .bf16) (k v : Vec F S1x512x1024 .bf16) :
    leftA8 c i arg3 harg3 arg4 harg4 arg5 harg5 arg6 harg6 arg7 harg7 arg8 harg8 arg9 harg9 hc0 hc1 q k v = stepL i q k (k1_pay5 (F := F)) (k1_pay6 (F := F)) := by
  unfold leftA8 stepL
  rw [View.read_writes_eq_canon _ _ _ (coverA8 c i arg3 harg3 arg4 harg4 arg5 harg5 arg6 harg6 arg7 harg7 arg8 harg8 arg9 harg9 hc0 hc1 q k v)]
  unfold attnRunA
  dsimp only
  sl_unfold_words
  rw [View.canon_cons_unit_zero (S := S1024x1) hz2]
  simp only [View.readCov_unit_zero (S := S1024x1) _ hz2, View.readCov_unit_zero (S := S1024x1024) _ hz2, View.readAt_eq_ld, harg3.read_unread, harg4.read_unread, harg5.read_unread, harg7.read_unread, harg8.read_unread, harg9.read_unread,
    View.ld_unit_zero (S := S1x1024x1024) hz3, View.ld_unit_zero (S := S1x512x1024) hz3, View.ld_unit_zero (S := S1024x1) hz2, View.ld_unit_zero (S := S1024x1024) hz2]

theorem leftA9_eq (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : condFirst i) (hc1 : ¬condLast i) (q : Vec F S1x1024x1024 .bf16) (k v : Vec F S1x512x1024 .bf16) :
    leftA9 c i arg3 harg3 arg4 harg4 arg5 harg5 arg6 harg6 arg7 harg7 arg8 harg8 arg9 harg9 hc0 hc1 q k v = stepA i q k v (k1_pay5 (F := F)) (k1_pay7 (F := F)) := by
  unfold leftA9 stepA
  rw [View.read_writes_eq_canon _ _ _ (coverA9 c i arg3 harg3 arg4 harg4 arg5 harg5 arg6 harg6 arg7 harg7 arg8 harg8 arg9 harg9 hc0 hc1 q k v)]
  unfold attnRunA
  dsimp only
  sl_unfold_words
  rw [View.canon_cons_unit_zero (S := S1024x1024) hz2]
  simp only [View.readCov_unit_zero (S := S1024x1) _ hz2, View.readCov_unit_zero (S := S1024x1024) _ hz2, View.readAt_eq_ld, harg3.read_unread, harg4.read_unread, harg5.read_unread, harg7.read_unread, harg8.read_unread, harg9.read_unread,
    View.ld_unit_zero (S := S1x1024x1024) hz3, View.ld_unit_zero (S := S1x512x1024) hz3, View.ld_unit_zero (S := S1024x1) hz2, View.ld_unit_zero (S := S1024x1024) hz2]

end Cert.KernelIdeal.Hand

end
-- ==== Proof.ProjValue.lean ====
/-
  What the projection region leaves in each of its three result arrays, on the extended reals: with X the [8192, 1024]
  array of input rows and W the [1024, 1024] matrix the region finds, entry (r, e) of the result is the sum over d of
  X (r, d) * W (d, e). Point t writes rows 512 t … 512 t + 511, the sixteen points cover the array.
-/
import proofs.«174840_j29523605193128_2_alg».proof.Proof.ProjRegionI
import proofs.«174840_j29523605193128_2_alg».proof.Proof.LibDotRecord
import proofs.«174840_j29523605193128_2_alg».proof.Proof.AttnLeft
import Idealize.ShloMosaic.Lib.Pipeline.Value

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat)
open Cert.KernelIdeal Cert.KernelIdeal.Gen

/-- Rows of X times the matrix W. -/
def rowsTimes (x : S8192x1024.Idx → EReal) (w : S1024x1024.Idx → EReal) : S8192x1024.Idx → EReal :=
  fun j => ∑ d : Fin 1024, x (ix2 (j 0) d) * w (ix2 d (j 1))

/-- One tile times the matrix, at an entry. -/
theorem projQ_pay_apply (x : Vec Ideal S512x1024 .f32) (w : Vec Ideal S1024x1024 .bf16) (p : Fin 512) (e : Fin 1024) :
    k0_pay1 (F := Ideal) x w (ix2 p e) = ∑ d : Fin 1024, x (ix2 p d) * w (ix2 d e) := by
  unfold k0_pay1
  (try dsimp only)
  rw [truncf_apply]
  refine (DotRecord.matmul_zero_apply _ rfl rfl rfl rfl rfl rfl _ _ none p e).trans ?_
  exact Finset.sum_congr rfl fun d _ => by rw [truncf_apply, shapeCast_self, shapeCast_self]

/-- One tile times the matrix, at an entry. -/
theorem projK_pay_apply (x : Vec Ideal S512x1024 .f32) (w : Vec Ideal S1024x1024 .bf16) (p : Fin 512) (e : Fin 1024) :
    k0_pay2 (F := Ideal) x w (ix2 p e) = ∑ d : Fin 1024, x (ix2 p d) * w (ix2 d e) := by
  unfold k0_pay2
  (try dsimp only)
  rw [truncf_apply]
  refine (DotRecord.matmul_zero_apply _ rfl rfl rfl rfl rfl rfl _ _ none p e).trans ?_
  exact Finset.sum_congr rfl fun d _ => by rw [truncf_apply, shapeCast_self, shapeCast_self]

/-- One tile times the matrix, at an entry. -/
theorem projV_pay_apply (x : Vec Ideal S512x1024 .f32) (w : Vec Ideal S1024x1024 .bf16) (p : Fin 512) (e : Fin 1024) :
    k0_pay3 (F := Ideal) x w (ix2 p e) = ∑ d : Fin 1024, x (ix2 p d) * w (ix2 d e) := by
  unfold k0_pay3
  (try dsimp only)
  rw [truncf_apply]
  refine (DotRecord.matmul_zero_apply _ rfl rfl rfl rfl rfl rfl _ _ none p e).trans ?_
  exact Finset.sum_congr rfl fun d _ => by rw [truncf_apply, shapeCast_self, shapeCast_self]

/-- The printed index maps over the grid: a row window's block index is the point, the matrix windows do not move. -/
theorem projIdx : ∀ t : Fin cfg0.N,
    win0_0.index t (0 : Fin 2) = t.val ∧ win0_0.index t (1 : Fin 2) = 0 ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0 ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 ∧ win0_7.index t (0 : Fin 2) = t.val ∧ win0_7.index t (1 : Fin 2) = 0
    ∧ win0_8.index t (0 : Fin 2) = t.val ∧ win0_8.index t (1 : Fin 2) = 0 :=
  (by decide +kernel : ∀ t : Fin grid0.N, _)

section
variable (V : (c : Dev nD) → (b : Ref sig .tc) → Buf (Elt Ideal) ((c : Thread nD τ).loc b))

/-- What point t writes back into result 0 is block t of the rows-times-matrix array. -/
theorem projQ_flushed (c : Dev nD) (t : Fin cfg0.N) :
    (projDat V c).flushed 6 t = ((cfg0.win 6).blk t).view.read (Elt Ideal) (rowsTimes (V c main_v0) (V c main_v4)) := by
  show (cfg0.win 6).cut (grid0.coords t) ((projDat V c).after 6 t) = _
  rw [projAfter6]
  unfold projOutQ
  rw [View.canon_unit_zero (S := S512x1024) hz2]
  simp only [View.ld_unit_zero (S := S512x1024) hz2, View.ld_unit_zero (S := S1024x1024) hz2]
  obtain ⟨i00, i01, i10, i11, i20, i21, i30, i31, i40, i41, i50, i51, i60, i61, i70, i71, i80, i81⟩ := projIdx t
  funext j
  obtain ⟨p, e, rfl⟩ : ∃ (p : Fin 512) (e : Fin 1024), j = ix2 p e := ⟨j 0, j 1, eq_ix2 j⟩
  show k0_pay1 (F := Ideal) (projBlk V c 0 t) (projBlk V c 3 t) (ix2 p e) = rowsTimes (V c main_v0) (V c main_v4) (((cfg0.win 6).blk t).view.emb (ix2 p e))
  rw [projQ_pay_apply]
  unfold rowsTimes
  refine Finset.sum_congr rfl fun d _ => ?_
  congr 1
  · show V c main_v0 (((cfg0.win 0).blk t).view.emb (ix2 p d)) = V c main_v0 _
    refine congrArg _ (funext fun a => Fin.ext ?_)
    match a with
    | ⟨0, _⟩ => show win0_0.index t (0 : Fin 2) * 512 + 1 * p.val = win0_6.index t (0 : Fin 2) * 512 + 1 * p.val; omega
    | ⟨1, _⟩ => show win0_0.index t (1 : Fin 2) * 1024 + 1 * d.val = d.val; omega
  · show V c main_v4 (((cfg0.win 3).blk t).view.emb (ix2 d e)) = V c main_v4 _
    refine congrArg _ (funext fun a => Fin.ext ?_)
    match a with
    | ⟨0, _⟩ => show win0_3.index t (0 : Fin 2) * 1024 + 1 * d.val = d.val; omega
    | ⟨1, _⟩ => show win0_3.index t (1 : Fin 2) * 1024 + 1 * e.val = win0_6.index t (1 : Fin 2) * 1024 + 1 * e.val; omega

/-- So result 0's array ends at the rows-times-matrix array: the point of row r is r / 512. -/
theorem projQ_final (c : Dev nD) : (projDat V c).arrAt 6 cfg0.N = rowsTimes (V c main_v0) (V c main_v4) :=
  (projDat V c).arrAt_eq_of_cover 6 (rowsTimes (V c main_v0) (V c main_v4)) (fun t _ => projQ_flushed V c t) fun i => by
    have hi0 : (i 0).val < 8192 := (i 0).isLt
    have hi1 : (i 1).val < 1024 := (i 1).isLt
    have hN : cfg0.N = 16 := N_0
    obtain ⟨t, ht⟩ : ∃ t : Fin cfg0.N, t.val = (i 0).val / 512 := ⟨⟨(i 0).val / 512, by rw [hN]; omega⟩, rfl⟩
    refine ⟨t, flush0_6 t, ?_⟩
    obtain ⟨i00, i01, i10, i11, i20, i21, i30, i31, i40, i41, i50, i51, i60, i61, i70, i71, i80, i81⟩ := projIdx t
    show i ∈ ((View.whole main_v9_0).slice (win0_6.rect t)).set
    rw [View.set_slice_whole, Rect.mem_set_unit]
    intro a
    match a with
    | ⟨0, _⟩ => show win0_6.index t (0 : Fin 2) * 512 ≤ (i 0).val ∧ (i 0).val < win0_6.index t (0 : Fin 2) * 512 + 512
                rw [i60, ht]; omega
    | ⟨1, _⟩ => show win0_6.index t (1 : Fin 2) * 1024 ≤ (i 1).val ∧ (i 1).val < win0_6.index t (1 : Fin 2) * 1024 + 1024
                rw [i61]; omega

/-- What point t writes back into result 1 is block t of the rows-times-matrix array. -/
theorem projK_flushed (c : Dev nD) (t : Fin cfg0.N) :
    (projDat V c).flushed 7 t = ((cfg0.win 7).blk t).view.read (Elt Ideal) (rowsTimes (V c main_v1) (V c main_v6)) := by
  show (cfg0.win 7).cut (grid0.coords t) ((projDat V c).after 7 t) = _
  rw [projAfter7]
  unfold projOutK
  rw [View.canon_unit_zero (S := S512x1024) hz2]
  simp only [View.ld_unit_zero (S := S512x1024) hz2, View.ld_unit_zero (S := S1024x1024) hz2]
  obtain ⟨i00, i01, i10, i11, i20, i21, i30, i31, i40, i41, i50, i51, i60, i61, i70, i71, i80, i81⟩ := projIdx t
  funext j
  obtain ⟨p, e, rfl⟩ : ∃ (p : Fin 512) (e : Fin 1024), j = ix2 p e := ⟨j 0, j 1, eq_ix2 j⟩
  show k0_pay2 (F := Ideal) (projBlk V c 1 t) (projBlk V c 4 t) (ix2 p e) = rowsTimes (V c main_v1) (V c main_v6) (((cfg0.win 7).blk t).view.emb (ix2 p e))
  rw [projK_pay_apply]
  unfold rowsTimes
  refine Finset.sum_congr rfl fun d _ => ?_
  congr 1
  · show V c main_v1 (((cfg0.win 1).blk t).view.emb (ix2 p d)) = V c main_v1 _
    refine congrArg _ (funext fun a => Fin.ext ?_)
    match a with
    | ⟨0, _⟩ => show win0_1.index t (0 : Fin 2) * 512 + 1 * p.val = win0_7.index t (0 : Fin 2) * 512 + 1 * p.val; omega
    | ⟨1, _⟩ => show win0_1.index t (1 : Fin 2) * 1024 + 1 * d.val = d.val; omega
  · show V c main_v6 (((cfg0.win 4).blk t).view.emb (ix2 d e)) = V c main_v6 _
    refine congrArg _ (funext fun a => Fin.ext ?_)
    match a with
    | ⟨0, _⟩ => show win0_4.index t (0 : Fin 2) * 1024 + 1 * d.val = d.val; omega
    | ⟨1, _⟩ => show win0_4.index t (1 : Fin 2) * 1024 + 1 * e.val = win0_7.index t (1 : Fin 2) * 1024 + 1 * e.val; omega

/-- So result 1's array ends at the rows-times-matrix array: the point of row r is r / 512. -/
theorem projK_final (c : Dev nD) : (projDat V c).arrAt 7 cfg0.N = rowsTimes (V c main_v1) (V c main_v6) :=
  (projDat V c).arrAt_eq_of_cover 7 (rowsTimes (V c main_v1) (V c main_v6)) (fun t _ => projK_flushed V c t) fun i => by
    have hi0 : (i 0).val < 8192 := (i 0).isLt
    have hi1 : (i 1).val < 1024 := (i 1).isLt
    have hN : cfg0.N = 16 := N_0
    obtain ⟨t, ht⟩ : ∃ t : Fin cfg0.N, t.val = (i 0).val / 512 := ⟨⟨(i 0).val / 512, by rw [hN]; omega⟩, rfl⟩
    refine ⟨t, flush0_7 t, ?_⟩
    obtain ⟨i00, i01, i10, i11, i20, i21, i30, i31, i40, i41, i50, i51, i60, i61, i70, i71, i80, i81⟩ := projIdx t
    show i ∈ ((View.whole main_v9_1).slice (win0_7.rect t)).set
    rw [View.set_slice_whole, Rect.mem_set_unit]
    intro a
    match a with
    | ⟨0, _⟩ => show win0_7.index t (0 : Fin 2) * 512 ≤ (i 0).val ∧ (i 0).val < win0_7.index t (0 : Fin 2) * 512 + 512
                rw [i70, ht]; omega
    | ⟨1, _⟩ => show win0_7.index t (1 : Fin 2) * 1024 ≤ (i 1).val ∧ (i 1).val < win0_7.index t (1 : Fin 2) * 1024 + 1024
                rw [i71]; omega

/-- What point t writes back into result 2 is block t of the rows-times-matrix array. -/
theorem projV_flushed (c : Dev nD) (t : Fin cfg0.N) :
    (projDat V c).flushed 8 t = ((cfg0.win 8).blk t).view.read (Elt Ideal) (rowsTimes (V c main_v2) (V c main_v8)) := by
  show (cfg0.win 8).cut (grid0.coords t) ((projDat V c).after 8 t) = _
  rw [projAfter8]
  unfold projOutV
  rw [View.canon_unit_zero (S := S512x1024) hz2]
  simp only [View.ld_unit_zero (S := S512x1024) hz2, View.ld_unit_zero (S := S1024x1024) hz2]
  obtain ⟨i00, i01, i10, i11, i20, i21, i30, i31, i40, i41, i50, i51, i60, i61, i70, i71, i80, i81⟩ := projIdx t
  funext j
  obtain ⟨p, e, rfl⟩ : ∃ (p : Fin 512) (e : Fin 1024), j = ix2 p e := ⟨j 0, j 1, eq_ix2 j⟩
  show k0_pay3 (F := Ideal) (projBlk V c 2 t) (projBlk V c 5 t) (ix2 p e) = rowsTimes (V c main_v2) (V c main_v8) (((cfg0.win 8).blk t).view.emb (ix2 p e))
  rw [projV_pay_apply]
  unfold rowsTimes
  refine Finset.sum_congr rfl fun d _ => ?_
  congr 1
  · show V c main_v2 (((cfg0.win 2).blk t).view.emb (ix2 p d)) = V c main_v2 _
    refine congrArg _ (funext fun a => Fin.ext ?_)
    match a with
    | ⟨0, _⟩ => show win0_2.index t (0 : Fin 2) * 512 + 1 * p.val = win0_8.index t (0 : Fin 2) * 512 + 1 * p.val; omega
    | ⟨1, _⟩ => show win0_2.index t (1 : Fin 2) * 1024 + 1 * d.val = d.val; omega
  · show V c main_v8 (((cfg0.win 5).blk t).view.emb (ix2 d e)) = V c main_v8 _
    refine congrArg _ (funext fun a => Fin.ext ?_)
    match a with
    | ⟨0, _⟩ => show win0_5.index t (0 : Fin 2) * 1024 + 1 * d.val = d.val; omega
    | ⟨1, _⟩ => show win0_5.index t (1 : Fin 2) * 1024 + 1 * e.val = win0_8.index t (1 : Fin 2) * 1024 + 1 * e.val; omega

/-- So result 2's array ends at the rows-times-matrix array: the point of row r is r / 512. -/
theorem projV_final (c : Dev nD) : (projDat V c).arrAt 8 cfg0.N = rowsTimes (V c main_v2) (V c main_v8) :=
  (projDat V c).arrAt_eq_of_cover 8 (rowsTimes (V c main_v2) (V c main_v8)) (fun t _ => projV_flushed V c t) fun i => by
    have hi0 : (i 0).val < 8192 := (i 0).isLt
    have hi1 : (i 1).val < 1024 := (i 1).isLt
    have hN : cfg0.N = 16 := N_0
    obtain ⟨t, ht⟩ : ∃ t : Fin cfg0.N, t.val = (i 0).val / 512 := ⟨⟨(i 0).val / 512, by rw [hN]; omega⟩, rfl⟩
    refine ⟨t, flush0_8 t, ?_⟩
    obtain ⟨i00, i01, i10, i11, i20, i21, i30, i31, i40, i41, i50, i51, i60, i61, i70, i71, i80, i81⟩ := projIdx t
    show i ∈ ((View.whole main_v9_2).slice (win0_8.rect t)).set
    rw [View.set_slice_whole, Rect.mem_set_unit]
    intro a
    match a with
    | ⟨0, _⟩ => show win0_8.index t (0 : Fin 2) * 512 ≤ (i 0).val ∧ (i 0).val < win0_8.index t (0 : Fin 2) * 512 + 512
                rw [i80, ht]; omega
    | ⟨1, _⟩ => show win0_8.index t (1 : Fin 2) * 1024 ≤ (i 1).val ∧ (i 1).val < win0_8.index t (1 : Fin 2) * 1024 + 1024
                rw [i81]; omega

end

end Cert.KernelIdeal.Hand

end
-- ==== Proof.HostGlue.lean ====
/-
  What the attention region finds in its three input arrays. The first host stretch flattens each input [4, 2048, 1024]
  to [8192, 1024] rows and transposes each weight matrix; the projection region multiplies; the second host stretch
  folds the rows back to [4, 2048, 1024]. So entry (b, r, e) of a projected array is the sum over d of the input at
  (b, r, d) times the weight at (e, d): the flattening and the folding use the same row number 2048 b + r.
-/
import proofs.«174840_j29523605193128_2_alg».proof.Proof.WholeRunI
import proofs.«174840_j29523605193128_2_alg».proof.Proof.ProjValue
import Idealize.ShloMosaic.Lib.StableHlo.Run

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat)
open Cert.KernelIdeal Cert.KernelIdeal.Gen

variable (m : (ℓ : Loc nD τ sig) → Buf (Elt Ideal) ℓ)

theorem E1_main_v0 (c : Dev nD) : (E1 m c main_v0 : S8192x1024.Idx → EReal)
    = shapeCast S8192x1024 (m ((c : Thread nD τ).loc main_arg0)) shapeCasts_S4x2048x1024_S8192x1024 := by
  show StableHlo.after hostOps0 (fun b => m (c, b)) (Proc.devRef .tc main_v0) = _
  after_results
  rfl
theorem E1_main_v1 (c : Dev nD) : (E1 m c main_v1 : S8192x1024.Idx → EReal)
    = shapeCast S8192x1024 (m ((c : Thread nD τ).loc main_arg1)) shapeCasts_S4x2048x1024_S8192x1024 := by
  show StableHlo.after hostOps0 (fun b => m (c, b)) (Proc.devRef .tc main_v1) = _
  after_results
  rfl
theorem E1_main_v2 (c : Dev nD) : (E1 m c main_v2 : S8192x1024.Idx → EReal)
    = shapeCast S8192x1024 (m ((c : Thread nD τ).loc main_arg2)) shapeCasts_S4x2048x1024_S8192x1024 := by
  show StableHlo.after hostOps0 (fun b => m (c, b)) (Proc.devRef .tc main_v2) = _
  after_results
  rfl
theorem E1_main_v4 (c : Dev nD) : (E1 m c main_v4 : S1024x1024.Idx → EReal)
    = transpose S1024x1024 [1, 0] (m ((c : Thread nD τ).loc main_arg3)) transposes_S1024x1024_S1024x1024_1_0 := by
  show StableHlo.after hostOps0 (fun b => m (c, b)) (Proc.devRef .tc main_v4) = _
  after_results
  rfl
theorem E1_main_v6 (c : Dev nD) : (E1 m c main_v6 : S1024x1024.Idx → EReal)
    = transpose S1024x1024 [1, 0] (m ((c : Thread nD τ).loc main_arg4)) transposes_S1024x1024_S1024x1024_1_0 := by
  show StableHlo.after hostOps0 (fun b => m (c, b)) (Proc.devRef .tc main_v6) = _
  after_results
  rfl
theorem E1_main_v8 (c : Dev nD) : (E1 m c main_v8 : S1024x1024.Idx → EReal)
    = transpose S1024x1024 [1, 0] (m ((c : Thread nD τ).loc main_arg5)) transposes_S1024x1024_S1024x1024_1_0 := by
  show StableHlo.after hostOps0 (fun b => m (c, b)) (Proc.devRef .tc main_v8) = _
  after_results
  rfl
theorem E3_main_v10 (c : Dev nD) : (E3 m c main_v10 : S4x2048x1024.Idx → EReal)
    = shapeCast S4x2048x1024 (W2 m c (Proc.devRef .tc main_v9_0)) shapeCasts_S8192x1024_S4x2048x1024 := by
  show StableHlo.after hostOps1 (W2 m c) (Proc.devRef .tc main_v10) = _
  after_results
  rfl
theorem E3_main_v11 (c : Dev nD) : (E3 m c main_v11 : S4x2048x1024.Idx → EReal)
    = shapeCast S4x2048x1024 (W2 m c (Proc.devRef .tc main_v9_1)) shapeCasts_S8192x1024_S4x2048x1024 := by
  show StableHlo.after hostOps1 (W2 m c) (Proc.devRef .tc main_v11) = _
  after_results
  rfl
theorem E3_main_v12 (c : Dev nD) : (E3 m c main_v12 : S4x2048x1024.Idx → EReal)
    = shapeCast S4x2048x1024 (W2 m c (Proc.devRef .tc main_v9_2)) shapeCasts_S8192x1024_S4x2048x1024 := by
  show StableHlo.after hostOps1 (W2 m c) (Proc.devRef .tc main_v12) = _
  after_results
  rfl

/-- Row 2048 b + r of the flattened array is row (b, r), both ways. -/
theorem flat_apply {α : Type} (x : S4x2048x1024.Idx → α) (h : S4x2048x1024.ShapeCasts S8192x1024) (R : Fin 8192) (d : Fin 1024) (b : Fin 4) (r : Fin 2048)
    (hR : R.val = b.val * 2048 + r.val) : shapeCast S8192x1024 x h (ix2 R d) = x (ix3 b r d) :=
  shapeCast_apply x h _ _ (by
    rw [Shape.rowMajor_val_three, Shape.rowMajor_val_two]
    show (b.val * 2048 + r.val) * 1024 + d.val = R.val * 1024 + d.val
    rw [hR])
theorem fold_apply {α : Type} (y : S8192x1024.Idx → α) (h : S8192x1024.ShapeCasts S4x2048x1024) (b : Fin 4) (r : Fin 2048) (e : Fin 1024) (R : Fin 8192)
    (hR : R.val = b.val * 2048 + r.val) : shapeCast S4x2048x1024 y h (ix3 b r e) = y (ix2 R e) :=
  shapeCast_apply y h _ _ (by
    rw [Shape.rowMajor_val_three, Shape.rowMajor_val_two]
    show R.val * 1024 + e.val = (b.val * 2048 + r.val) * 1024 + e.val
    rw [hR])
theorem transposeW_apply {α : Type} (w : S1024x1024.Idx → α) (h : S1024x1024.Transposes [1, 0] S1024x1024) (d e : Fin 1024) :
    transpose S1024x1024 [1, 0] w h (ix2 d e) = w (ix2 e d) :=
  transpose_apply _ w h _ _ (fun b => by match b with | ⟨0, _⟩ => rfl | ⟨1, _⟩ => rfl)

/-- A projection of an input [4, 2048, 1024] by a weight matrix [1024, 1024] (out, in): entry (b, r, e) is the row (b, r) of
    the input against the row e of the weight. -/
def projSpec (x : S4x2048x1024.Idx → EReal) (w : S1024x1024.Idx → EReal) : S4x2048x1024.Idx → EReal :=
  fun j => ∑ d : Fin 1024, x (ix3 (j 0) (j 1) d) * w (ix2 (j 2) d)

/-- Flattening the input's rows, transposing the weight, multiplying rows by matrix, and reading row 2048 b + r. -/
theorem rows_fold (X : S4x2048x1024.Idx → EReal) (W : S1024x1024.Idx → EReal) (h1 : S4x2048x1024.ShapeCasts S8192x1024)
    (h3 : S1024x1024.Transposes [1, 0] S1024x1024) (b : Fin 4) (r : Fin 2048) (e : Fin 1024) (R : Fin 8192) (hR : R.val = b.val * 2048 + r.val) :
    rowsTimes (shapeCast S8192x1024 X h1) (transpose S1024x1024 [1, 0] W h3) (ix2 R e) = projSpec X W (ix3 b r e) := by
  unfold rowsTimes projSpec
  refine Finset.sum_congr rfl fun d _ => ?_
  show shapeCast S8192x1024 X h1 (ix2 R d) * transpose S1024x1024 [1, 0] W h3 (ix2 d e) = X (ix3 b r d) * W (ix2 e d)
  rw [flat_apply X h1 R d b r hR, transposeW_apply W h3 d e]

theorem qRows_at (c : Dev nD) (R : Fin 8192) (e : Fin 1024) :
    (W2 m c (Proc.devRef .tc main_v9_0) : S8192x1024.Idx → EReal) (ix2 R e) = rowsTimes (E1 m c main_v0) (E1 m c main_v4) (ix2 R e) :=
  congrFun ((W2_arr m c 6).trans (projQ_final (E1 m) c)) (ix2 R e)

/-- The projected array the attention region finds. -/
theorem qProj_eq (c : Dev nD) :
    (E3 m c main_v10 : S4x2048x1024.Idx → EReal) = projSpec (m ((c : Thread nD τ).loc main_arg0)) (m ((c : Thread nD τ).loc main_arg3)) := by
  funext j
  obtain ⟨b, r, e, rfl⟩ : ∃ (b : Fin 4) (r : Fin 2048) (e : Fin 1024), j = ix3 b r e := ⟨j 0, j 1, j 2, eq_ix3 j⟩
  have hb := b.isLt
  have hr := r.isLt
  obtain ⟨R, hR⟩ : ∃ R : Fin 8192, R.val = b.val * 2048 + r.val := ⟨⟨b.val * 2048 + r.val, by omega⟩, rfl⟩
  rw [E3_main_v10, fold_apply _ _ b r e R hR]
  refine (qRows_at m c R e).trans ?_
  rw [E1_main_v0, E1_main_v4]
  exact rows_fold _ _ _ _ b r e R hR

theorem kRows_at (c : Dev nD) (R : Fin 8192) (e : Fin 1024) :
    (W2 m c (Proc.devRef .tc main_v9_1) : S8192x1024.Idx → EReal) (ix2 R e) = rowsTimes (E1 m c main_v1) (E1 m c main_v6) (ix2 R e) :=
  congrFun ((W2_arr m c 7).trans (projK_final (E1 m) c)) (ix2 R e)

/-- The projected array the attention region finds. -/
theorem kProj_eq (c : Dev nD) :
    (E3 m c main_v11 : S4x2048x1024.Idx → EReal) = projSpec (m ((c : Thread nD τ).loc main_arg1)) (m ((c : Thread nD τ).loc main_arg4)) := by
  funext j
  obtain ⟨b, r, e, rfl⟩ : ∃ (b : Fin 4) (r : Fin 2048) (e : Fin 1024), j = ix3 b r e := ⟨j 0, j 1, j 2, eq_ix3 j⟩
  have hb := b.isLt
  have hr := r.isLt
  obtain ⟨R, hR⟩ : ∃ R : Fin 8192, R.val = b.val * 2048 + r.val := ⟨⟨b.val * 2048 + r.val, by omega⟩, rfl⟩
  rw [E3_main_v11, fold_apply _ _ b r e R hR]
  refine (kRows_at m c R e).trans ?_
  rw [E1_main_v1, E1_main_v6]
  exact rows_fold _ _ _ _ b r e R hR

theorem vRows_at (c : Dev nD) (R : Fin 8192) (e : Fin 1024) :
    (W2 m c (Proc.devRef .tc main_v9_2) : S8192x1024.Idx → EReal) (ix2 R e) = rowsTimes (E1 m c main_v2) (E1 m c main_v8) (ix2 R e) :=
  congrFun ((W2_arr m c 8).trans (projV_final (E1 m) c)) (ix2 R e)

/-- The projected array the attention region finds. -/
theorem vProj_eq (c : Dev nD) :
    (E3 m c main_v12 : S4x2048x1024.Idx → EReal) = projSpec (m ((c : Thread nD τ).loc main_arg2)) (m ((c : Thread nD τ).loc main_arg5)) := by
  funext j
  obtain ⟨b, r, e, rfl⟩ : ∃ (b : Fin 4) (r : Fin 2048) (e : Fin 1024), j = ix3 b r e := ⟨j 0, j 1, j 2, eq_ix3 j⟩
  have hb := b.isLt
  have hr := r.isLt
  obtain ⟨R, hR⟩ : ∃ R : Fin 8192, R.val = b.val * 2048 + r.val := ⟨⟨b.val * 2048 + r.val, by omega⟩, rfl⟩
  rw [E3_main_v12, fold_apply _ _ b r e R hR]
  refine (vRows_at m c R e).trans ?_
  rw [E1_main_v2, E1_main_v8]
  exact rows_fold _ _ _ _ b r e R hR

end Cert.KernelIdeal.Hand

end
-- ==== Proof.LibMaskWords.lean ====
/-
  Signed comparisons of small words, as they appear in a causal mask: a row number and a column number, each a tile
  offset plus a position inside the tile, compared as signed 32-bit words. All numbers here are below 2^31, so the signed
  reading is the natural number and the word sums do not wrap.
-/
import Idealize.ShloMosaic.Lib.Affine
import Idealize.ShloMosaic.Lib.WordArith
import Idealize.ShloMosaic.Lib.ValueIdx

namespace CausalAttn

open Idealize.ShloMosaic

/-- For numbers below 2^31 the signed "greater or equal" of their words is the order of the numbers. -/
theorem sge_ofNat (x y : ℕ) (hx : x < 2 ^ 31) (hy : y < 2 ^ 31) :
    IntOp.cmpi .sge (BitVec.ofNat 32 x) (BitVec.ofNat 32 y) = 1#1 ↔ y ≤ x := by
  rw [IntOp.cmpi_sge, WordArith.toInt_ofNat_small x hx, WordArith.toInt_ofNat_small y hy]
  exact Int.ofNat_le

/-- A position p inside tile a of extent n, as a word: the word of p + a * n. -/
theorem tile_word (p a n : ℕ) :
    IntOp.addi (BitVec.ofNat 32 p) (Scalar.muli (BitVec.ofNat 32 a) (BitVec.ofNat 32 n)) = BitVec.ofNat 32 (p + a * n) := by
  show BitVec.ofNat 32 p + BitVec.ofNat 32 a * BitVec.ofNat 32 n = _
  rw [← BitVec.ofNat_mul, ← BitVec.ofNat_add]

/-- The select on the mask bit of (row word ≥ column word) is the choice on the numbers' order. -/
theorem select_sge {α : Type} (x y : ℕ) (hx : x < 2 ^ 31) (hy : y < 2 ^ 31) (A B : α) :
    Scalar.select (IntOp.cmpi .sge (BitVec.ofNat 32 x) (BitVec.ofNat 32 y)) A B = if y ≤ x then A else B := by
  by_cases h : y ≤ x
  · rw [if_pos h, (sge_ofNat x y hx hy).mpr h]; exact ValueIdx.select_one A B
  · rw [if_neg h, ValueIdx.eq_zero_of_ne_one (fun e => h ((sge_ofNat x y hx hy).mp e))]; exact ValueIdx.select_zero A B

end CausalAttn
-- ==== Proof.LibRowOps.lean ====
/-
  Row-wise reductions of an `[a, b]` vector and the keepdims column forms, read at an index.

  A kernel body that normalises each row (a softmax, a log-softmax, a layer norm) reduces its `[a, b]` block along
  axis 1 into `[a]`, recasts that to the column `[a, 1]` and broadcasts the column back over `[a, b]`. On the
  extended reals: the `maximumf` reduction at row `r` is the fold of `max` from `⊥` over the row's `b` entries
  (its accumulator pattern is `-∞`), the `add` reduction is the row's sum, the cast reads `(r, 0) ↦ r`, and the
  broadcast reads `(r, c) ↦ (r, 0)`. The host's one-axis `reduce` with a `maximum` body is the same fold from its
  initial value.
-/
import Idealize.ShloMosaic.PureOps.Ideal.Laws
import Idealize.ShloMosaic.Lib.ValueIdx
import Idealize.ShloMosaic.Lib.Pipeline.Value

namespace Gcn.Lib

open Idealize.ShloMosaic Idealize.ShloMosaic.ValueIdx

variable {a b : ℕ}

/-- The f32 pattern of `-∞` denotes `⊥`. -/
theorem ofBits_neg_inf_f32 : Ideal.ofBits .f32 0xFF800000#32 = ⊥ := by simp [Ideal.ofBits, Ideal.ieee]

/-- Row `r` with the column coordinate `k` put back is the entry `(r, k)`. -/
theorem lift_row (h : Shape.Reduces ⟨2, ![a, b]⟩ [1] ⟨1, ![a]⟩) (r : Fin a) (k : Fin b) :
    h.lift (ix1 r) k = ix2 r k := by
  funext d
  apply Fin.ext
  match d with
  | ⟨0, h0⟩ =>
    show h.liftVal (ix1 r) k.val ⟨0, h0⟩ = r.val
    unfold Shape.Reduces.liftVal
    split
    · next hc => exact absurd hc Nat.zero_ne_one
    · split
      · rfl
      · next hlt => exact absurd Nat.zero_lt_one hlt
  | ⟨1, h1⟩ =>
    show h.liftVal (ix1 r) k.val ⟨1, h1⟩ = k.val
    unfold Shape.Reduces.liftVal
    split
    · rfl
    · next hc => exact absurd rfl hc

/-- A kernel's `multi_reduction <maximumf>` along axis 1 from the `-∞` accumulator, at row `r`: the fold of `max`
    from `⊥` over the row. -/
theorem rowMax_apply (v : FVec Ideal ⟨2, ![a, b]⟩ .f32) (h : Shape.Reduces ⟨2, ![a, b]⟩ [1] ⟨1, ![a]⟩)
    (hφ : FKind.Formats .f32) (hacc : (0xFF800000#32 : BitVec 32) = FKind.maximumf.neutral .f32 hφ) (r : Fin a) :
    multiReduction .maximumf [1] ⟨1, ![a]⟩ v 0xFF800000#32 h hφ hacc (ix1 r)
      = (Finset.univ : Finset (Fin b)).fold max ⊥ (fun k => v (ix2 r k)) := by
  refine (Ideal.multiReduction_maximumf_single v 0xFF800000#32 h hφ hacc (ix1 r)).trans ?_
  show (Finset.univ : Finset (Fin b)).fold max (Ideal.ofBits .f32 0xFF800000#32) (v ∘ h.lift (ix1 r)) = _
  rw [ofBits_neg_inf_f32]
  exact congrArg (fun f => (Finset.univ : Finset (Fin b)).fold max ⊥ f) (funext fun k => congrArg v (lift_row h r k))

/-- A kernel's `multi_reduction <add>` along axis 1, at row `r`: the row's sum. -/
theorem rowSum_apply (v : FVec Ideal ⟨2, ![a, b]⟩ .f32) (h : Shape.Reduces ⟨2, ![a, b]⟩ [1] ⟨1, ![a]⟩)
    (hφ : FKind.Formats .f32) (hacc : (0x00000000#32 : BitVec 32) = FKind.add.neutral .f32 hφ) (r : Fin a) :
    multiReduction .add [1] ⟨1, ![a]⟩ v 0x00000000#32 h hφ hacc (ix1 r) = ∑ k : Fin b, v (ix2 r k) := by
  refine (Ideal.multiReduction_add_single v 0x00000000#32 h hφ hacc (ix1 r)).trans ?_
  exact Finset.sum_congr rfl fun k _ => congrArg v (lift_row h r k)

/-- The host's one-axis `reduce` with a `maximum` body along axis 1, at row `r`: the fold of `max` from the
    initial value over the row. -/
theorem hostRowMax_apply {u : Shape} (x : (⟨2, ![a, b]⟩ : Shape).Idx → EReal) (init : u.Idx → EReal)
    (h' : Shape.ReducesTo ⟨2, ![a, b]⟩ [1] ⟨1, ![a]⟩) (h : Shape.Reduces ⟨2, ![a, b]⟩ [1] ⟨1, ![a]⟩) (hu : 0 < u.numel)
    (r : Fin a) :
    Host.reduce (FloatOps.maximumf (F := Ideal) (φ := .f32)) x init h' hu (ix1 r)
      = (Finset.univ : Finset (Fin b)).fold max (init (Shape.Idx.first hu)) (fun k => x (ix2 r k)) := by
  refine (Host.reduce_eq_fold_single (FloatOps.maximumf (F := Ideal) (φ := .f32)) x init h' h hu (ix1 r)).trans ?_
  show (Finset.univ : Finset (Fin b)).fold max (init (Shape.Idx.first hu)) (x ∘ h.lift (ix1 r)) = _
  exact congrArg (fun f => (Finset.univ : Finset (Fin b)).fold max (init (Shape.Idx.first hu)) f)
    (funext fun k => congrArg x (lift_row h r k))

/-- An `[a]` vector cast to the column `[a, 1]` reads, at `(r, u)`, the operand at `r`. -/
theorem shapeCast_a_a1_apply {α : Type} (x : (⟨1, ![a]⟩ : Shape).Idx → α) (h : (⟨1, ![a]⟩ : Shape).ShapeCasts ⟨2, ![a, 1]⟩)
    (r : Fin a) (u : Fin 1) : shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- A column `[a, 1]` broadcast over `[a, b]` reads, at `(r, c)`, the column's entry of row `r`. -/
theorem broadcastTo_a1_ab_apply {α : Type} (v : (⟨2, ![a, 1]⟩ : Shape).Idx → α) (h : (⟨2, ![a, 1]⟩ : Shape).Broadcasts ⟨2, ![a, b]⟩)
    (r : Fin a) (c : Fin b) : broadcastTo ⟨2, ![a, b]⟩ v h (ix2 r c) = v (ix2 r (0 : Fin 1)) := by
  refine broadcastTo_apply v h (ix2 r c) (ix2 r (0 : Fin 1)) fun ax => ?_
  match ax with
  | ⟨0, _⟩ =>
    show r.val = if a = 1 then 0 else r.val
    split
    · have := r.isLt; omega
    · rfl
  | ⟨1, _⟩ => rfl

end Gcn.Lib
-- ==== Proof.LibTransposedDot.lean ====
/-
  A matrix product whose right operand is contracted on its LAST axis, read at an entry.

  The dimension numbers "contract the left operand's columns with the right operand's columns, no batch axis"
  (`DotDims.transposedRhs M K N`: an `M × K` matrix against an `N × K` one) give, on the extended reals and
  into a zero accumulator, the entry `(p, q) ↦ ∑ k, lhs (p, k) * rhs (q, k)`: the product with the right
  operand's transpose. The contraction index of the library is a one-coordinate index; the bijection with
  `Fin K` moves the sum.
-/
import Idealize.ShloMosaic.PureOps.Ideal.Laws
import Idealize.ShloMosaic.Lib.ValueIdx

namespace LinkLoss

open Idealize.ShloMosaic Idealize.ShloMosaic.ValueIdx

variable {M K N : ℕ}

/-- The left operand's index at output entry `(p, q)` and contracted coordinate `k` is `(p, k)`. -/
theorem transposed_lhsIdx (p : Fin M) (q : Fin N) (k : Fin K) :
    (DotDims.transposedRhs M K N).lhsIdx (ix2 p q) ((contrEquiv1 (DotDims.transposedRhs M K N) K rfl rfl).symm k)
      = ix2 p k := by
  have hk := contrEquiv1_symm_val (DotDims.transposedRhs M K N) K rfl rfl k
  funext a
  apply Fin.ext
  match a with
  | ⟨0, _⟩ => rfl
  | ⟨1, _⟩ => exact ((DotDims.transposedRhs M K N).lhsIdx_val_of_single (cl := 1) rfl _ _).trans hk

/-- The right operand's index at output entry `(p, q)` and contracted coordinate `k` is `(q, k)`. -/
theorem transposed_rhsIdx (p : Fin M) (q : Fin N) (k : Fin K) :
    (DotDims.transposedRhs M K N).rhsIdx (ix2 p q) ((contrEquiv1 (DotDims.transposedRhs M K N) K rfl rfl).symm k)
      = ix2 q k := by
  have hk := contrEquiv1_symm_val (DotDims.transposedRhs M K N) K rfl rfl k
  funext a
  apply Fin.ext
  match a with
  | ⟨0, _⟩ => rfl
  | ⟨1, _⟩ => exact ((DotDims.transposedRhs M K N).rhsIdx_val_of_single (cr := 1) rfl _ _).trans hk

/-- The matrix unit accumulating into the zero vector, read at entry `(p, q)`. -/
theorem transposed_matmul_zero_apply {φ₁ φ₂ : FTy} (lhs : FVec Ideal ⟨2, ![M, K]⟩ φ₁) (rhs : FVec Ideal ⟨2, ![N, K]⟩ φ₂)
    (prec : Option ContractPrecision) (p : Fin M) (q : Fin N) :
    FloatOps.matmul (DotDims.transposedRhs M K N) prec lhs rhs (constant ⟨2, ![M, N]⟩ .f32 0x00000000#32) (ix2 p q)
      = ∑ k : Fin K, lhs (ix2 p k) * rhs (ix2 q k) := by
  refine (Ideal.matmul_constant_zero_apply (DotDims.transposedRhs M K N) prec lhs rhs (ix2 p q)).trans ?_
  rw [← Equiv.sum_comp (contrEquiv1 (DotDims.transposedRhs M K N) K rfl rfl).symm]
  refine Finset.sum_congr rfl fun k _ => ?_
  rw [transposed_lhsIdx, transposed_rhsIdx]

end LinkLoss
-- ==== Proof.LibTransposedRecord.lean ====
/-
  A printed matrix-product record read as the product with the right operand's transpose.

  A matrix product of an [M, K] by an [N, K] operand that contracts the columns of both operands and has no
  batch axis is determined by its six lists of axes; the record's last field is a proof. So any record with those
  lists IS the record of the product with the transposed right operand, and at entry (p, q) the product
  accumulated into zero is the sum over k of lhs (p, k) * rhs (q, k), on the extended reals.
-/
import proofs.«174840_j29523605193128_2_alg».proof.Proof.LibTransposedDot

namespace TransposedRecord

open Idealize.ShloMosaic Idealize.ShloMosaic.ValueIdx

variable {M K N : ℕ}

/-- A record whose six axis lists contract both operands' last axes is the transposed-right-operand record. -/
theorem eq_transposedRhs (d : DotDims ⟨2, ![M, K]⟩ ⟨2, ![N, K]⟩ ⟨2, ![M, N]⟩)
    (h1 : d.lhsContracting = [1]) (h2 : d.rhsContracting = [1]) (h3 : d.lhsNonContracting = [0])
    (h4 : d.rhsNonContracting = [0]) (h5 : d.lhsBatch = []) (h6 : d.rhsBatch = []) :
    d = DotDims.transposedRhs M K N := by
  obtain ⟨lc, rc, ln, rn, lb, rb, wf⟩ := d
  simp only at h1 h2 h3 h4 h5 h6
  subst h1 h2 h3 h4 h5 h6
  rfl

/-- The matrix unit accumulating into the zero vector, under any record with those lists, at entry (p, q):
    the row p of the left operand against the row q of the right one. -/
theorem matmul_zero_apply {φ₁ φ₂ : FTy} (d : DotDims ⟨2, ![M, K]⟩ ⟨2, ![N, K]⟩ ⟨2, ![M, N]⟩)
    (h1 : d.lhsContracting = [1]) (h2 : d.rhsContracting = [1]) (h3 : d.lhsNonContracting = [0])
    (h4 : d.rhsNonContracting = [0]) (h5 : d.lhsBatch = []) (h6 : d.rhsBatch = [])
    (lhs : FVec Ideal ⟨2, ![M, K]⟩ φ₁) (rhs : FVec Ideal ⟨2, ![N, K]⟩ φ₂)
    (prec : Option ContractPrecision) (p : Fin M) (q : Fin N) :
    FloatOps.matmul d prec lhs rhs (constant ⟨2, ![M, N]⟩ .f32 0x00000000#32) (ix2 p q)
      = ∑ k : Fin K, lhs (ix2 p k) * rhs (ix2 q k) := by
  rw [eq_transposedRhs d h1 h2 h3 h4 h5 h6]
  exact LinkLoss.transposed_matmul_zero_apply lhs rhs prec p q

end TransposedRecord
-- ==== Proof.LibSoftmaxLaw.lean ====
/-
  Softmax-weighted sums on the extended reals: dividing late or early.

  For a row of scores s and a row of values v, write m for the row's maximum (the fold of max from ⊥),
  p j = exp (s j - m) for the weights and l = ∑ j, p j for their sum. One program forms (∑ j, p j * v j) / l, the
  other ∑ j, (p j / l) * v j. On the extended reals these agree as soon as every score and every value is a real
  number: then m is a real, every weight is a positive real, l is a positive real, and the identity is the real one
  (a sum times a constant is the sum of the products). Without that hypothesis it can fail (an infinite score makes
  a weight infinite and the quotient junk).

  Also here: the coercion of a finite real sum, that a finite sum of products of reals is a real, and the three float
  patterns the two programs spell for the score scale, with 1024 ^ (-1/2) = 1/32.
-/
import Idealize.ShloMosaic.PureOps.Ideal

noncomputable section

namespace Attn

open Idealize.ShloMosaic

/-! ## Real sums and real maxima inside the extended reals -/

/-- The coercion of a finite real sum is the sum of the coercions. -/
theorem coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A finite sum of products of reals is a real. -/
theorem sum_mul_real {ι : Type} [Fintype ι] (f g : ι → EReal) (hf : ∀ i, ∃ r : ℝ, f i = r) (hg : ∀ i, ∃ r : ℝ, g i = r) :
    ∃ r : ℝ, ∑ i, f i * g i = r := by
  choose F hF using hf
  choose G hG using hg
  refine ⟨∑ i, F i * G i, ?_⟩
  rw [coe_sum]
  exact Finset.sum_congr rfl fun i _ => by rw [hF, hG, EReal.coe_mul]

/-- The fold of max from ⊥ over finitely many reals is ⊥ or a real. -/
theorem fold_max_bot_or_real {ι : Type} (s : Finset ι) (f : ι → ℝ) :
    s.fold max (⊥ : EReal) (fun i => (f i : EReal)) = ⊥ ∨ ∃ r : ℝ, s.fold max (⊥ : EReal) (fun i => (f i : EReal)) = r := by
  classical
  induction s using Finset.induction_on with
  | empty => left; rfl
  | insert a s ha ih =>
    right
    rw [Finset.fold_insert ha]
    rcases ih with h | ⟨r, h⟩
    · exact ⟨f a, by rw [h, max_eq_left bot_le]⟩
    · exact ⟨max (f a) r, by rw [h]; exact (EReal.coe_strictMono.monotone.map_max).symm⟩

variable {T : ℕ}

/-- The row maximum: the fold of max from ⊥ over the row. -/
def rowMax (s : Fin T → EReal) : EReal := (Finset.univ : Finset (Fin T)).fold max ⊥ s

/-- The maximum of a nonempty row of reals is a real. -/
theorem rowMax_real (S : Fin T → ℝ) (j0 : Fin T) : ∃ M : ℝ, rowMax (fun j => (S j : EReal)) = M := by
  rcases fold_max_bot_or_real Finset.univ S with h | h
  · exfalso
    have hle : ((S j0 : ℝ) : EReal) ≤ (Finset.univ : Finset (Fin T)).fold max (⊥ : EReal) (fun i => (S i : EReal)) :=
      (_root_.Finset.le_fold_max (c := ((S j0 : ℝ) : EReal))).2 (Or.inr ⟨j0, Finset.mem_univ _, le_rfl⟩)
    rw [h] at hle
    exact EReal.coe_ne_bot _ (le_bot_iff.mp hle)
  · exact h

/-- The weight of entry j: exp of the score minus the row maximum. -/
def weight (s : Fin T → EReal) (j : Fin T) : EReal := Ideal.exp (s j - rowMax s)

/-- The sum of the row's weights. -/
def denom (s : Fin T → EReal) : EReal := ∑ j, weight s j

/-- Divide late: the weighted sum of the values, divided by the sum of the weights. -/
def outLate (s v : Fin T → EReal) : EReal := Ideal.div (∑ j, weight s j * v j) (denom s)

/-- Divide early: every weight divided by the sum of the weights, then the weighted sum of the values. -/
def outEarly (s v : Fin T → EReal) : EReal := ∑ j, Ideal.div (weight s j) (denom s) * v j

/-- For a nonempty row of real scores and real values the two forms agree. -/
theorem outEarly_eq_outLate (s v : Fin T → EReal) (j0 : Fin T) (hs : ∀ j, ∃ r : ℝ, s j = r) (hv : ∀ j, ∃ r : ℝ, v j = r) :
    outEarly s v = outLate s v := by
  choose S hS using hs
  choose V hV using hv
  have hs' : s = fun j => (S j : EReal) := funext hS
  obtain ⟨M, hM⟩ := rowMax_real S j0
  have hw : ∀ j, weight s j = ((Real.exp (S j - M) : ℝ) : EReal) := fun j => by
    unfold weight
    rw [hs', hM, ← EReal.coe_sub, Ideal.exp_coe]
  have hL : denom s = ((∑ j, Real.exp (S j - M) : ℝ) : EReal) := by
    unfold denom
    rw [coe_sum]
    exact Finset.sum_congr rfl fun j _ => hw j
  have hpos : (0 : ℝ) < ∑ j, Real.exp (S j - M) :=
    Finset.sum_pos (fun j _ => Real.exp_pos _) ⟨j0, Finset.mem_univ _⟩
  unfold outEarly outLate
  rw [hL, Ideal.div_coe hpos.ne']
  have e1 : ∀ j, Ideal.div (weight s j) ((∑ j, Real.exp (S j - M) : ℝ) : EReal) * v j
      = ((Real.exp (S j - M) * (1 / ∑ j, Real.exp (S j - M)) * V j : ℝ) : EReal) := fun j => by
    rw [Ideal.div_coe hpos.ne', hw, hV, ← EReal.coe_mul, ← EReal.coe_mul]
  have e2 : ∀ j, weight s j * v j = ((Real.exp (S j - M) * V j : ℝ) : EReal) := fun j => by
    rw [hw, hV, ← EReal.coe_mul]
  rw [Finset.sum_congr rfl fun j _ => e1 j, Finset.sum_congr rfl fun j _ => e2 j, ← coe_sum, ← coe_sum, ← EReal.coe_mul]
  congr 1
  rw [Finset.sum_mul]
  exact Finset.sum_congr rfl fun j _ => by ring

/-! ## The float patterns of the score scale -/

/-- The pattern of 1024.0 denotes the real 1024. -/
theorem ofBits_1024 : Ideal.ofBits .f32 0x44800000#32 = ((1024 : ℝ) : EReal) := by
  simp [Ideal.ofBits, Ideal.ieee, -EReal.coe_mul]; norm_num

/-- The pattern of -0.5 denotes the real -1/2. -/
theorem ofBits_neg_half : Ideal.ofBits .f32 0xBF000000#32 = ((-(1 / 2) : ℝ) : EReal) := by
  simp [Ideal.ofBits, Ideal.ieee, -EReal.coe_mul]; norm_num

/-- The pattern of 0.03125 denotes the real 1/32. -/
theorem ofBits_inv32 : Ideal.ofBits .f32 0x3D000000#32 = ((1 / 32 : ℝ) : EReal) := by
  simp [Ideal.ofBits, Ideal.ieee, -EReal.coe_mul]; norm_num

/-- The pattern of +0.0 denotes 0. -/
theorem ofBits_zero : Ideal.ofBits .f32 0x00000000#32 = 0 := by
  simp [Ideal.ofBits, Ideal.ieee]

/-- The pattern of -∞ denotes ⊥. -/
theorem ofBits_neg_inf : Ideal.ofBits .f32 0xFF800000#32 = ⊥ := by simp [Ideal.ofBits, Ideal.ieee]

/-- 1024 to the power -1/2 is 1/32: 1024 is the square of 32. -/
theorem rpow_1024 : Real.rpow 1024 (-(1 / 2)) = 1 / 32 := by
  rw [show (1024 : ℝ) = 32 ^ (2 : ℝ) by norm_num, Real.rpow_eq_pow, ← Real.rpow_mul (by norm_num)]
  norm_num [Real.rpow_neg_one]

/-- The reference's scale, the power of the two patterns, is the kernel's literal. -/
theorem scale_eq : Ideal.pow (Ideal.ofBits .f32 0x44800000#32) (Ideal.ofBits .f32 0xBF000000#32)
    = Ideal.ofBits .f32 0x3D000000#32 := by
  rw [ofBits_1024, ofBits_neg_half, ofBits_inv32, Ideal.pow_coe_coe, rpow_1024]

end Attn

end
-- ==== Proof.AttnRow.lean ====
/-
  One step of the attention accumulation read at a row, on the extended reals. With s the row's masked, scaled scores
  against the point's 512 key rows, m, l, a the row's running maximum, sum and weighted sums before the point:
      m' = max m (fold of max from -inf over s),   l' = exp (m - m') * l + sum of exp (s - m'),
      a' e = exp (m - m') * a e + sum over the key rows of exp (s - m') * v (·, e),
  and the score of row p against key row kk is the inner product of the two projected rows where the key's row number
  does not exceed the query's, 0 elsewhere, times 1/32. The output tile stores a' e / l'.
-/
import proofs.«174840_j29523605193128_2_alg».proof.Proof.AttnLeft
import proofs.«174840_j29523605193128_2_alg».proof.Proof.LibMaskWords
import proofs.«174840_j29523605193128_2_alg».proof.Proof.LibRowOps
import proofs.«174840_j29523605193128_2_alg».proof.Proof.LibDotRecord
import proofs.«174840_j29523605193128_2_alg».proof.Proof.LibTransposedRecord
import proofs.«174840_j29523605193128_2_alg».proof.Proof.LibSoftmaxLaw
import Idealize.ShloMosaic.Lib.Pipeline.Value

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat)
open Cert.KernelIdeal Cert.KernelIdeal.Gen

theorem cmpiV_apply {s : Shape} {w : ℕ} (pr : CmpIPredicate) (a b : IVec s w) (j : s.Idx) : cmpi pr a b j = IntOp.cmpi pr (a j) (b j) := rfl
theorem addiV_apply {s : Shape} {w : ℕ} (a b : IVec s w) (j : s.Idx) : addi a b j = IntOp.addi (a j) (b j) := rfl
theorem expV_apply {s : Shape} {φ : FTy} (a : FVec Ideal s φ) (j : s.Idx) : exp a j = Ideal.exp (a j) := rfl

/-- A [1, a, b] tile viewed as the matrix [a, b], and back. -/
theorem drop1_apply {α : Type} {a b : ℕ} (x : (⟨3, ![1, a, b]⟩ : Shape).Idx → α)
    (h : (⟨3, ![1, a, b]⟩ : Shape).ShapeCasts ⟨2, ![a, b]⟩) (p : Fin a) (e : Fin b) :
    shapeCast ⟨2, ![a, b]⟩ x h (ix2 p e) = x (ix3 (0 : Fin 1) p e) :=
  shapeCast_apply x h _ _ (by
    rw [Shape.rowMajor_val_three, Shape.rowMajor_val_two]
    show (0 * a + p.val) * b + e.val = p.val * b + e.val
    rw [Nat.zero_mul, Nat.zero_add])
theorem add1_apply {α : Type} {a b : ℕ} (x : (⟨2, ![a, b]⟩ : Shape).Idx → α)
    (h : (⟨2, ![a, b]⟩ : Shape).ShapeCasts ⟨3, ![1, a, b]⟩) (u : Fin 1) (p : Fin a) (e : Fin b) :
    shapeCast ⟨3, ![1, a, b]⟩ x h (ix3 u p e) = x (ix2 p e) :=
  shapeCast_apply x h _ _ (by
    have hu : u.val = 0 := by omega
    rw [Shape.rowMajor_val_three, Shape.rowMajor_val_two]
    show p.val * b + e.val = (u.val * a + p.val) * b + e.val
    rw [hu, Nat.zero_mul, Nat.zero_add])

section
variable (i : grid1.Coords) (q : Vec Ideal S1x1024x1024 .bf16) (k v : Vec Ideal S1x512x1024 .bf16)
  (m0 l0 : Vec Ideal S1024x1 .f32) (a0 : Vec Ideal S1024x1024 .f32)

/-- The masked, scaled score of the tile's row p against its key row kk. -/
theorem scoreTile_apply (p : Fin 1024) (kk : Fin 512) :
    k1_pay9 (F := Ideal) i q k (ix2 p kk)
      = (if (i 2).val * 512 + kk.val ≤ (i 1).val * 1024 + p.val then ∑ e : Fin 1024, q (ix3 (0 : Fin 1) p e) * k (ix3 (0 : Fin 1) kk e) else 0)
          * ((1 / 32 : ℝ) : EReal) := by
  have h1 : (i 1).val < 2 := (i 1).isLt
  have h2 : (i 2).val < 4 := (i 2).isLt
  have hp := p.isLt
  have hk := kk.isLt
  unfold k1_pay9
  dsimp only
  simp only [mulf_apply, select_apply, cmpiV_apply, addiV_apply, broadcast_apply]
  rw [iota_single_apply .tc S1024x512 32 (0 : Fin 2), iota_single_apply .tc S1024x512 32 (1 : Fin 2)]
  rw [show ((ix2 p kk : S1024x512.Idx) 0).val = p.val from rfl, show ((ix2 p kk : S1024x512.Idx) 1).val = kk.val from rfl]
  rw [CausalAttn.tile_word, CausalAttn.tile_word, CausalAttn.select_sge _ _ (by omega) (by omega)]
  rw [Ideal.ofBits_def, Ideal.ofBits_def, Attn.ofBits_zero, Attn.ofBits_inv32]
  congr 1
  refine if_congr ⟨fun h => by omega, fun h => by omega⟩ ?_ rfl
  refine (TransposedRecord.matmul_zero_apply _ rfl rfl rfl rfl rfl rfl _ _ none p kk).trans ?_
  exact Finset.sum_congr rfl fun e _ => by rw [drop1_apply, drop1_apply]

/-- The new running maximum of row p. -/
theorem stepM_apply (p : Fin 1024) :
    stepM (F := Ideal) i q k m0 (ix2 p (0 : Fin 1))
      = max (m0 (ix2 p (0 : Fin 1))) ((Finset.univ : Finset (Fin 512)).fold max ⊥ fun kk => k1_pay9 (F := Ideal) i q k (ix2 p kk)) := by
  unfold stepM k1_pay3 k1_pay10
  (try dsimp only)
  rw [shapeCast_self, maximumf_apply]
  refine congrArg (max (m0 (ix2 p (0 : Fin 1)))) ?_
  exact (Gcn.Lib.shapeCast_a_a1_apply _ _ p 0).trans (Gcn.Lib.rowMax_apply _ _ _ _ p)

theorem pay10_eq_stepM : k1_pay10 (F := Ideal) i q k m0 = stepM i q k m0 := by
  unfold stepM k1_pay3; (try dsimp only); rw [shapeCast_self]

/-- The weight of key row kk in row p: exp of the score minus the new maximum. -/
theorem weight_apply (p : Fin 1024) (kk : Fin 512) :
    k1_pay11 (F := Ideal) i q k m0 (ix2 p kk)
      = Ideal.exp (k1_pay9 (F := Ideal) i q k (ix2 p kk) - stepM i q k m0 (ix2 p (0 : Fin 1))) := by
  rw [← pay10_eq_stepM]
  unfold k1_pay11
  (try dsimp only)
  rw [expV_apply, subf_apply]
  refine congrArg (fun z => Ideal.exp (k1_pay9 (F := Ideal) i q k (ix2 p kk) - z)) ?_
  exact Gcn.Lib.broadcastTo_a1_ab_apply _ _ p kk

/-- The factor that rescales what was accumulated before: exp of the old maximum minus the new one. -/
theorem rescale_apply (p : Fin 1024) :
    k1_pay12 (F := Ideal) i q k m0 (ix2 p (0 : Fin 1))
      = Ideal.exp (m0 (ix2 p (0 : Fin 1)) - stepM i q k m0 (ix2 p (0 : Fin 1))) := by
  rw [← pay10_eq_stepM]
  unfold k1_pay12
  (try dsimp only)
  rw [expV_apply, subf_apply]

/-- The new running sum of row p. -/
theorem stepL_apply (p : Fin 1024) :
    stepL (F := Ideal) i q k m0 l0 (ix2 p (0 : Fin 1))
      = Ideal.exp (m0 (ix2 p (0 : Fin 1)) - stepM i q k m0 (ix2 p (0 : Fin 1))) * l0 (ix2 p (0 : Fin 1))
        + ∑ kk : Fin 512, Ideal.exp (k1_pay9 (F := Ideal) i q k (ix2 p kk) - stepM i q k m0 (ix2 p (0 : Fin 1))) := by
  unfold stepL k1_pay1 k1_pay13
  (try dsimp only)
  rw [shapeCast_self, addf_apply, mulf_apply, rescale_apply]
  congr 1
  refine (Gcn.Lib.shapeCast_a_a1_apply _ _ p 0).trans ?_
  refine (Gcn.Lib.rowSum_apply _ _ _ _ p).trans ?_
  exact Finset.sum_congr rfl fun kk _ => weight_apply i q k m0 p kk

/-- The new running weighted sums of row p. -/
theorem stepA_apply (p : Fin 1024) (e : Fin 1024) :
    stepA (F := Ideal) i q k v m0 a0 (ix2 p e)
      = Ideal.exp (m0 (ix2 p (0 : Fin 1)) - stepM i q k m0 (ix2 p (0 : Fin 1))) * a0 (ix2 p e)
        + ∑ kk : Fin 512, Ideal.exp (k1_pay9 (F := Ideal) i q k (ix2 p kk) - stepM i q k m0 (ix2 p (0 : Fin 1))) * v (ix3 (0 : Fin 1) kk e) := by
  unfold stepA k1_pay2 k1_pay8
  (try dsimp only)
  rw [shapeCast_self, addf_apply, mulf_apply]
  congr 1
  · refine congrArg (· * a0 (ix2 p e)) ?_
    exact (Gcn.Lib.broadcastTo_a1_ab_apply _ _ p e).trans (rescale_apply i q k m0 p)
  · refine (DotRecord.matmul_zero_apply _ rfl rfl rfl rfl rfl rfl _ _ none p e).trans ?_
    refine Finset.sum_congr rfl fun kk _ => ?_
    rw [truncf_apply, weight_apply, drop1_apply]

/-- What a last key tile stores into the output tile: the quotient. -/
theorem outTile_apply (A : Vec Ideal S1024x1024 .f32) (Lc : Vec Ideal S1024x1 .f32) (p : Fin 1024) (e : Fin 1024) :
    k1_pay4 (F := Ideal) A Lc (ix3 (0 : Fin 1) p e) = Ideal.div (A (ix2 p e)) (Lc (ix2 p (0 : Fin 1))) := by
  unfold k1_pay4
  (try dsimp only)
  rw [add1_apply, divf_apply]
  refine congrArg (Ideal.div (A (ix2 p e))) ?_
  exact Gcn.Lib.broadcastTo_a1_ab_apply _ _ p e

/-- The words a first key tile resets the scratch to. -/
theorem resetM_apply (j : S1024x1.Idx) : k1_pay5 (F := Ideal) j = ⊥ := by
  unfold k1_pay5; (try dsimp only); rw [shapeCast_self, broadcast_apply]; exact Attn.ofBits_neg_inf
theorem resetL_apply (j : S1024x1.Idx) : k1_pay6 (F := Ideal) j = 0 := by
  unfold k1_pay6; (try dsimp only); rw [shapeCast_self, broadcast_apply]; exact Attn.ofBits_zero
theorem resetA_apply (j : S1024x1024.Idx) : k1_pay7 (F := Ideal) j = 0 := by
  unfold k1_pay7; (try dsimp only); rw [shapeCast_self, broadcast_apply]; exact Attn.ofBits_zero

end

end Cert.KernelIdeal.Hand

end
-- ==== Proof.LibOnlineSoftmax.lean ====
/-
  The block-by-block (running-maximum) softmax accumulation on the extended reals.

  A row of real scores arrives in blocks of B columns; block j has scores S j k and, for each output coordinate e,
  real values V j k e. A running maximum m, a running weight sum l and a running weighted sum acc e are updated by

      m' = max m (max over the block) ,  a = exp (m - m') ,
      l' = a * l + ∑ k, exp (s k - m') * 1 ,   acc' e = a * acc e + ∑ k, exp (s k - m') * v k e ,

  starting from m = ⊥, l = 0, acc = 0. After n ≥ 1 blocks there is a REAL shift μ (the maximum so far) with
  m = μ, l = ∑ over the first n blocks of exp (S - μ) and acc e = ∑ of exp (S - μ) * V: the rescaling factor
  a = exp (μ - μ') turns every old weight exp (S - μ) into exp (S - μ'), and on the first block a = exp ⊥ = 0
  multiplies zeros. The quotient acc e / l does not depend on the shift (a common positive factor cancels), so it is
  the softmax-weighted mean of the values for ANY real shift, in particular for the row's true maximum.
  Every score and value being a real is what makes the rescaling and the cancellation valid.
-/
import proofs.«174840_j29523605193128_2_alg».proof.Proof.LibSoftmaxLaw

noncomputable section

namespace OnlineSoftmax

open Idealize.ShloMosaic

variable {B : ℕ} {ι : Type}

/-- The sum of the weights exp (S - μ) over the first n blocks. -/
def den (S : ℕ → Fin B → ℝ) (n : ℕ) (μ : ℝ) : ℝ :=
  ∑ j ∈ Finset.range n, ∑ k : Fin B, Real.exp (S j k - μ)

/-- The weighted sum of the values of coordinate e over the first n blocks. -/
def num (S : ℕ → Fin B → ℝ) (V : ℕ → Fin B → ι → ℝ) (n : ℕ) (μ : ℝ) (e : ι) : ℝ :=
  ∑ j ∈ Finset.range n, ∑ k : Fin B, Real.exp (S j k - μ) * V j k e

/-- Changing the shift from μ to μ' multiplies every weight by exp (μ - μ'). -/
theorem den_shift (S : ℕ → Fin B → ℝ) (n : ℕ) (μ μ' : ℝ) : Real.exp (μ - μ') * den S n μ = den S n μ' := by
  unfold den
  rw [Finset.mul_sum]
  refine Finset.sum_congr rfl fun j _ => ?_
  rw [Finset.mul_sum]
  refine Finset.sum_congr rfl fun k _ => ?_
  rw [← Real.exp_add]
  congr 1; ring

theorem num_shift (S : ℕ → Fin B → ℝ) (V : ℕ → Fin B → ι → ℝ) (n : ℕ) (μ μ' : ℝ) (e : ι) :
    Real.exp (μ - μ') * num S V n μ e = num S V n μ' e := by
  unfold num
  rw [Finset.mul_sum]
  refine Finset.sum_congr rfl fun j _ => ?_
  rw [Finset.mul_sum]
  refine Finset.sum_congr rfl fun k _ => ?_
  rw [← mul_assoc, ← Real.exp_add]
  congr 2; ring

theorem den_succ (S : ℕ → Fin B → ℝ) (n : ℕ) (μ : ℝ) :
    den S (n + 1) μ = den S n μ + ∑ k : Fin B, Real.exp (S n k - μ) := Finset.sum_range_succ _ _

theorem num_succ (S : ℕ → Fin B → ℝ) (V : ℕ → Fin B → ι → ℝ) (n : ℕ) (μ : ℝ) (e : ι) :
    num S V (n + 1) μ e = num S V n μ e + ∑ k : Fin B, Real.exp (S n k - μ) * V n k e := Finset.sum_range_succ _ _

/-- With at least one block of at least one column the weight sum is positive. -/
theorem den_pos (S : ℕ → Fin B → ℝ) (n : ℕ) (μ : ℝ) (hn : 0 < n) (hB : 0 < B) : 0 < den S n μ :=
  Finset.sum_pos (fun j _ => Finset.sum_pos (fun k _ => Real.exp_pos _) ⟨⟨0, hB⟩, Finset.mem_univ _⟩)
    ⟨0, Finset.mem_range.mpr hn⟩

/-- The state after n blocks: the maximum so far is a real μ, and l, acc are the weight sum and the weighted sums
    at the shift μ. -/
def Inv (S : ℕ → Fin B → ℝ) (V : ℕ → Fin B → ι → ℝ) (n : ℕ) (m l : EReal) (acc : ι → EReal) : Prop :=
  ∃ μ : ℝ, m = (μ : EReal) ∧ l = ((den S n μ : ℝ) : EReal) ∧ ∀ e, acc e = ((num S V n μ e : ℝ) : EReal)

/-- The first block, from m = ⊥, l = 0, acc = 0: the factor exp (⊥ - m') is 0. -/
theorem first_block (S : ℕ → Fin B → ℝ) (V : ℕ → Fin B → ι → ℝ) (hB : 0 < B)
    (s : Fin B → EReal) (hs : ∀ k, s k = (S 0 k : EReal))
    (one : Fin B → EReal) (hone : ∀ k, one k = 1)
    (w : Fin B → ι → EReal) (hw : ∀ k e, w k e = (V 0 k e : EReal))
    (mn : EReal) (hmn : mn = max ⊥ ((Finset.univ : Finset (Fin B)).fold max ⊥ s)) :
    Inv S V 1 mn (Ideal.exp (⊥ - mn) * 0 + ∑ k, Ideal.exp (s k - mn) * one k)
      (fun e => Ideal.exp (⊥ - mn) * 0 + ∑ k, Ideal.exp (s k - mn) * w k e) := by
  obtain ⟨Mb, hMb⟩ := Attn.rowMax_real (S 0) ⟨0, hB⟩
  have hs' : s = fun k => (S 0 k : EReal) := funext hs
  have hmn' : mn = (Mb : EReal) := by
    rw [hmn, hs']; unfold Attn.rowMax at hMb; rw [hMb]; exact max_eq_right bot_le
  refine ⟨Mb, hmn', ?_, fun e => ?_⟩
  · rw [hmn', EReal.bot_sub, Ideal.exp_bot, mul_zero, zero_add, den_succ]
    unfold den
    rw [Finset.range_zero, Finset.sum_empty, zero_add, Attn.coe_sum]
    refine Finset.sum_congr rfl fun k _ => ?_
    rw [hs k, hone k, mul_one, ← EReal.coe_sub, Ideal.exp_coe]
  · show Ideal.exp (⊥ - mn) * 0 + ∑ k, Ideal.exp (s k - mn) * w k e = _
    rw [hmn', EReal.bot_sub, Ideal.exp_bot, mul_zero, zero_add, num_succ]
    unfold num
    rw [Finset.range_zero, Finset.sum_empty, zero_add, Attn.coe_sum]
    refine Finset.sum_congr rfl fun k _ => ?_
    rw [hs k, hw k e, ← EReal.coe_sub, Ideal.exp_coe, ← EReal.coe_mul]

/-- A later block: the old weights are rescaled to the new maximum and the block's are added. -/
theorem next_block (S : ℕ → Fin B → ℝ) (V : ℕ → Fin B → ι → ℝ) (hB : 0 < B) (n : ℕ)
    (s : Fin B → EReal) (hs : ∀ k, s k = (S n k : EReal))
    (one : Fin B → EReal) (hone : ∀ k, one k = 1)
    (w : Fin B → ι → EReal) (hw : ∀ k e, w k e = (V n k e : EReal))
    (m l : EReal) (acc : ι → EReal) (hinv : Inv S V n m l acc)
    (mn : EReal) (hmn : mn = max m ((Finset.univ : Finset (Fin B)).fold max ⊥ s)) :
    Inv S V (n + 1) mn (Ideal.exp (m - mn) * l + ∑ k, Ideal.exp (s k - mn) * one k)
      (fun e => Ideal.exp (m - mn) * acc e + ∑ k, Ideal.exp (s k - mn) * w k e) := by
  obtain ⟨μ, hm, hl, hacc⟩ := hinv
  obtain ⟨Mb, hMb⟩ := Attn.rowMax_real (S n) ⟨0, hB⟩
  have hs' : s = fun k => (S n k : EReal) := funext hs
  have hmn' : mn = ((max μ Mb : ℝ) : EReal) := by
    rw [hmn, hs', hm]; unfold Attn.rowMax at hMb; rw [hMb]
    exact (EReal.coe_strictMono.monotone.map_max).symm
  refine ⟨max μ Mb, hmn', ?_, fun e => ?_⟩
  · rw [hm, hmn', hl, den_succ, ← den_shift S n μ (max μ Mb), EReal.coe_add, EReal.coe_mul, Attn.coe_sum,
      ← EReal.coe_sub, Ideal.exp_coe]
    congr 1
    refine Finset.sum_congr rfl fun k _ => ?_
    rw [hs k, hone k, mul_one, ← EReal.coe_sub, Ideal.exp_coe]
  · show Ideal.exp (m - mn) * acc e + ∑ k, Ideal.exp (s k - mn) * w k e = _
    rw [hm, hmn', hacc e, num_succ, ← num_shift S V n μ (max μ Mb) e, EReal.coe_add, EReal.coe_mul, Attn.coe_sum,
      ← EReal.coe_sub, Ideal.exp_coe]
    congr 1
    refine Finset.sum_congr rfl fun k _ => ?_
    rw [hs k, hw k e, ← EReal.coe_sub, Ideal.exp_coe, ← EReal.coe_mul]

/-- The final quotient is the weighted mean of the values at ANY real shift M. -/
theorem quotient (S : ℕ → Fin B → ℝ) (V : ℕ → Fin B → ι → ℝ) (hB : 0 < B) (n : ℕ) (hn : 0 < n)
    (m l : EReal) (acc : ι → EReal) (hinv : Inv S V n m l acc) (M : ℝ) (e : ι) :
    Ideal.div (acc e) l = ((num S V n M e / den S n M : ℝ) : EReal) := by
  obtain ⟨μ, _, hl, hacc⟩ := hinv
  have hpos := den_pos S n μ hn hB
  rw [hl, hacc e, Ideal.div_coe hpos.ne', ← EReal.coe_mul]
  congr 1
  rw [← den_shift S n μ M, ← num_shift S V n μ M e, mul_div_mul_left _ _ (Real.exp_pos _).ne']
  ring

end OnlineSoftmax

end
-- ==== Proof.LibGroupedSum.lean ====
/-
  Grouping a finite sum.

  A sum over `K = J * B` consecutive coordinates equals the sum, over the `J` groups of `B` consecutive
  coordinates, of each group's sum: coordinate `kk` of group `s` is the coordinate `s * B + kk` of the whole range.
  Only associativity and commutativity of the addition enter, so the law holds in any commutative additive monoid —
  in particular on the extended reals, with no finiteness assumption.
-/
import Idealize.ShloMosaic.Lib.ValueIdx

namespace GroupedSum

/-- Coordinate `kk` of group `s` lies below `K = J * B`. -/
theorem group_lt {J B K : ℕ} (h : J * B = K) (s : Fin J) (kk : Fin B) : s.val * B + kk.val < K := by
  have h1 : s.val * B + kk.val < (s.val + 1) * B := by
    rw [Nat.succ_mul]; exact Nat.add_lt_add_left kk.isLt _
  have h2 : (s.val + 1) * B ≤ J * B := Nat.mul_le_mul_right B s.isLt
  rw [← h]; exact lt_of_lt_of_le h1 h2

/-- The sum over the whole range is the sum of the groups' sums. -/
theorem sum_groups {β : Type*} [AddCommMonoid β] {J B K : ℕ} (h : J * B = K) (f : Fin K → β) :
    ∑ k : Fin K, f k = ∑ s : Fin J, ∑ kk : Fin B, f ⟨s.val * B + kk.val, group_lt h s kk⟩ := by
  subst h
  rw [← Equiv.sum_comp finProdFinEquiv f, Fintype.sum_prod_type]
  refine Finset.sum_congr rfl fun s _ => Finset.sum_congr rfl fun kk _ => congrArg f (Fin.ext ?_)
  show kk.val + B * s.val = s.val * B + kk.val
  rw [Nat.mul_comm, Nat.add_comm]

end GroupedSum
-- ==== Proof.LibBlockedSoftmax.lean ====
/-
  A plain softmax-weighted mean over T = J * B columns, read block by block.

  One program computes, for a row of real scores Sc over T columns and real values Vc,

      ∑ c, (exp (s c - mx) / (0 + ∑ c', exp (s c' - mx))) * v c     with mx = max ⊥ (the largest score),

  dividing every weight by the weight sum before the weighted sum is taken. On the extended reals, for real data,
  this is the real number (∑ c, exp (Sc c - M) * Vc c) / (∑ c, exp (Sc c - M)) with M the real maximum; grouping the
  T columns into J blocks of B (column kk of block j is column j * B + kk) and cancelling the common factor
  exp (M - 0) of numerator and denominator, it is the quotient of the blocked sums at shift 0 — the form the
  block-by-block accumulation ends with (whose own shift cancels the same way).
-/
import proofs.«174840_j29523605193128_2_alg».proof.Proof.LibOnlineSoftmax
import proofs.«174840_j29523605193128_2_alg».proof.Proof.LibGroupedSum

noncomputable section

namespace BlockedSoftmax

open Idealize.ShloMosaic

variable {ι : Type}

/-- Column kk of block j among T columns (wrapped below T, which changes nothing while j * B + kk < T). -/
def col (B T : ℕ) (hT : 0 < T) (j : ℕ) (kk : Fin B) : Fin T := ⟨(j * B + kk.val) % T, Nat.mod_lt _ hT⟩

theorem col_of_lt {J B T : ℕ} (h : J * B = T) (hT : 0 < T) (j : Fin J) (kk : Fin B) :
    col B T hT j.val kk = ⟨j.val * B + kk.val, GroupedSum.group_lt h j kk⟩ :=
  Fin.ext (Nat.mod_eq_of_lt (GroupedSum.group_lt h j kk))

theorem col_val {B T : ℕ} (hT : 0 < T) (j : ℕ) (kk : Fin B) (hlt : j * B + kk.val < T) :
    (col B T hT j kk).val = j * B + kk.val := Nat.mod_eq_of_lt hlt

/-- A real sum over all T columns is the sum over the J blocks of the block sums. -/
theorem sum_cols {J B T : ℕ} (h : J * B = T) (hT : 0 < T) (f : Fin T → ℝ) :
    ∑ c : Fin T, f c = ∑ j ∈ Finset.range J, ∑ kk : Fin B, f (col B T hT j kk) := by
  rw [GroupedSum.sum_groups h f, ← Fin.sum_univ_eq_sum_range (fun j => ∑ kk : Fin B, f (col B T hT j kk)) J]
  refine Finset.sum_congr rfl fun j _ => Finset.sum_congr rfl fun kk _ => ?_
  rw [col_of_lt h hT j kk]

/-- The divide-early softmax-weighted mean of real data is the blocked quotient at shift 0. -/
theorem plain_eq_blocked {J B T : ℕ} (h : J * B = T) (hT : 0 < T)
    (Sc : Fin T → ℝ) (Vc : Fin T → ι → ℝ) (e : ι)
    (s : Fin T → EReal) (hs : ∀ c, s c = (Sc c : EReal))
    (v : Fin T → EReal) (hv : ∀ c, v c = (Vc c e : EReal))
    (mx : EReal) (hmx : mx = max ⊥ ((Finset.univ : Finset (Fin T)).fold max ⊥ s))
    (z : EReal) (hz : z = 0) :
    ∑ c, Ideal.div (Ideal.exp (s c - mx)) (z + ∑ c', Ideal.exp (s c' - mx)) * v c
      = ((OnlineSoftmax.num (fun j kk => Sc (col B T hT j kk)) (fun j kk e => Vc (col B T hT j kk) e) J 0 e
          / OnlineSoftmax.den (fun j kk => Sc (col B T hT j kk)) J 0 : ℝ) : EReal) := by
  obtain ⟨M, hM⟩ := Attn.rowMax_real Sc ⟨0, hT⟩
  have hs' : s = fun c => (Sc c : EReal) := funext hs
  have hmx' : mx = (M : EReal) := by
    rw [hmx, hs']; unfold Attn.rowMax at hM; rw [hM]; exact max_eq_right bot_le
  have hw : ∀ c, Ideal.exp (s c - mx) = ((Real.exp (Sc c - M) : ℝ) : EReal) := fun c => by
    rw [hs c, hmx', ← EReal.coe_sub, Ideal.exp_coe]
  obtain ⟨D, hD⟩ : ∃ D : ℝ, D = ∑ c, Real.exp (Sc c - M) := ⟨_, rfl⟩
  have hDpos : 0 < D := by
    rw [hD]; exact Finset.sum_pos (fun c _ => Real.exp_pos _) ⟨⟨0, hT⟩, Finset.mem_univ _⟩
  have hden : z + ∑ c', Ideal.exp (s c' - mx) = (D : EReal) := by
    rw [hz, zero_add, hD, Attn.coe_sum]; exact Finset.sum_congr rfl fun c _ => hw c
  rw [hden]
  have hterm : ∀ c, Ideal.div (Ideal.exp (s c - mx)) (D : EReal) * v c
      = ((Real.exp (Sc c - M) * (1 / D) * Vc c e : ℝ) : EReal) := fun c => by
    rw [Ideal.div_coe hDpos.ne', hw c, hv c, ← EReal.coe_mul, ← EReal.coe_mul]
  rw [Finset.sum_congr rfl fun c _ => hterm c, ← Attn.coe_sum]
  congr 1
  have hN : ∑ c, Real.exp (Sc c - M) * (1 / D) * Vc c e = (∑ c, Real.exp (Sc c - M) * Vc c e) / D := by
    rw [Finset.sum_div]; exact Finset.sum_congr rfl fun c _ => by ring
  rw [hN, hD, sum_cols h hT (fun c => Real.exp (Sc c - M) * Vc c e), sum_cols h hT (fun c => Real.exp (Sc c - M))]
  show OnlineSoftmax.num (fun j kk => Sc (col B T hT j kk)) (fun j kk e => Vc (col B T hT j kk) e) J M e
      / OnlineSoftmax.den (fun j kk => Sc (col B T hT j kk)) J M = _
  rw [← OnlineSoftmax.den_shift _ J M 0, ← OnlineSoftmax.num_shift _ _ J M 0 e,
    mul_div_mul_left _ _ (Real.exp_pos _).ne']

end BlockedSoftmax

end
-- ==== Proof.CausalSpec.lean ====
/-
  Causal attention with a ZERO (not minus-infinity) mask, as one function of three real arrays q, k, v of shape
  [4, 2048, 1024] (the projected queries, keys and values).

  The score of query row r against key row c of batch b is the inner product of the two rows where c ≤ r and 0
  elsewhere, times 1/32. The output at (b, r, e) is the softmax-weighted mean over ALL 2048 key rows of v (b, ·, e);
  it is written here as the quotient of the weighted sum by the weight sum, both at shift 0 and both grouped into the
  4 key tiles of 512 rows — the form in which the tile-by-tile accumulation ends and to which the plain
  divide-early softmax reduces for real data.
-/
import proofs.«174840_j29523605193128_2_alg».proof.Proof.LibBlockedSoftmax
import Idealize.ShloMosaic.Lib.ValueIdx

noncomputable section

namespace CausalAttn

open Idealize.ShloMosaic Idealize.ShloMosaic.ValueIdx

/-- Key row kk of key tile j. -/
abbrev colOf (j : ℕ) (kk : Fin 512) : Fin 2048 := BlockedSoftmax.col 512 2048 (by decide) j kk

/-- The masked, scaled score. -/
def score (q k : (⟨3, ![4, 2048, 1024]⟩ : Shape).Idx → ℝ) (b : Fin 4) (r c : Fin 2048) : ℝ :=
  (if c.val ≤ r.val then ∑ e : Fin 1024, q (ix3 b r e) * k (ix3 b c e) else 0) * (1 / 32)

/-- The scores of row r against the rows of key tile j, and that tile's values. -/
def tileScore (q k : (⟨3, ![4, 2048, 1024]⟩ : Shape).Idx → ℝ) (b : Fin 4) (r : Fin 2048) : ℕ → Fin 512 → ℝ :=
  fun j kk => score q k b r (colOf j kk)
def tileValue (v : (⟨3, ![4, 2048, 1024]⟩ : Shape).Idx → ℝ) (b : Fin 4) : ℕ → Fin 512 → Fin 1024 → ℝ :=
  fun j kk e => v (ix3 b (colOf j kk) e)

/-- The attention output at (b, r, e). -/
def outAt (q k v : (⟨3, ![4, 2048, 1024]⟩ : Shape).Idx → ℝ) (b : Fin 4) (r : Fin 2048) (e : Fin 1024) : ℝ :=
  OnlineSoftmax.num (tileScore q k b r) (tileValue v b) 4 0 e / OnlineSoftmax.den (tileScore q k b r) 4 0

/-- The whole output array on the extended reals. -/
def out (q k v : (⟨3, ![4, 2048, 1024]⟩ : Shape).Idx → ℝ) : (⟨3, ![4, 2048, 1024]⟩ : Shape).Idx → EReal :=
  fun i => ((outAt q k v (i 0) (i 1) (i 2) : ℝ) : EReal)

theorem out_ix3 (q k v : (⟨3, ![4, 2048, 1024]⟩ : Shape).Idx → ℝ) (b : Fin 4) (r : Fin 2048) (e : Fin 1024) :
    out q k v (ix3 b r e) = ((outAt q k v b r e : ℝ) : EReal) := rfl

/-- The f32 word of 32.0 denotes the real 32. -/
theorem ofBits_32 : Ideal.ofBits .f32 0x42000000#32 = ((32 : ℝ) : EReal) := by
  simp [Ideal.ofBits, Ideal.ieee, -EReal.coe_mul]; norm_num

end CausalAttn

end
-- ==== Proof.AttnInduct.lean ====
/-
  The carried scratch contents are the tile-by-tile softmax accumulation of the specification.
  Position n of the grid (4, 2, 4) is batch n / 8, query tile n / 4 mod 2, key tile n mod 4. For row p of the query tile,
  after the point at position n the running maximum, sum and weighted sums are those of the first n mod 4 + 1 key tiles of
  row (n / 4 mod 2) * 1024 + p of that batch: at a first key tile by the first-block law from -inf, 0, 0; at a later one by
  the next-block law from what position n - 1 left, which lies in the same batch and query tile.
-/
import proofs.«174840_j29523605193128_2_alg».proof.Proof.AttnRow
import proofs.«174840_j29523605193128_2_alg».proof.Proof.CausalSpec

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat)
open Cert.KernelIdeal Cert.KernelIdeal.Gen

/-- The grid's coordinates and the windows' block indices at a position. -/
theorem attnCoords : ∀ t : Fin cfg1.N,
    ((grid1.coords t) 0).val = t.val / 8 ∧ ((grid1.coords t) 1).val = t.val / 4 % 2 ∧ ((grid1.coords t) 2).val = t.val % 4 :=
  (by decide +kernel : ∀ t : Fin grid1.N, _)
theorem attnIdx : ∀ t : Fin cfg1.N,
    win1_0.index t (0 : Fin 3) = t.val / 8 ∧ win1_0.index t (1 : Fin 3) = t.val / 4 % 2 ∧ win1_0.index t (2 : Fin 3) = 0
    ∧ win1_1.index t (0 : Fin 3) = t.val / 8 ∧ win1_1.index t (1 : Fin 3) = t.val % 4 ∧ win1_1.index t (2 : Fin 3) = 0
    ∧ win1_2.index t (0 : Fin 3) = t.val / 8 ∧ win1_2.index t (1 : Fin 3) = t.val % 4 ∧ win1_2.index t (2 : Fin 3) = 0
    ∧ win1_3.index t (0 : Fin 3) = t.val / 8 ∧ win1_3.index t (1 : Fin 3) = t.val / 4 % 2 ∧ win1_3.index t (2 : Fin 3) = 0 :=
  (by decide +kernel : ∀ t : Fin grid1.N, _)

section
variable (V : (c : Dev nD) → (b : Ref sig .tc) → Buf (Elt Ideal) ((c : Thread nD τ).loc b)) (c : Dev nD)

/-- The query tile's row p is row (query tile) * 1024 + p of the batch; a key or value tile's row kk is row (key tile) * 512 + kk. -/
theorem qTile_apply (t : Fin cfg1.N) (p : Fin 1024) (e : Fin 1024) (b : Fin 4) (r : Fin 2048) (hb : b.val = t.val / 8)
    (hr : r.val = t.val / 4 % 2 * 1024 + p.val) :
    attnBlk V c 0 t (ix3 (0 : Fin 1) p e) = (V c main_v10 : S4x2048x1024.Idx → EReal) (ix3 b r e) := by
  obtain ⟨a00, a01, a02, a10, a11, a12, a20, a21, a22, a30, a31, a32⟩ := attnIdx t
  show (V c main_v10 : S4x2048x1024.Idx → EReal) (((cfg1.win 0).blk t).view.emb (ix3 (0 : Fin 1) p e)) = _
  refine congrArg _ (funext fun a => Fin.ext ?_)
  match a with
  | ⟨0, _⟩ => show win1_0.index t (0 : Fin 3) * 1 + 1 * 0 = b.val; omega
  | ⟨1, _⟩ => show win1_0.index t (1 : Fin 3) * 1024 + 1 * p.val = r.val; omega
  | ⟨2, _⟩ => show win1_0.index t (2 : Fin 3) * 1024 + 1 * e.val = e.val; omega
theorem kTile_apply (t : Fin cfg1.N) (kk : Fin 512) (e : Fin 1024) (b : Fin 4) (cc : Fin 2048) (hb : b.val = t.val / 8)
    (hc : cc.val = t.val % 4 * 512 + kk.val) :
    attnBlk V c 1 t (ix3 (0 : Fin 1) kk e) = (V c main_v11 : S4x2048x1024.Idx → EReal) (ix3 b cc e) := by
  obtain ⟨a00, a01, a02, a10, a11, a12, a20, a21, a22, a30, a31, a32⟩ := attnIdx t
  show (V c main_v11 : S4x2048x1024.Idx → EReal) (((cfg1.win 1).blk t).view.emb (ix3 (0 : Fin 1) kk e)) = _
  refine congrArg _ (funext fun a => Fin.ext ?_)
  match a with
  | ⟨0, _⟩ => show win1_1.index t (0 : Fin 3) * 1 + 1 * 0 = b.val; omega
  | ⟨1, _⟩ => show win1_1.index t (1 : Fin 3) * 512 + 1 * kk.val = cc.val; omega
  | ⟨2, _⟩ => show win1_1.index t (2 : Fin 3) * 1024 + 1 * e.val = e.val; omega
theorem vTile_apply (t : Fin cfg1.N) (kk : Fin 512) (e : Fin 1024) (b : Fin 4) (cc : Fin 2048) (hb : b.val = t.val / 8)
    (hc : cc.val = t.val % 4 * 512 + kk.val) :
    attnBlk V c 2 t (ix3 (0 : Fin 1) kk e) = (V c main_v12 : S4x2048x1024.Idx → EReal) (ix3 b cc e) := by
  obtain ⟨a00, a01, a02, a10, a11, a12, a20, a21, a22, a30, a31, a32⟩ := attnIdx t
  show (V c main_v12 : S4x2048x1024.Idx → EReal) (((cfg1.win 2).blk t).view.emb (ix3 (0 : Fin 1) kk e)) = _
  refine congrArg _ (funext fun a => Fin.ext ?_)
  match a with
  | ⟨0, _⟩ => show win1_2.index t (0 : Fin 3) * 1 + 1 * 0 = b.val; omega
  | ⟨1, _⟩ => show win1_2.index t (1 : Fin 3) * 512 + 1 * kk.val = cc.val; omega
  | ⟨2, _⟩ => show win1_2.index t (2 : Fin 3) * 1024 + 1 * e.val = e.val; omega

/-- Row p's running maximum, running sum and running weighted sums after position n; its scores at position n. -/
def rowM (n : ℕ) (hn : n < cfg1.N) (p : Fin 1024) : EReal := (carried V c n hn).2.1 (ix2 p (0 : Fin 1))
def rowL (n : ℕ) (hn : n < cfg1.N) (p : Fin 1024) : EReal := (carried V c n hn).2.2.1 (ix2 p (0 : Fin 1))
def rowA (n : ℕ) (hn : n < cfg1.N) (p : Fin 1024) (e : Fin 1024) : EReal := (carried V c n hn).2.2.2 (ix2 p e)
def rowS (n : ℕ) (hn : n < cfg1.N) (p : Fin 1024) (kk : Fin 512) : EReal :=
  k1_pay9 (F := Ideal) (grid1.coords ⟨n, hn⟩) (attnBlk V c 0 ⟨n, hn⟩) (attnBlk V c 1 ⟨n, hn⟩) (ix2 p kk)

/-- At a first key tile the accumulation starts from -inf, 0, 0. -/
theorem row_first (n : ℕ) (hn : n < cfg1.N) (h0 : n % 4 = 0) (p : Fin 1024) :
    rowM V c n hn p = max ⊥ ((Finset.univ : Finset (Fin 512)).fold max ⊥ (rowS V c n hn p))
    ∧ rowL V c n hn p = Ideal.exp (⊥ - rowM V c n hn p) * 0 + ∑ kk : Fin 512, Ideal.exp (rowS V c n hn p kk - rowM V c n hn p)
    ∧ ∀ e : Fin 1024, rowA V c n hn p e = Ideal.exp (⊥ - rowM V c n hn p) * 0
        + ∑ kk : Fin 512, Ideal.exp (rowS V c n hn p kk - rowM V c n hn p) * attnBlk V c 2 ⟨n, hn⟩ (ix3 (0 : Fin 1) kk e) := by
  have hN : n < 32 := lt_of_lt_of_eq hn (show cfg1.N = 32 from N_1)
  have hc0 : condFirst (grid1.coords ⟨n, hn⟩) := (condFirst_iff ⟨n, hn⟩).mpr h0
  have hc1 : ¬condLast (grid1.coords ⟨n, hn⟩) := fun h => by have h' : n % 4 = 3 := (condLast_iff ⟨n, hn⟩).mp h; omega
  have hcar : carried V c n hn = leftAt_A V c ⟨n, hn⟩ hc0 hc1 := carried_A V c ⟨n, hn⟩ h0 hc0 hc1
  unfold rowM rowL rowA rowS
  rw [hcar]
  unfold leftAt_A
  dsimp only
  rw [leftA7_eq, leftA8_eq, leftA9_eq]
  refine ⟨?_, ?_, fun e => ?_⟩
  · rw [stepM_apply, resetM_apply]
  · rw [stepL_apply, resetM_apply, resetL_apply]
  · rw [stepA_apply, resetM_apply, resetA_apply]

/-- At a later key tile it continues from what the position before left. -/
theorem row_next (n : ℕ) (hn : n < cfg1.N) (h0 : ¬n % 4 = 0) (hp : n - 1 < cfg1.N) (p : Fin 1024) :
    rowM V c n hn p = max (rowM V c (n - 1) hp p) ((Finset.univ : Finset (Fin 512)).fold max ⊥ (rowS V c n hn p))
    ∧ rowL V c n hn p = Ideal.exp (rowM V c (n - 1) hp p - rowM V c n hn p) * rowL V c (n - 1) hp p
        + ∑ kk : Fin 512, Ideal.exp (rowS V c n hn p kk - rowM V c n hn p)
    ∧ ∀ e : Fin 1024, rowA V c n hn p e = Ideal.exp (rowM V c (n - 1) hp p - rowM V c n hn p) * rowA V c (n - 1) hp p e
        + ∑ kk : Fin 512, Ideal.exp (rowS V c n hn p kk - rowM V c n hn p) * attnBlk V c 2 ⟨n, hn⟩ (ix3 (0 : Fin 1) kk e) := by
  have hc0 : ¬condFirst (grid1.coords ⟨n, hn⟩) := fun h => h0 ((condFirst_iff ⟨n, hn⟩).mp h)
  unfold rowM rowL rowA rowS
  by_cases h1 : n % 4 = 3
  · have hc1 : condLast (grid1.coords ⟨n, hn⟩) := (condLast_iff ⟨n, hn⟩).mpr h1
    have hcar : carried V c n hn = leftAt_C V c ⟨n, hn⟩ hc0 hc1 (carried V c (n - 1) hp) := carried_C V c ⟨n, hn⟩ h0 h1 hc0 hc1
    rw [hcar]
    unfold leftAt_C
    dsimp only
    rw [leftC7_eq, leftC8_eq, leftC9_eq]
    refine ⟨?_, ?_, fun e => ?_⟩
    · rw [stepM_apply]
    · rw [stepL_apply]
    · rw [stepA_apply]
  · have hc1 : ¬condLast (grid1.coords ⟨n, hn⟩) := fun h => h1 ((condLast_iff ⟨n, hn⟩).mp h)
    have hcar : carried V c n hn = leftAt_B V c ⟨n, hn⟩ hc0 hc1 (carried V c (n - 1) hp) := carried_B V c ⟨n, hn⟩ h0 h1 hc0 hc1
    rw [hcar]
    unfold leftAt_B
    dsimp only
    rw [leftB7_eq, leftB8_eq, leftB9_eq]
    refine ⟨?_, ?_, fun e => ?_⟩
    · rw [stepM_apply]
    · rw [stepL_apply]
    · rw [stepA_apply]

/-- At a last key tile the output tile's buffer holds the quotient of the row's weighted sums by its sum. -/
theorem row_out (n : ℕ) (hn : n < cfg1.N) (h1 : n % 4 = 3) (p : Fin 1024) (e : Fin 1024) :
    (carried V c n hn).1 (ix3 (0 : Fin 1) p e) = Ideal.div (rowA V c n hn p e) (rowL V c n hn p) := by
  have h0 : ¬n % 4 = 0 := by omega
  have hN : n < 32 := lt_of_lt_of_eq hn (show cfg1.N = 32 from N_1)
  have hc0 : ¬condFirst (grid1.coords ⟨n, hn⟩) := fun h => h0 ((condFirst_iff ⟨n, hn⟩).mp h)
  have hc1 : condLast (grid1.coords ⟨n, hn⟩) := (condLast_iff ⟨n, hn⟩).mpr h1
  have hcar : carried V c n hn = leftAt_C V c ⟨n, hn⟩ hc0 hc1 (carried V c (n - 1) (by omega)) := carried_C V c ⟨n, hn⟩ h0 h1 hc0 hc1
  unfold rowA rowL
  rw [hcar]
  unfold leftAt_C
  dsimp only
  rw [leftC6_eq, leftC8_eq, leftC9_eq, outTile_apply]

variable (qr kr vr : S4x2048x1024.Idx → ℝ)
variable (hq : ∀ j, (V c main_v10 : S4x2048x1024.Idx → EReal) j = ((qr j : ℝ) : EReal))
  (hk : ∀ j, (V c main_v11 : S4x2048x1024.Idx → EReal) j = ((kr j : ℝ) : EReal))
  (hv : ∀ j, (V c main_v12 : S4x2048x1024.Idx → EReal) j = ((vr j : ℝ) : EReal))

include hq hk in
/-- The row's scores at position n are the specification's scores against key tile n mod 4. -/
theorem rowS_real (n : ℕ) (hn : n < cfg1.N) (p : Fin 1024) (kk : Fin 512) (b : Fin 4) (r : Fin 2048) (hb : b.val = n / 8)
    (hr : r.val = n / 4 % 2 * 1024 + p.val) (j : ℕ) (hj : j = n % 4) :
    rowS V c n hn p kk = ((CausalAttn.tileScore qr kr b r j kk : ℝ) : EReal) := by
  subst hj
  have hN : n < 32 := lt_of_lt_of_eq hn (show cfg1.N = 32 from N_1)
  obtain ⟨g0, g1, g2⟩ := attnCoords ⟨n, hn⟩
  have hkk := kk.isLt
  have hcol : (CausalAttn.colOf (n % 4) kk).val = n % 4 * 512 + kk.val := BlockedSoftmax.col_val _ _ _ (by omega)
  unfold rowS
  rw [scoreTile_apply]
  unfold CausalAttn.tileScore CausalAttn.score
  rw [EReal.coe_mul]
  congr 1
  rw [g1, g2]
  by_cases h : n % 4 * 512 + kk.val ≤ n / 4 % 2 * 1024 + p.val
  · rw [if_pos h, if_pos (by rw [hcol, hr]; exact h), Attn.coe_sum]
    refine Finset.sum_congr rfl fun e _ => ?_
    rw [qTile_apply V c ⟨n, hn⟩ p e b r hb hr, kTile_apply V c ⟨n, hn⟩ kk e b (CausalAttn.colOf (n % 4) kk) hb hcol, hq, hk, EReal.coe_mul]
  · rw [if_neg h, if_neg (by rw [hcol, hr]; exact h), EReal.coe_zero]

include hv in
theorem rowV_real (n : ℕ) (hn : n < cfg1.N) (kk : Fin 512) (e : Fin 1024) (b : Fin 4) (hb : b.val = n / 8) (j : ℕ) (hj : j = n % 4) :
    attnBlk V c 2 ⟨n, hn⟩ (ix3 (0 : Fin 1) kk e) = ((CausalAttn.tileValue vr b j kk e : ℝ) : EReal) := by
  subst hj
  have hN : n < 32 := lt_of_lt_of_eq hn (show cfg1.N = 32 from N_1)
  have hkk := kk.isLt
  have hcol : (CausalAttn.colOf (n % 4) kk).val = n % 4 * 512 + kk.val := BlockedSoftmax.col_val _ _ _ (by omega)
  unfold CausalAttn.tileValue
  rw [vTile_apply V c ⟨n, hn⟩ kk e b (CausalAttn.colOf (n % 4) kk) hb hcol, hv]

include hq hk hv in
/-- THE INVARIANT, at every position. -/
theorem carried_inv : ∀ (n : ℕ) (hn : n < cfg1.N) (p : Fin 1024) (b : Fin 4) (r : Fin 2048), b.val = n / 8 → r.val = n / 4 % 2 * 1024 + p.val →
    OnlineSoftmax.Inv (CausalAttn.tileScore qr kr b r) (CausalAttn.tileValue vr b) (n % 4 + 1)
      (rowM V c n hn p) (rowL V c n hn p) (fun e => rowA V c n hn p e) := by
  intro n
  induction n with
  | zero =>
    intro hn p b r hb hr
    obtain ⟨eM, eL, eA⟩ := row_first V c 0 hn rfl p
    have hfb := OnlineSoftmax.first_block (CausalAttn.tileScore qr kr b r) (CausalAttn.tileValue vr b) (by norm_num : 0 < 512)
      (rowS V c 0 hn p) (fun kk => rowS_real V c qr kr hq hk 0 hn p kk b r hb hr 0 rfl) (fun _ => 1) (fun _ => rfl)
      (fun kk e => attnBlk V c 2 ⟨0, hn⟩ (ix3 (0 : Fin 1) kk e)) (fun kk e => rowV_real V c vr hv 0 hn kk e b hb 0 rfl)
      (rowM V c 0 hn p) eM
    simp only [mul_one] at hfb
    rw [eL, show (fun e => rowA V c 0 hn p e) = _ from funext eA]
    exact hfb
  | succ n ih =>
    intro hn p b r hb hr
    have hN : n + 1 < 32 := lt_of_lt_of_eq hn (show cfg1.N = 32 from N_1)
    by_cases h0 : (n + 1) % 4 = 0
    · obtain ⟨eM, eL, eA⟩ := row_first V c (n + 1) hn h0 p
      have hfb := OnlineSoftmax.first_block (CausalAttn.tileScore qr kr b r) (CausalAttn.tileValue vr b) (by norm_num : 0 < 512)
        (rowS V c (n + 1) hn p) (fun kk => rowS_real V c qr kr hq hk (n + 1) hn p kk b r hb hr 0 h0.symm) (fun _ => 1) (fun _ => rfl)
        (fun kk e => attnBlk V c 2 ⟨n + 1, hn⟩ (ix3 (0 : Fin 1) kk e)) (fun kk e => rowV_real V c vr hv (n + 1) hn kk e b hb 0 h0.symm)
        (rowM V c (n + 1) hn p) eM
      simp only [mul_one] at hfb
      rw [show (n + 1) % 4 + 1 = 1 by omega, eL, show (fun e => rowA V c (n + 1) hn p e) = _ from funext eA]
      exact hfb
    · have hp : n + 1 - 1 < cfg1.N := by rw [show cfg1.N = 32 from N_1]; omega
      obtain ⟨eM, eL, eA⟩ := row_next V c (n + 1) hn h0 hp p
      have hprev := ih (Nat.lt_of_succ_lt hn) p b r (by omega) (by omega)
      have hnb := OnlineSoftmax.next_block (CausalAttn.tileScore qr kr b r) (CausalAttn.tileValue vr b) (by norm_num : 0 < 512) (n % 4 + 1)
        (rowS V c (n + 1) hn p) (fun kk => rowS_real V c qr kr hq hk (n + 1) hn p kk b r hb hr (n % 4 + 1) (by omega)) (fun _ => 1) (fun _ => rfl)
        (fun kk e => attnBlk V c 2 ⟨n + 1, hn⟩ (ix3 (0 : Fin 1) kk e)) (fun kk e => rowV_real V c vr hv (n + 1) hn kk e b hb (n % 4 + 1) (by omega))
        (rowM V c n (Nat.lt_of_succ_lt hn) p) (rowL V c n (Nat.lt_of_succ_lt hn) p) (fun e => rowA V c n (Nat.lt_of_succ_lt hn) p e) hprev
        (rowM V c (n + 1) hn p) eM
      simp only [mul_one] at hnb
      rw [show (n + 1) % 4 + 1 = n % 4 + 1 + 1 by omega, eL, show (fun e => rowA V c (n + 1) hn p e) = _ from funext eA]
      exact hnb

include hq hk hv in
/-- So what a last key tile stores is the specification's output. -/
theorem out_spec (n : ℕ) (hn : n < cfg1.N) (h1 : n % 4 = 3) (p : Fin 1024) (e : Fin 1024) (b : Fin 4) (r : Fin 2048)
    (hb : b.val = n / 8) (hr : r.val = n / 4 % 2 * 1024 + p.val) :
    (carried V c n hn).1 (ix3 (0 : Fin 1) p e) = CausalAttn.out qr kr vr (ix3 b r e) := by
  rw [row_out V c n hn h1 p e, CausalAttn.out_ix3]
  have hinv := carried_inv V c qr kr vr hq hk hv n hn p b r hb hr
  rw [show n % 4 + 1 = 4 by omega] at hinv
  exact OnlineSoftmax.quotient _ _ (by norm_num : 0 < 512) 4 (by norm_num) _ _ _ hinv 0 e

end

end Cert.KernelIdeal.Hand

end
-- ==== Proof.AttnFinal.lean ====
/-
  What the attention region leaves in its output array. Only a last key tile writes the output tile back: the point at
  position 8 b + 4 qt + 3 writes rows 1024 qt … 1024 qt + 1023 of batch b, each entry the specification's output; those
  eight points cover the array.
-/
import proofs.«174840_j29523605193128_2_alg».proof.Proof.AttnInduct
import Idealize.ShloMosaic.Lib.Pipeline.Value

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat)
open Cert.KernelIdeal Cert.KernelIdeal.Gen

section
variable (V : (c : Dev nD) → (b : Ref sig .tc) → Buf (Elt Ideal) ((c : Thread nD τ).loc b)) (c : Dev nD)
variable (qr kr vr : S4x2048x1024.Idx → ℝ)
variable (hq : ∀ j, (V c main_v10 : S4x2048x1024.Idx → EReal) j = ((qr j : ℝ) : EReal))
  (hk : ∀ j, (V c main_v11 : S4x2048x1024.Idx → EReal) j = ((kr j : ℝ) : EReal))
  (hv : ∀ j, (V c main_v12 : S4x2048x1024.Idx → EReal) j = ((vr j : ℝ) : EReal))

include hq hk hv in
/-- What a writing point writes back is its block of the specification's output. -/
theorem attnFlushed (t : Fin cfg1.N) (hf : (cfg1.win 3).flush t = true) :
    (attnDat V c).flushed 3 t = ((cfg1.win 3).blk t).view.read (Elt Ideal) (CausalAttn.out qr kr vr) := by
  have h3 : t.val % 4 = 3 := (flush1_3 t).mp hf
  have hN : t.val < 32 := lt_of_lt_of_eq t.isLt (show cfg1.N = 32 from N_1)
  obtain ⟨a00, a01, a02, a10, a11, a12, a20, a21, a22, a30, a31, a32⟩ := attnIdx t
  show (cfg1.win 3).cut (grid1.coords t) ((attnDat V c).after 3 t) = _
  rw [attnAfter3]
  funext j
  obtain ⟨u, p, e, rfl⟩ : ∃ (u : Fin 1) (p : Fin 1024) (e : Fin 1024), j = ix3 u p e := ⟨j 0, j 1, j 2, eq_ix3 j⟩
  obtain rfl : u = 0 := Subsingleton.elim _ _
  have hp := p.isLt
  obtain ⟨b, hb⟩ : ∃ b : Fin 4, b.val = t.val / 8 := ⟨⟨t.val / 8, by omega⟩, rfl⟩
  obtain ⟨r, hr⟩ : ∃ r : Fin 2048, r.val = t.val / 4 % 2 * 1024 + p.val := ⟨⟨t.val / 4 % 2 * 1024 + p.val, by omega⟩, rfl⟩
  show (carried V c t.val t.isLt).1 (ix3 (0 : Fin 1) p e) = CausalAttn.out qr kr vr (((cfg1.win 3).blk t).view.emb (ix3 (0 : Fin 1) p e))
  rw [out_spec V c qr kr vr hq hk hv t.val t.isLt h3 p e b r hb hr]
  refine congrArg _ (funext fun a => Fin.ext ?_)
  match a with
  | ⟨0, _⟩ => show b.val = win1_3.index t (0 : Fin 3) * 1 + 1 * 0; omega
  | ⟨1, _⟩ => show r.val = win1_3.index t (1 : Fin 3) * 1024 + 1 * p.val; omega
  | ⟨2, _⟩ => show e.val = win1_3.index t (2 : Fin 3) * 1024 + 1 * e.val; omega

include hq hk hv in
/-- THE OUTPUT ARRAY after the region is the specification's output. -/
theorem attnFinalValue : (attnDat V c).arrAt 3 cfg1.N = CausalAttn.out qr kr vr :=
  (attnDat V c).arrAt_eq_of_cover 3 (CausalAttn.out qr kr vr) (fun t hf => attnFlushed V c qr kr vr hq hk hv t hf) fun i => by
    have hi0 : (i 0).val < 4 := (i 0).isLt
    have hi1 : (i 1).val < 2048 := (i 1).isLt
    have hi2 : (i 2).val < 1024 := (i 2).isLt
    have hN : cfg1.N = 32 := N_1
    obtain ⟨t, ht⟩ : ∃ t : Fin cfg1.N, t.val = 8 * (i 0).val + 4 * ((i 1).val / 1024) + 3 :=
      ⟨⟨8 * (i 0).val + 4 * ((i 1).val / 1024) + 3, by rw [hN]; omega⟩, rfl⟩
    refine ⟨t, (flush1_3 t).mpr (by omega), ?_⟩
    obtain ⟨a00, a01, a02, a10, a11, a12, a20, a21, a22, a30, a31, a32⟩ := attnIdx t
    show i ∈ ((View.whole main_v13).slice (win1_3.rect t)).set
    rw [View.set_slice_whole, Rect.mem_set_unit]
    intro a
    match a with
    | ⟨0, _⟩ => show win1_3.index t (0 : Fin 3) * 1 ≤ (i 0).val ∧ (i 0).val < win1_3.index t (0 : Fin 3) * 1 + 1
                rw [a30, ht]; omega
    | ⟨1, _⟩ => show win1_3.index t (1 : Fin 3) * 1024 ≤ (i 1).val ∧ (i 1).val < win1_3.index t (1 : Fin 3) * 1024 + 1024
                rw [a31, ht]; omega
    | ⟨2, _⟩ => show win1_3.index t (2 : Fin 3) * 1024 ≤ (i 2).val ∧ (i 2).val < win1_3.index t (2 : Fin 3) * 1024 + 1024
                rw [a32]; omega

end

end Cert.KernelIdeal.Hand

end
-- ==== Proof.ProjReal.lean ====
/-
  A projection of real arrays: entry (b, r, e) of the projected array is the inner product of row (b, r) of the input
  with row e of the weight matrix; on the extended reals the same sum of products of the coerced entries is its coercion.
-/
import proofs.«174840_j29523605193128_2_alg».proof.Proof.CausalSpec

noncomputable section

namespace CausalAttn

open Idealize.ShloMosaic Idealize.ShloMosaic.ValueIdx

/-- The projected array. -/
def projReal (X : (⟨3, ![4, 2048, 1024]⟩ : Shape).Idx → ℝ) (W : (⟨2, ![1024, 1024]⟩ : Shape).Idx → ℝ) :
    (⟨3, ![4, 2048, 1024]⟩ : Shape).Idx → ℝ :=
  fun j => ∑ d : Fin 1024, X (ix3 (j 0) (j 1) d) * W (ix2 (j 2) d)

theorem projReal_coe (x : (⟨3, ![4, 2048, 1024]⟩ : Shape).Idx → EReal) (w : (⟨2, ![1024, 1024]⟩ : Shape).Idx → EReal)
    (X : (⟨3, ![4, 2048, 1024]⟩ : Shape).Idx → ℝ) (W : (⟨2, ![1024, 1024]⟩ : Shape).Idx → ℝ)
    (hx : ∀ j, x j = ((X j : ℝ) : EReal)) (hw : ∀ j, w j = ((W j : ℝ) : EReal)) (b : Fin 4) (r : Fin 2048) (e : Fin 1024) :
    ∑ d : Fin 1024, x (ix3 b r d) * w (ix2 e d) = ((projReal X W (ix3 b r e) : ℝ) : EReal) := by
  show _ = ((∑ d : Fin 1024, X (ix3 b r d) * W (ix2 e d) : ℝ) : EReal)
  rw [Attn.coe_sum]
  exact Finset.sum_congr rfl fun d _ => by rw [hx, hw, EReal.coe_mul]

end CausalAttn

end
-- ==== Proof.KernelValue.lean ====
/-
  The idealized kernel's run, read: for real inputs, the result array ends at the specification's output of the three
  real projections, and every argument ends as launched.
-/
import proofs.«174840_j29523605193128_2_alg».proof.Proof.WholeRunI
import proofs.«174840_j29523605193128_2_alg».proof.Proof.HostGlue
import proofs.«174840_j29523605193128_2_alg».proof.Proof.AttnFinal
import proofs.«174840_j29523605193128_2_alg».proof.Proof.ProjReal

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat)
open Cert.KernelIdeal Cert.KernelIdeal.Gen

variable (m : (ℓ : Loc nD τ sig) → Buf (Elt Ideal) ℓ) (ρ : Dev nD → PrngReg)

/-- A projected array the attention region finds is the coercion of the real projection. -/
theorem projSpec_real (x : S4x2048x1024.Idx → EReal) (w : S1024x1024.Idx → EReal) (X : S4x2048x1024.Idx → ℝ) (W : S1024x1024.Idx → ℝ)
    (hx : ∀ j, x j = ((X j : ℝ) : EReal)) (hw : ∀ j, w j = ((W j : ℝ) : EReal)) (j : S4x2048x1024.Idx) :
    projSpec x w j = ((CausalAttn.projReal X W j : ℝ) : EReal) := by
  obtain ⟨b, r, e, rfl⟩ : ∃ (b : Fin 4) (r : Fin 2048) (e : Fin 1024), j = ix3 b r e := ⟨j 0, j 1, j 2, eq_ix3 j⟩
  exact CausalAttn.projReal_coe x w X W hx hw b r e

theorem kernel_value (X0 X1 X2 : Dev nD → S4x2048x1024.Idx → ℝ) (W3 W4 W5 : Dev nD → S1024x1024.Idx → ℝ)
    (h0 : ∀ c j, (m ((c : Thread nD τ).loc main_arg0) : S4x2048x1024.Idx → EReal) j = ((X0 c j : ℝ) : EReal))
    (h1 : ∀ c j, (m ((c : Thread nD τ).loc main_arg1) : S4x2048x1024.Idx → EReal) j = ((X1 c j : ℝ) : EReal))
    (h2 : ∀ c j, (m ((c : Thread nD τ).loc main_arg2) : S4x2048x1024.Idx → EReal) j = ((X2 c j : ℝ) : EReal))
    (h3 : ∀ c j, (m ((c : Thread nD τ).loc main_arg3) : S1024x1024.Idx → EReal) j = ((W3 c j : ℝ) : EReal))
    (h4 : ∀ c j, (m ((c : Thread nD τ).loc main_arg4) : S1024x1024.Idx → EReal) j = ((W4 c j : ℝ) : EReal))
    (h5 : ∀ c j, (m ((c : Thread nD τ).loc main_arg5) : S1024x1024.Idx → EReal) j = ((W5 c j : ℝ) : EReal)) :
    θ_run defs (onTc (τ := τ) (main (F := Ideal))) ⟨m, fun _ => 0, ρ⟩ (fun r => ∀ c : Dev nD,
      r.2.mem ((c.tc : Thread nD τ).loc main_v13)
        = CausalAttn.out (CausalAttn.projReal (X0 c) (W3 c)) (CausalAttn.projReal (X1 c) (W4 c)) (CausalAttn.projReal (X2 c) (W5 c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) := by
  have hval : ∀ c : Dev nD, (attnDat (E3 m) c).arrAt 3 cfg1.N
      = CausalAttn.out (CausalAttn.projReal (X0 c) (W3 c)) (CausalAttn.projReal (X1 c) (W4 c)) (CausalAttn.projReal (X2 c) (W5 c)) := fun c =>
    attnFinalValue (E3 m) c _ _ _
      (fun j => by rw [qProj_eq m c]; exact projSpec_real _ _ _ _ (h0 c) (h3 c) j)
      (fun j => by rw [kProj_eq m c]; exact projSpec_real _ _ _ _ (h1 c) (h4 c) j)
      (fun j => by rw [vProj_eq m c]; exact projSpec_real _ _ _ _ (h2 c) (h5 c) j)
  refine (θ_run defs _ _).mono (fun _ h c => ?_) (run_all m ρ)
  exact ⟨((h c _ (mem_uc main_v13 (by decide))).trans (W4_arr m c 3)).trans (hval c),
    (h c _ (mem_uc main_arg0 (by decide))).trans (W4_main_arg0 m c),
    (h c _ (mem_uc main_arg1 (by decide))).trans (W4_main_arg1 m c),
    (h c _ (mem_uc main_arg2 (by decide))).trans (W4_main_arg2 m c),
    (h c _ (mem_uc main_arg3 (by decide))).trans (W4_main_arg3 m c),
    (h c _ (mem_uc main_arg4 (by decide))).trans (W4_main_arg4 m c),
    (h c _ (mem_uc main_arg5 (by decide))).trans (W4_main_arg5 m c)⟩

end Cert.KernelIdeal.Hand

end
-- ==== Proof.LibReduceLast3.lean ====
/-
  The host's one-axis `reduce` with a `maximum` body along the LAST axis of an `[a, b, c]` array, read at `(p, q)`.

  On the extended reals the reduce is the fold of `max` from its initial value over the `c` entries
  `x (p, q, k)`: the index of the reduced array with the coordinate `k` put back on axis 2 is `(p, q, k)`.
-/
import Idealize.ShloMosaic.PureOps.Ideal.Laws
import Idealize.ShloMosaic.Lib.ValueIdx

namespace LibReduceLast3

open Idealize.ShloMosaic Idealize.ShloMosaic.ValueIdx

variable {a b c : ℕ}

/-- Entry `(p, q)` of the reduced array with the coordinate `k` put back on the last axis is `(p, q, k)`. -/
theorem lift_last (h : Shape.Reduces ⟨3, ![a, b, c]⟩ [2] ⟨2, ![a, b]⟩) (p : Fin a) (q : Fin b) (k : Fin c) :
    h.lift (ix2 p q) k = ix3 p q k := by
  funext d
  apply Fin.ext
  match d with
  | ⟨0, h0⟩ =>
    show h.liftVal (ix2 p q) k.val ⟨0, h0⟩ = p.val
    unfold Shape.Reduces.liftVal
    split
    · next hc => exact absurd hc (show ¬ ((0 : ℕ) = 2) by decide)
    · split
      · rfl
      · next hlt => exact absurd (by decide : (0 : ℕ) < 2) hlt
  | ⟨1, h1⟩ =>
    show h.liftVal (ix2 p q) k.val ⟨1, h1⟩ = q.val
    unfold Shape.Reduces.liftVal
    split
    · next hc => exact absurd hc (show ¬ ((1 : ℕ) = 2) by decide)
    · split
      · rfl
      · next hlt => exact absurd (by decide : (1 : ℕ) < 2) hlt
  | ⟨2, h2⟩ =>
    show h.liftVal (ix2 p q) k.val ⟨2, h2⟩ = k.val
    unfold Shape.Reduces.liftVal
    split
    · rfl
    · next hc => exact absurd rfl hc

/-- The host's `reduce` with a `maximum` body along the last axis, at `(p, q)`: the fold of `max` from the initial
    value over the entries `x (p, q, k)`. -/
theorem hostMaxLast_apply {u : Shape} (x : (⟨3, ![a, b, c]⟩ : Shape).Idx → EReal) (init : u.Idx → EReal)
    (h' : Shape.ReducesTo ⟨3, ![a, b, c]⟩ [2] ⟨2, ![a, b]⟩) (h : Shape.Reduces ⟨3, ![a, b, c]⟩ [2] ⟨2, ![a, b]⟩)
    (hu : 0 < u.numel) (p : Fin a) (q : Fin b) :
    Host.reduce (FloatOps.maximumf (F := Ideal) (φ := .f32)) x init h' hu (ix2 p q)
      = (Finset.univ : Finset (Fin c)).fold max (init (Shape.Idx.first hu)) (fun k => x (ix3 p q k)) := by
  refine (Host.reduce_eq_fold_single (FloatOps.maximumf (F := Ideal) (φ := .f32)) x init h' h hu (ix2 p q)).trans ?_
  show (Finset.univ : Finset (Fin c)).fold max (init (Shape.Idx.first hu)) (x ∘ h.lift (ix2 p q)) = _
  exact congrArg (fun f => (Finset.univ : Finset (Fin c)).fold max (init (Shape.Idx.first hu)) f)
    (funext fun k => congrArg x (lift_last h p q k))

end LibReduceLast3
-- ==== Proof.RefSide.lean ====
/-
  The reference's result array is the attention function of its three projections. Reading the host program one
  operation at a time: the scores are the batched inner products of the projected queries and keys, zeroed above the
  diagonal and divided by 32; each row is shifted by its maximum (a fold of max from minus infinity), exponentiated,
  divided by the row's sum and multiplied into the projected values. For real projections this divide-early form is the
  tile-grouped quotient of the specification.
-/
import proofs.«174840_j29523605193128_2_alg».proof.Proof.Gen.ReferenceIdeal.Read
import proofs.«174840_j29523605193128_2_alg».proof.Proof.CausalSpec
import proofs.«174840_j29523605193128_2_alg».proof.Proof.LibMaskWords
import proofs.«174840_j29523605193128_2_alg».proof.Proof.LibReduceLast3
import Idealize.ShloMosaic.Lib.IdealHost

set_option maxRecDepth 16384

noncomputable section

namespace Cert.ReferenceIdeal.RefValue

open Idealize.ShloMosaic Idealize.ShloMosaic.TcCoe Idealize.ShloMosaic.ValueIdx Idealize.SL.Sem
open Cert.ReferenceIdeal Cert.ReferenceIdeal.Gen Cert.ReferenceIdeal.Read

/-- The reference's causal mask at (r, c): set exactly where the column does not exceed the row. -/
theorem mask_apply (r c : Fin 2048) : val_main_v5 (F := Ideal) (ix2 r c) = if c.val ≤ r.val then 1#1 else 0#1 := by
  have hr := r.isLt
  have hc := c.isLt
  rw [val_main_v5_apply, val_main_call0_v4_apply, val_main_call0_v2_apply, val_main_call0_v0_apply, val_main_call0_v1_apply,
    val_main_call0_c_apply, val_main_call0_v3_apply, val_main_v4_apply, val_main_c_apply, val_main_call0_v5_apply, val_main_call0_c_0_apply]
  show Scalar.select (IntOp.cmpi .sge (IntOp.addi (BitVec.ofNat 32 r.val) 0#32) (BitVec.ofNat 32 c.val)) 1#1 0#1 = _
  rw [show IntOp.addi (BitVec.ofNat 32 r.val) 0#32 = BitVec.ofNat 32 r.val from BitVec.add_zero _]
  exact CausalAttn.select_sge r.val c.val (by omega) (by omega) _ _

section
variable (x0 x1 x2 : (⟨S4x2048x1024, .f32⟩ : BufTy).Contents (Elt Ideal)) (x3 x4 x5 : (⟨S1024x1024, .f32⟩ : BufTy).Contents (Elt Ideal))
variable (qr kr vr : S4x2048x1024.Idx → ℝ)

/-- A projection at (b, r, e): the row (b, r) of the input against the row e of the weight matrix. -/
theorem proj0_apply (b : Fin 4) (r : Fin 2048) (e : Fin 1024) :
    val_main_v0 (F := Ideal) x0 x3 (ix3 b r e) = ∑ d : Fin 1024, x0 (ix3 b r d) * x3 (ix2 e d) := by
  rw [val_main_v0_apply]
  refine Finset.sum_congr rfl fun d _ => ?_
  congr 2
  · exact funext fun a => Fin.ext (by match a with | ⟨0, _⟩ => rfl | ⟨1, _⟩ => rfl | ⟨2, _⟩ => rfl)
  · exact funext fun a => Fin.ext (by match a with | ⟨0, _⟩ => rfl | ⟨1, _⟩ => rfl)
theorem proj1_apply (b : Fin 4) (r : Fin 2048) (e : Fin 1024) :
    val_main_v1 (F := Ideal) x1 x4 (ix3 b r e) = ∑ d : Fin 1024, x1 (ix3 b r d) * x4 (ix2 e d) := by
  rw [val_main_v1_apply]
  refine Finset.sum_congr rfl fun d _ => ?_
  congr 2
  · exact funext fun a => Fin.ext (by match a with | ⟨0, _⟩ => rfl | ⟨1, _⟩ => rfl | ⟨2, _⟩ => rfl)
  · exact funext fun a => Fin.ext (by match a with | ⟨0, _⟩ => rfl | ⟨1, _⟩ => rfl)
theorem proj2_apply (b : Fin 4) (r : Fin 2048) (e : Fin 1024) :
    val_main_v2 (F := Ideal) x2 x5 (ix3 b r e) = ∑ d : Fin 1024, x2 (ix3 b r d) * x5 (ix2 e d) := by
  rw [val_main_v2_apply]
  refine Finset.sum_congr rfl fun d _ => ?_
  congr 2
  · exact funext fun a => Fin.ext (by match a with | ⟨0, _⟩ => rfl | ⟨1, _⟩ => rfl | ⟨2, _⟩ => rfl)
  · exact funext fun a => Fin.ext (by match a with | ⟨0, _⟩ => rfl | ⟨1, _⟩ => rfl)

variable (hq : ∀ j, val_main_v0 (F := Ideal) x0 x3 j = ((qr j : ℝ) : EReal))
  (hk : ∀ j, val_main_v1 (F := Ideal) x1 x4 j = ((kr j : ℝ) : EReal))
  (hv : ∀ j, val_main_v2 (F := Ideal) x2 x5 j = ((vr j : ℝ) : EReal))

include hq hk in
set_option backward.isDefEq.respectTransparency.types false in
set_option maxRecDepth 65536 in
/-- The masked, scaled score at (b, r, c) is the specification's. -/
theorem score_apply (b : Fin 4) (r c : Fin 2048) :
    val_main_v8 (F := Ideal) x0 x1 x3 x4 (ix3 b r c) = ((CausalAttn.score qr kr b r c : ℝ) : EReal) := by
  have h3 := val_main_v3_apply x0 x1 x3 x4 (ix3 b r c)
  rw [val_main_v8_apply, val_main_v6_apply, val_main_call1_v1_apply, val_main_v7_apply, val_main_cst_0_apply,
    val_main_call1_v2_apply, val_main_call1_v0_apply, val_main_cst_apply, h3]
  rw [show idx_main_call1_v1 (ix3 b r c) = ix2 r c from
    funext fun a => Fin.ext (by match a with | ⟨0, _⟩ => rfl | ⟨1, _⟩ => rfl), mask_apply]
  simp only [Ideal.hostDivf_def, Ideal.ofBits_def, CausalAttn.ofBits_32, Attn.ofBits_zero]
  rw [Ideal.div_coe (by norm_num : (32 : ℝ) ≠ 0)]
  unfold CausalAttn.score
  by_cases h : c.val ≤ r.val
  · rw [if_pos h, if_pos h, ValueIdx.select_one, EReal.coe_mul, Attn.coe_sum]
    congr 1
    refine Finset.sum_congr rfl fun e _ => ?_
    rw [show lidx_main_v3 (ix3 b r c) e = ix3 b r e from
        funext fun a => Fin.ext (by match a with | ⟨0, _⟩ => rfl | ⟨1, _⟩ => rfl | ⟨2, _⟩ => rfl),
      show ridx_main_v3 (ix3 b r c) e = ix3 b c e from
        funext fun a => Fin.ext (by match a with | ⟨0, _⟩ => rfl | ⟨1, _⟩ => rfl | ⟨2, _⟩ => rfl),
      hq, hk, EReal.coe_mul]
  · rw [if_neg h, if_neg h, ValueIdx.select_zero, EReal.coe_mul, EReal.coe_zero]

include hq hk in
/-- The row maximum the reference subtracts: the larger of minus infinity and the fold of max from minus infinity. -/
theorem rowMax_apply (b : Fin 4) (r c : Fin 2048) :
    val_main_v13 (F := Ideal) x0 x1 x3 x4 (ix3 b r c)
      = max ⊥ ((Finset.univ : Finset (Fin 2048)).fold max ⊥ fun c' => val_main_v8 (F := Ideal) x0 x1 x3 x4 (ix3 b r c')) := by
  rw [val_main_v13_apply, val_main_v12_apply, val_main_v11_apply, val_main_v10_apply, val_main_cst_2_apply]
  rw [show idx_main_v12 (idx_main_v13 (ix3 b r c)) = ix2 b r from
    funext fun a => Fin.ext (by match a with | ⟨0, _⟩ => rfl | ⟨1, _⟩ => rfl)]
  simp only [Ideal.maximumf_def, Ideal.ofBits_def, Attn.ofBits_neg_inf]
  refine congrArg (max (⊥ : EReal)) ?_
  unfold val_main_v9
  refine (LibReduceLast3.hostMaxLast_apply _ _ reducesTo_S4x2048x2048_S4x2048_d2 (by decide) h_S_ b r).trans ?_
  show (Finset.univ : Finset (Fin 2048)).fold max (Ideal.ofBits .f32 0xFF800000#32) _ = _
  rw [Attn.ofBits_neg_inf]

include hq hk in
/-- A weight before the division: exp of the score minus the row maximum. -/
theorem weight_apply (b : Fin 4) (r c : Fin 2048) :
    val_main_v15 (F := Ideal) x0 x1 x3 x4 (ix3 b r c)
      = Ideal.exp (val_main_v8 (F := Ideal) x0 x1 x3 x4 (ix3 b r c)
          - max ⊥ ((Finset.univ : Finset (Fin 2048)).fold max ⊥ fun c' => val_main_v8 (F := Ideal) x0 x1 x3 x4 (ix3 b r c'))) := by
  rw [val_main_v15_apply, val_main_v14_apply, rowMax_apply x0 x1 x3 x4 qr kr hq hk b r c]
  rfl

include hq hk in
/-- The row's weight sum, as the host adds it: the zero word plus the sum. -/
theorem weightSum_apply (b : Fin 4) (r c : Fin 2048) :
    val_main_v18 (F := Ideal) x0 x1 x3 x4 (ix3 b r c)
      = Ideal.ofBits .f32 0x00000000#32 + ∑ c' : Fin 2048, Ideal.exp (val_main_v8 (F := Ideal) x0 x1 x3 x4 (ix3 b r c')
          - max ⊥ ((Finset.univ : Finset (Fin 2048)).fold max ⊥ fun c'' => val_main_v8 (F := Ideal) x0 x1 x3 x4 (ix3 b r c''))) := by
  rw [val_main_v18_apply, val_main_v17_apply, val_main_v16_apply, val_main_cst_3_apply]
  refine congrArg (Ideal.ofBits .f32 0x00000000#32 + ·) ?_
  refine Finset.sum_congr rfl fun c' _ => ?_
  rw [show idx_main_v16 (idx_main_v17 (idx_main_v18 (ix3 b r c))) c' = ix3 b r c' from
    funext fun a => Fin.ext (by match a with | ⟨0, _⟩ => rfl | ⟨1, _⟩ => rfl | ⟨2, _⟩ => rfl)]
  exact weight_apply x0 x1 x3 x4 qr kr hq hk b r c'

include hq hk hv in
/-- THE REFERENCE'S RESULT is the specification's output of the three real projections. -/
theorem result_eq : val_main_v20 (F := Ideal) x0 x1 x2 x3 x4 x5 = CausalAttn.out qr kr vr := by
  funext i
  obtain ⟨b, r, e, rfl⟩ : ∃ (b : Fin 4) (r : Fin 2048) (e : Fin 1024), i = ix3 b r e := ⟨i 0, i 1, i 2, eq_ix3 i⟩
  rw [val_main_v20_apply, CausalAttn.out_ix3]
  have key := BlockedSoftmax.plain_eq_blocked (J := 4) (B := 512) (T := 2048) (by norm_num) (by norm_num)
    (fun c => CausalAttn.score qr kr b r c) (fun c e => vr (ix3 b c e)) e
    (fun c => val_main_v8 (F := Ideal) x0 x1 x3 x4 (ix3 b r c)) (fun c => score_apply x0 x1 x3 x4 qr kr hq hk b r c)
    (fun c => val_main_v2 (F := Ideal) x2 x5 (ix3 b c e)) (fun c => hv _)
    (max ⊥ ((Finset.univ : Finset (Fin 2048)).fold max ⊥ fun c' => val_main_v8 (F := Ideal) x0 x1 x3 x4 (ix3 b r c'))) rfl
    (Ideal.ofBits .f32 0x00000000#32) Attn.ofBits_zero
  refine Eq.trans ?_ key
  refine Finset.sum_congr rfl fun c _ => ?_
  rw [show lidx_main_v20 (ix3 b r e) c = ix3 b r c from
      funext fun a => Fin.ext (by match a with | ⟨0, _⟩ => rfl | ⟨1, _⟩ => rfl | ⟨2, _⟩ => rfl),
    show ridx_main_v20 (ix3 b r e) c = ix3 b c e from
      funext fun a => Fin.ext (by match a with | ⟨0, _⟩ => rfl | ⟨1, _⟩ => rfl | ⟨2, _⟩ => rfl)]
  refine congrArg (· * val_main_v2 (F := Ideal) x2 x5 (ix3 b c e)) ?_
  rw [val_main_v19_apply, weight_apply x0 x1 x3 x4 qr kr hq hk b r c, weightSum_apply x0 x1 x3 x4 qr kr hq hk b r c]
  rfl

end

end Cert.ReferenceIdeal.RefValue

end
-- ==== Proof.FiniteInputs.lean ====
/-
  The precondition read back: it says that the absolute value of every entry of the six inputs is below the f32
  pattern of +infinity. On the extended reals that pattern is the top element and |x| = max x (-x), so every entry is a real
  number: neither infinity is below the top element in absolute value.
-/
import proofs.«174840_j29523605193128_2_alg».proof.Pre_finite_inputs
import Idealize.ShloMosaic.Lib.ReduceAll
import Idealize.ShloMosaic.Lib.Affine
import Idealize.ShloMosaic.Lib.ValueIdx
import Idealize.ShloMosaic.PureOps.Ideal

set_option maxRecDepth 16384

noncomputable section

namespace Cert.Pre_finite_inputs.Decode

open Idealize.ShloMosaic Cert.Pre_finite_inputs

instance : Subsingleton S_.Idx := ⟨fun a b => funext fun d => d.elim0⟩

/-- The f32 pattern of +infinity denotes the top element. -/
theorem ofBits_inf : Ideal.ofBits .f32 0x7F800000#32 = ⊤ := by simp [Ideal.ofBits, Ideal.ieee]

/-- An extended real whose absolute value compares below the top element is a real. -/
theorem real_of_abs_lt (x : EReal) (h : Ideal.cmp .olt (max x (-x)) ⊤ = 1#1) : ∃ r : ℝ, x = r := by
  have hlt : max x (-x) < ⊤ := by
    by_contra hn
    have hd : decide (max x (-x) < ⊤) = false := decide_eq_false hn
    simp only [Ideal.cmp, hd] at h
    exact absurd h (by decide)
  induction x using EReal.rec with
  | bot => simp at hlt
  | coe r => exact ⟨r, rfl⟩
  | top => simp at hlt

variable [Facts]
open Facts

/-- One input: the all-reduce of the entrywise test came out 1, so every entry is a real. -/
theorem reals_of_all {s : Shape} (x : FVec Ideal s .f32) (hb : S_.BroadcastsInDim s (![] : Fin 0 → Fin s.rank)) {axes : List (Fin s.rank)}
    (hr : s.ReducesTo axes S_) (hu : 0 < S_.numel)
    (e : Host.reduce IntOp.andi (cmpf .olt (Host.absf x) (broadcastInDim s ![] hb (constant (F := Ideal) S_ .f32 0x7F800000#32)))
        (constantI S_ 1 1#1) hr hu ValueIdx.ix0 = 1#1) (j : s.Idx) : ∃ r : ℝ, x j = r := by
  have hj := Host.reduce_andi_all _ _ hr hu ValueIdx.ix0 e j
  refine real_of_abs_lt (x j) ?_
  rw [← ofBits_inf]
  exact hj

/-- THE PRECONDITION, read back: every entry of every input is a real number. -/
theorem reals_of_pre (x0 x1 x2 : FVec Ideal S4x2048x1024 .f32) (x3 x4 x5 : FVec Ideal S1024x1024 .f32)
    (h : fn (F := Ideal) x0 x1 x2 x3 x4 x5 = fun _ => 1#1) :
    (∀ j, ∃ r : ℝ, x0 j = r) ∧ (∀ j, ∃ r : ℝ, x1 j = r) ∧ (∀ j, ∃ r : ℝ, x2 j = r)
    ∧ (∀ j, ∃ r : ℝ, x3 j = r) ∧ (∀ j, ∃ r : ℝ, x4 j = r) ∧ (∀ j, ∃ r : ℝ, x5 j = r) := by
  have h0 := congrFun h ValueIdx.ix0
  dsimp only [fn, fn_part1] at h0
  simp only [Idealize.ShloMosaic.andi, IntOp.andi_eq_one] at h0
  obtain ⟨⟨⟨⟨⟨r0, r1⟩, r2⟩, r3⟩, r4⟩, r5⟩ := h0
  exact ⟨reals_of_all x0 _ _ _ r0, reals_of_all x1 _ _ _ r1, reals_of_all x2 _ _ _ r2,
    reals_of_all x3 _ _ _ r3, reals_of_all x4 _ _ _ r4, reals_of_all x5 _ _ _ r5⟩

end Cert.Pre_finite_inputs.Decode

end
-- ==== Proof.Claims.lean ====
/-
  The five claims. The three frames: the word-level kernel and the idealized kernel by the whole run (every argument
  ends as launched), the reference by its run with the result dropped. The idealization rewrote nothing. The two
  idealized programs, run from memories that agree on the six inputs, end with equal results: under the precondition
  every input entry is a real, so the three projections are real arrays, and both results are the attention function of
  those projections — the kernel's by its tile-by-tile accumulation, the reference's by its divide-early softmax.
-/
import proofs.«174840_j29523605193128_2_alg».proof.Defs
import proofs.«174840_j29523605193128_2_alg».proof.Proof.WholeRunB
import proofs.«174840_j29523605193128_2_alg».proof.Proof.KernelValue
import proofs.«174840_j29523605193128_2_alg».proof.Proof.RefSide
import proofs.«174840_j29523605193128_2_alg».proof.Proof.FiniteInputs
import proofs.«174840_j29523605193128_2_alg».proof.Proof.Gen.Kernel
import proofs.«174840_j29523605193128_2_alg».proof.Proof.Gen.KernelIdeal
import proofs.«174840_j29523605193128_2_alg».proof.Proof.Gen.ReferenceIdeal
import proofs.«174840_j29523605193128_2_alg».proof.Proof.Gen.Pre_finite_inputs
import proofs.«174840_j29523605193128_2_alg».proof.Proof.Gen.ReferenceIdeal.Run
import proofs.«174840_j29523605193128_2_alg».proof.Proof.Gen.ReferenceIdeal.Read

set_option maxRecDepth 16384

noncomputable section

namespace Cert.Proof.AttnClaims

open Idealize.ShloMosaic Idealize.ShloMosaic.TcCoe Idealize.ShloMosaic.ValueIdx Idealize.SL.Sem

theorem frame_k : Cert.frame_Kernel := fun m ρ _ => Cert.Kernel.Hand.frame_all m ρ
theorem frame_ki : Cert.frame_KernelIdeal := fun m ρ _ => Cert.KernelIdeal.Hand.frame_all m ρ
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

theorem algebraic : Cert.algebraic_KernelIdeal_ReferenceIdeal := by
  intro m ρ m' ρ' hpre hagree
  have hre := fun c => Cert.Pre_finite_inputs.Decode.reals_of_pre _ _ _ _ _ _ (hpre c)
  have g0 := fun c => (hre c).1
  have g1 := fun c => (hre c).2.1
  have g2 := fun c => (hre c).2.2.1
  have g3 := fun c => (hre c).2.2.2.1
  have g4 := fun c => (hre c).2.2.2.2.1
  have g5 := fun c => (hre c).2.2.2.2.2
  choose X0 h0 using g0
  choose X1 h1 using g1
  choose X2 h2 using g2
  choose W3 h3 using g3
  choose W4 h4 using g4
  choose W5 h5 using g5
  refine ⟨fun c => CausalAttn.out (CausalAttn.projReal (X0 c) (W3 c)) (CausalAttn.projReal (X1 c) (W4 c)) (CausalAttn.projReal (X2 c) (W5 c)),
    Cert.KernelIdeal.Hand.kernel_value m ρ X0 X1 X2 W3 W4 W5 h0 h1 h2 h3 h4 h5, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v20_eq, (hagree c).1, (hagree c).2.1, (hagree c).2.2.1, (hagree c).2.2.2.1,
    (hagree c).2.2.2.2.1, (hagree c).2.2.2.2.2]
  refine Cert.ReferenceIdeal.RefValue.result_eq _ _ _ _ _ _ _ _ _ (fun j => ?_) (fun j => ?_) (fun j => ?_)
  · obtain ⟨b, r, e, rfl⟩ : ∃ (b : Fin 4) (r : Fin 2048) (e : Fin 1024), j = ix3 b r e := ⟨j 0, j 1, j 2, eq_ix3 j⟩
    rw [Cert.ReferenceIdeal.RefValue.proj0_apply]
    exact CausalAttn.projReal_coe _ _ _ _ (h0 c) (h3 c) b r e
  · obtain ⟨b, r, e, rfl⟩ : ∃ (b : Fin 4) (r : Fin 2048) (e : Fin 1024), j = ix3 b r e := ⟨j 0, j 1, j 2, eq_ix3 j⟩
    rw [Cert.ReferenceIdeal.RefValue.proj1_apply]
    exact CausalAttn.projReal_coe _ _ _ _ (h1 c) (h4 c) b r e
  · obtain ⟨b, r, e, rfl⟩ : ∃ (b : Fin 4) (r : Fin 2048) (e : Fin 1024), j = ix3 b r e := ⟨j 0, j 1, j 2, eq_ix3 j⟩
    rw [Cert.ReferenceIdeal.RefValue.proj2_apply]
    exact CausalAttn.projReal_coe _ _ _ _ (h2 c) (h5 c) b r e

end Cert.Proof.AttnClaims

end
-- ==== Proof.lean ====
/-
  Causal attention with a zero mask: fused Q/K/V projections (a 16-point pipeline of 512-row tiles) followed by a
  tile-by-tile softmax accumulation over a (4, 2, 4) grid whose running maximum, sum and weighted sums are carried in
  scratch buffers across the key tiles, against a plain jnp reference. The certificate's five claims are assembled here
  from the modules under Proof/.
-/
import proofs.«174840_j29523605193128_2_alg».proof.Defs
import proofs.«174840_j29523605193128_2_alg».proof.Proof.Claims
import proofs.«174840_j29523605193128_2_alg».proof.Proof.Gen.Kernel
import proofs.«174840_j29523605193128_2_alg».proof.Proof.Gen.Kernel.Skeleton
import proofs.«174840_j29523605193128_2_alg».proof.Proof.Gen.Kernel.Launch
import proofs.«174840_j29523605193128_2_alg».proof.Proof.Gen.Kernel.Regions
import proofs.«174840_j29523605193128_2_alg».proof.Proof.Gen.Kernel.Points
import proofs.«174840_j29523605193128_2_alg».proof.Proof.Gen.KernelIdeal
import proofs.«174840_j29523605193128_2_alg».proof.Proof.Gen.KernelIdeal.Skeleton
import proofs.«174840_j29523605193128_2_alg».proof.Proof.Gen.KernelIdeal.Launch
import proofs.«174840_j29523605193128_2_alg».proof.Proof.Gen.KernelIdeal.Regions
import proofs.«174840_j29523605193128_2_alg».proof.Proof.Gen.KernelIdeal.Points
import proofs.«174840_j29523605193128_2_alg».proof.Proof.Gen.ReferenceIdeal
import proofs.«174840_j29523605193128_2_alg».proof.Proof.Gen.Pre_finite_inputs
import proofs.«174840_j29523605193128_2_alg».proof.Proof.Gen.ReferenceIdeal.Run
import proofs.«174840_j29523605193128_2_alg».proof.Proof.Gen.ReferenceIdeal.Read
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    AttnClaims.frame_k, AttnClaims.frame_ki, AttnClaims.frame_ri, AttnClaims.preserves, AttnClaims.algebraic⟩

end Cert.Proof

end
